-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S64x64 : Shape := ⟨2, ![64, 64]⟩
abbrev S256x512 : Shape := ⟨2, ![256, 512]⟩
abbrev S512 : Shape := ⟨1, ![512]⟩
abbrev S512x64 : Shape := ⟨2, ![512, 64]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S256x512 .f32) (main_arg9 : FVec F S512 .f32) (main_arg10 : FVec F S512x64 .f32) (main_arg11 : FVec F S64 .f32) (main_arg12 : FVec F S128x1 .f32) (main_arg13 : FVec F S1 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x64 .f32 := Host.absf main_arg10
  let main_cst_16 : FVec F S_ .f32 := constant S_ .f32 0x7F800000#32
  let main_v45 : FVec F S512x64 .f32 := broadcastInDim S512x64 ![] bcast_S_S512x64 main_cst_16
  let main_v46 : IVec S512x64 1 := cmpf .olt main_v44 main_v45
  let main_c_17 : IVec S_ 1 := constantI S_ 1 1#1
  let main_v47 : IVec S_ 1 := (fun x v => Host.reduce IntOp.andi x v reducesTo_S512x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S256x512 .f32) (main_arg9 : FVec F S512 .f32) (main_arg10 : FVec F S512x64 .f32) (main_arg11 : FVec F S64 .f32) (main_arg12 : FVec F S128x1 .f32) (main_arg13 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x256 .f32) (main_arg1 : IVec S2x800000 32) (main_arg2 : FVec F S800000 .f32) (main_arg3 : FVec F S50000x256 .f32) (main_arg4 : FVec F S256x64 .f32) (main_arg5 : FVec F S64 .f32) (main_arg6 : FVec F S64x64 .f32) (main_arg7 : FVec F S64 .f32) (main_arg8 : FVec F S256x512 .f32) (main_arg9 : FVec F S512 .f32) (main_arg10 : FVec F S512x64 .f32) (main_arg11 : FVec F S64 .f32) (main_arg12 : FVec F S128x1 .f32) (main_arg13 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x256 .f32 := Host.absf main_arg3
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_arg10 main_arg11 main_arg12 main_arg13 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S64x64 : Shape := ⟨2, ![64, 64]⟩
abbrev S256x512 : Shape := ⟨2, ![256, 512]⟩
abbrev S512 : Shape := ⟨1, ![512]⟩
abbrev S512x64 : Shape := ⟨2, ![512, 64]⟩
abbrev S128x1 : Shape := ⟨2, ![128, 1]⟩
abbrev S1 : Shape := ⟨1, ![1]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x512 : Shape := ⟨2, ![1, 512]⟩
abbrev S1x64 : Shape := ⟨2, ![1, 64]⟩
abbrev S1x1 : Shape := ⟨2, ![1, 1]⟩
abbrev S64x1 : Shape := ⟨2, ![64, 1]⟩
abbrev S50000x64 : Shape := ⟨2, ![50000, 64]⟩
abbrev S50000x1 : Shape := ⟨2, ![50000, 1]⟩
abbrev S2000x256 : Shape := ⟨2, ![2000, 256]⟩
abbrev S2000x64 : Shape := ⟨2, ![2000, 64]⟩
abbrev S2000x1 : Shape := ⟨2, ![2000, 1]⟩
abbrev S2000x512 : Shape := ⟨2, ![2000, 512]⟩
abbrev S850000x64 : Shape := ⟨2, ![850000, 64]⟩

abbrev nBuf : Space → Nat
  | .hbm => 105
  | .vmem => 21
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S50000x256, .f32⟩
  | .hbm, ⟨4, _⟩ => ⟨S256x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S256x512, .f32⟩
  | .hbm, ⟨9, _⟩ => ⟨S512, .f32⟩
  | .hbm, ⟨10, _⟩ => ⟨S512x64, .f32⟩
  | .hbm, ⟨11, _⟩ => ⟨S64, .f32⟩
  | .hbm, ⟨12, _⟩ => ⟨S128x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S50000, .i32⟩
  | .hbm, ⟨19, _⟩ => ⟨S850000, .i32⟩
  | .hbm, ⟨20, _⟩ => ⟨S850000, .i32⟩
  | .hbm, ⟨21, _⟩ => ⟨S_, .f32⟩
  | .hbm, ⟨22, _⟩ => ⟨S50000, .f32⟩
  | .hbm, ⟨23, _⟩ => ⟨S850000, .f32⟩
  | .hbm, ⟨24, _⟩ => ⟨S_, .f32⟩
  | .hbm, ⟨25, _⟩ => ⟨S50000, .f32⟩
  | .hbm, ⟨26, _⟩ => ⟨S850000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000, .f32⟩
  | .hbm, ⟨58, _⟩ => ⟨S850000, .f32⟩
  | .hbm, ⟨59, _⟩ => ⟨S1x512, .f32⟩
  | .hbm, ⟨60, _⟩ => ⟨S1x64, .f32⟩
  | .hbm, ⟨61, _⟩ => ⟨S1x64, .f32⟩
  | .hbm, ⟨62, _⟩ => ⟨S1x1, .f32⟩
  | .hbm, ⟨63, _⟩ => ⟨S64x1, .f32⟩
  | .hbm, ⟨64, _⟩ => ⟨S64x1, .f32⟩
  | .hbm, ⟨65, _⟩ => ⟨S64x1, .f32⟩
  | .hbm, ⟨66, _⟩ => ⟨S1x64, .f32⟩
  | .hbm, ⟨67, _⟩ => ⟨S1x1, .f32⟩
  | .hbm, ⟨68, _⟩ => ⟨S50000x64, .f32⟩
  | .hbm, ⟨69, _⟩ => ⟨S50000x1, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S50000x1, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x1, .f32⟩
  | .hbm, ⟨96, _⟩ => ⟨S850000x1, .f32⟩
  | .hbm, ⟨97, _⟩ => ⟨S850000x1, .f32⟩
  | .hbm, ⟨98, _⟩ => ⟨S_, .f32⟩
  | .hbm, ⟨99, _⟩ => ⟨S50000x1, .f32⟩
  | .hbm, ⟨100, _⟩ => ⟨S850000x1, .i32⟩
  | .hbm, ⟨101, _⟩ => ⟨S50000x1, .f32⟩
  | .hbm, ⟨102, _⟩ => ⟨S50000x1, .f32⟩
  | .hbm, ⟨103, _⟩ => ⟨S50000x1, .f32⟩
  | .hbm, ⟨104, _⟩ => ⟨S50000x1, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x64, .f32⟩
  | .local _ .vmem, ⟨5, _⟩ => ⟨S256x512, .f32⟩
  | .local _ .vmem, ⟨6, _⟩ => ⟨S1x512, .f32⟩
  | .local _ .vmem, ⟨7, _⟩ => ⟨S512x64, .f32⟩
  | .local _ .vmem, ⟨8, _⟩ => ⟨S1x64, .f32⟩
  | .local _ .vmem, ⟨9, _⟩ => ⟨S64x1, .f32⟩
  | .local _ .vmem, ⟨10, _⟩ => ⟨S1x1, .f32⟩
  | .local _ .vmem, ⟨11, _⟩ => ⟨S2000x64, .f32⟩
  | .local _ .vmem, ⟨12, _⟩ => ⟨S2000x64, .f32⟩
  | .local _ .vmem, ⟨13, _⟩ => ⟨S2000x1, .f32⟩
  | .local _ .vmem, ⟨14, _⟩ => ⟨S2000x1, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S64x1, .f32⟩
  | .local _ .vmem, ⟨19, _⟩ => ⟨S2000x1, .f32⟩
  | .local _ .vmem, ⟨20, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43_0 : Ref sig .tc := ⟨.hbm, 68, rfl⟩
abbrev main_v43_1 : Ref sig .tc := ⟨.hbm, 69, rfl⟩
abbrev main_c_7 : Ref sig .tc := ⟨.hbm, 70, rfl⟩
abbrev main_v44 : Ref sig .tc := ⟨.hbm, 71, rfl⟩
abbrev main_v45 : Ref sig .tc := ⟨.hbm, 72, rfl⟩
abbrev main_c_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  shapeCasts_S512_S1x512 : S512.ShapeCasts S1x512
  shapeCasts_S64_S1x64 : S64.ShapeCasts S1x64
  shapeCasts_S1_S1x1 : S1.ShapeCasts S1x1
  slices_S128x1_S64x1_0_0 : S128x1.Slices ![0, 0] S64x1
  slices_S128x1_S64x1_64_0 : S128x1.Slices ![64, 0] S64x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S2000x64_S2000x64 : S2000x64.ShapeCasts S2000x64
  bcast_S_S50000x1 : S_.BroadcastsInDim S50000x1 (![] : Fin 0 → Fin S50000x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S64x64_S64x1_S64x1_1_0_0_1_n_n_wf : DotDims.WF S64x64 S64x1 S64x1 [1] [0] [0] [1] [] []
  dot_S1x64_S64x1_S1x1_1_0_0_1_n_n_wf : DotDims.WF S1x64 S64x1 S1x1 [1] [0] [0] [1] [] []
  dot_S2000x256_S256x64_S2000x64_1_0_0_1_n_n_wf : DotDims.WF S2000x256 S256x64 S2000x64 [1] [0] [0] [1] [] []
  dot_S2000x256_S256x512_S2000x512_1_0_0_1_n_n_wf : DotDims.WF S2000x256 S256x512 S2000x512 [1] [0] [0] [1] [] []
  dot_S2000x512_S512x64_S2000x64_1_0_0_1_n_n_wf : DotDims.WF S2000x512 S512x64 S2000x64 [1] [0] [0] [1] [] []
  dot_S2000x64_S64x1_S2000x1_1_0_0_1_n_n_wf : DotDims.WF S2000x64 S64x1 S2000x1 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S50000x64.size a
  hwx0_9 : ∀ i : grid0.Coords, EltTy.bits .f32 = 32 ∨ (Rect.block (s := S50000x64) S2000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x1.size a ≤ S50000x1.size a
  hwx0_10 : ∀ i : grid0.Coords, EltTy.bits .f32 = 32 ∨ (Rect.block (s := S50000x1) S2000x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43_0) S2000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v43_1) S2000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v56) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S2000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S64x64 : Shape := ⟨2, ![64, 64]⟩
abbrev S256x512 : Shape := ⟨2, ![256, 512]⟩
abbrev S512 : Shape := ⟨1, ![512]⟩
abbrev S512x64 : Shape := ⟨2, ![512, 64]⟩
abbrev S128x1 : Shape := ⟨2, ![128, 1]⟩
abbrev S1 : Shape := ⟨1, ![1]⟩
abbrev S1x800000 : Shape := ⟨2, ![1, 800000]⟩
abbrev S50000x512 : Shape := ⟨2, ![50000, 512]⟩
abbrev S1x512 : Shape := ⟨2, ![1, 512]⟩
abbrev S_ : Shape := ⟨0, ![]⟩
abbrev S50000x64 : Shape := ⟨2, ![50000, 64]⟩
abbrev S1x64 : Shape := ⟨2, ![1, 64]⟩
abbrev S50000 : Shape := ⟨1, ![50000]⟩
abbrev S850000 : Shape := ⟨1, ![850000]⟩
abbrev S850000x1 : Shape := ⟨2, ![850000, 1]⟩
abbrev S850000x64 : Shape := ⟨2, ![850000, 64]⟩
abbrev S50000x128 : Shape := ⟨2, ![50000, 128]⟩
abbrev S50000x1 : Shape := ⟨2, ![50000, 1]⟩
abbrev S1x1 : Shape := ⟨2, ![1, 1]⟩

abbrev nBuf : Space → Nat
  | .hbm => 159
  | .vmem => 0
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S50000x256, .f32⟩
  | 4 => ⟨S256x64, .f32⟩
  | 5 => ⟨S64, .f32⟩
  | 6 => ⟨S64x64, .f32⟩
  | 7 => ⟨S64, .f32⟩
  | 8 => ⟨S256x512, .f32⟩
  | 9 => ⟨S512, .f32⟩
  | 10 => ⟨S512x64, .f32⟩
  | 11 => ⟨S64, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S50000x512, .f32⟩
  | 19 => ⟨S1x512, .f32⟩
  | 20 => ⟨S50000x512, .f32⟩
  | 21 => ⟨S50000x512, .f32⟩
  | 22 => ⟨S_, .f32⟩
  | 23 => ⟨S50000x512, .f32⟩
  | 24 => ⟨S50000x512, .f32⟩
  | 25 => ⟨S50000x64, .f32⟩
  | 26 => ⟨S1x64, .f32⟩
  | 27 => ⟨S50000x64, .f32⟩
  | 28 => ⟨S50000x64, .f32⟩
  | 29 => ⟨S50000x64, .f32⟩
  | 30 => ⟨S50000, .i32⟩
  | 31 => ⟨S850000, .i32⟩
  | 32 => ⟨S850000, .i32⟩
  | 33 => ⟨S_, .f32⟩
  | 34 => ⟨S50000, .f32⟩
  | 35 => ⟨S850000, .f32⟩
  | 36 => ⟨S_, .f32⟩
  | 37 => ⟨S50000, .f32⟩
  | 38 => ⟨S850000x1, .i32⟩
  | 39 => ⟨S50000, .f32⟩
  | 40 => ⟨S_, .f32⟩
  | 41 => ⟨S50000, .f32⟩
  | 42 => ⟨S50000, .i1⟩
  | 43 => ⟨S_, .f32⟩
  | 44 => ⟨S50000, .f32⟩
  | 45 => ⟨S50000, .f32⟩
  | 46 => ⟨S50000, .f32⟩
  | 47 => ⟨S_, .f32⟩
  | 48 => ⟨S_, .f32⟩
  | 49 => ⟨S50000, .f32⟩
  | 50 => ⟨S50000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000, .f32⟩
  | 70 => ⟨S850000, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000x64, .f32⟩
  | 80 => ⟨S850000x1, .f32⟩
  | 81 => ⟨S850000x64, .f32⟩
  | 82 => ⟨S850000x64, .f32⟩
  | 83 => ⟨S_, .f32⟩
  | 84 => ⟨S50000x64, .f32⟩
  | 85 => ⟨S850000x1, .i32⟩
  | 86 => ⟨S50000x64, .f32⟩
  | 87 => ⟨S1x64, .f32⟩
  | 88 => ⟨S50000x64, .f32⟩
  | 89 => ⟨S50000x64, .f32⟩
  | 90 => ⟨S_, .f32⟩
  | 91 => ⟨S50000x64, .f32⟩
  | 92 => ⟨S50000x64, .f32⟩
  | 93 => ⟨S50000x64, .f32⟩
  | 94 => ⟨S50000, .i32⟩
  | 95 => ⟨S850000, .i32⟩
  | 96 => ⟨S850000, .i32⟩
  | 97 => ⟨S_, .f32⟩
  | 98 => ⟨S50000, .f32⟩
  | 99 => ⟨S850000, .f32⟩
  | 100 => ⟨S_, .f32⟩
  | 101 => ⟨S50000, .f32⟩
  | 102 => ⟨S850000x1, .i32⟩
  | 103 => ⟨S50000, .f32⟩
  | 104 => ⟨S_, .f32⟩
  | 105 => ⟨S50000, .f32⟩
  | 106 => ⟨S50000, .i1⟩
  | 107 => ⟨S_, .f32⟩
  | 108 => ⟨S50000, .f32⟩
  | 109 => ⟨S50000, .f32⟩
  | 110 => ⟨S50000, .f32⟩
  | 111 => ⟨S_, .f32⟩
  | 112 => ⟨S_, .f32⟩
  | 113 => ⟨S50000, .f32⟩
  | 114 => ⟨S50000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000, .f32⟩
  | 124 => ⟨S850000, .f32⟩
  | 125 => ⟨S_, .i32⟩
  | 126 => ⟨S850000, .i32⟩
  | 127 => ⟨S850000, .i1⟩
  | _ => ⟨S50000x256, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000, .f32⟩
  | 6 => ⟨S850000, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000x64, .f32⟩
  | 16 => ⟨S850000x1, .f32⟩
  | 17 => ⟨S850000x64, .f32⟩
  | 18 => ⟨S850000x64, .f32⟩
  | 19 => ⟨S_, .f32⟩
  | 20 => ⟨S50000x64, .f32⟩
  | 21 => ⟨S850000x1, .i32⟩
  | 22 => ⟨S50000x64, .f32⟩
  | 23 => ⟨S1x64, .f32⟩
  | 24 => ⟨S50000x64, .f32⟩
  | 25 => ⟨S50000x64, .f32⟩
  | 26 => ⟨S50000x128, .f32⟩
  | 27 => ⟨S50000x1, .f32⟩
  | 28 => ⟨S1x1, .f32⟩
  | 29 => ⟨S50000x1, .f32⟩
  | 30 => ⟨S50000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_v27 : Ref sig .tc := ⟨.hbm, 50, rfl⟩
abbrev main_c : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_5 : Ref sig .tc := ⟨.hbm, 61, rfl⟩
abbrev main_v36 : Ref sig .tc := ⟨.hbm, 62, rfl⟩
abbrev main_v37 : Ref sig .tc := ⟨.hbm, 63, rfl⟩
abbrev main_c_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_c_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call2_cst : Ref sig .tc := ⟨.hbm, 90, rfl⟩
abbrev main_call2_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_10 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_12 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_call3_v0 : Ref sig .tc := ⟨.hbm, 112, rfl⟩
abbrev main_call3_v1 : Ref sig .tc := ⟨.hbm, 113, rfl⟩
abbrev main_v75 : Ref sig .tc := ⟨.hbm, 114, rfl⟩
abbrev main_c_15 : Ref sig .tc := ⟨.hbm, 115, rfl⟩
abbrev main_v76 : Ref sig .tc := ⟨.hbm, 116, rfl⟩
abbrev main_v77 : Ref sig .tc := ⟨.hbm, 117, rfl⟩
abbrev main_c_16 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_17 : Ref sig .tc := ⟨.hbm, 125, rfl⟩
abbrev main_v84 : Ref sig .tc := ⟨.hbm, 126, rfl⟩
abbrev main_v85 : Ref sig .tc := ⟨.hbm, 127, rfl⟩
abbrev main_c_18 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_19 : Ref sig .tc := ⟨.hbm, 135, rfl⟩
abbrev main_v92 : Ref sig .tc := ⟨.hbm, 136, rfl⟩
abbrev main_v93 : Ref sig .tc := ⟨.hbm, 137, rfl⟩
abbrev main_c_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x256_S256x512_S50000x512_1_0_0_1_n_n_wf : DotDims.WF S50000x256 S256x512 S50000x512 [1] [0] [0] [1] [] []
  dot_S50000x512_S512x64_S50000x64_1_0_0_1_n_n_wf : DotDims.WF S50000x512 S512x64 S50000x64 [1] [0] [0] [1] [] []
  dot_S50000x256_S256x64_S50000x64_1_0_0_1_n_n_wf : DotDims.WF S50000x256 S256x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x128_S128x1_S50000x1_1_0_0_1_n_n_wf : DotDims.WF S50000x128 S128x1 S50000x1 [1] [0] [0] [1] [] []

variable [Facts₀]

def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The idealized kernel's run with its result named.

  The program is seven segments: three stretches of host operations, the first pipelined region, a stretch of host
  operations, the second pipelined region, and a last stretch of host operations. The contents of every buffer at each
  boundary are a fold from the launch memory: a stretch applies its operations, a region replaces its arrays by what
  its write-backs leave. Every weakly fair execution terminates without a fault, and the final memory holds, at every
  buffer that outlives the regions, the last boundary's contents. Read at the result buffer this names the result
  array; read at an argument it gives the argument back, since nothing writes one.
-/
import proofs.«152822_j8529805049887_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_result : θ_run defs (onTc (τ := τ) (main (F := F))) ⟨m, fun _ => 0, ρ⟩ (fun r => ∀ c : Dev nD,
      r.2.mem ((c.tc : Thread nD τ).loc main_v72) = W7 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v72 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.KernelIdeal.KRun

end
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.KPay.lean ====
/-
  The two kernels' arithmetic read at an index.

  Each grid point of the first kernel works on 2000 rows. From its blocks it computes two things. The first is the
  plain product of the block of node features with the first graph-convolution weight: entry (r, k) is the sum over
  l of x(r, l) · W(l, k). The second is the multilayer perceptron folded into the head: a hidden layer
  max(∑ₗ u(r, l) · A(l, k) + a(k), 0), a second layer ∑ₖ hidden(r, k) · B(k, j) + b(j), and the product of that row with
  a column f, plus a scalar. The second kernel adds a bias row to its block, clamps at zero and multiplies by a column:
  entry r is ∑ₖ max(g(r, k) + β(k), 0) · w(k). A change of float format is the identity on the extended reals, a
  product accumulated into the zero matrix is the plain sum over the contracted index, and a row broadcast down the
  block reads the row.
-/
import proofs.«152822_j8529805049887_2_alg».proof.Proof.Gen.KernelIdeal.Skeleton
import proofs.«152822_j8529805049887_2_alg».proof.Proof.LibDotRows
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.KPay

open Cert.KernelIdeal Cert.KernelIdeal.Gen Idealize.ShloMosaic Idealize.ShloMosaic.ValueIdx

/-- The scalar zero the kernels clamp against is the extended real 0. -/
theorem scalar_zero : (Scalar.ofBits (F := Ideal) .f32 0x00000000#32 : EReal) = 0 := Ideal.ofBits_zero_f32

/-- The first kernel's stored product, at row r and column k of the block. -/
theorem pay2_apply (v0 : FVec Ideal S2000x256 .f32) (v4 : FVec Ideal S256x64 .f32) (r : Fin 2000) (k : Fin 64) :
    k0_pay2 (F := Ideal) v0 v4 (ix2 r k) = ∑ l : Fin 256, v0 (ix2 r l) * v4 (ix2 l k) := by
  unfold k0_pay2
  exact matmul_zero_rows dot_S2000x256_S256x64_S2000x64_1_0_0_1_n_n none rfl rfl (fun _ _ => rfl) (fun _ _ => rfl)
    (fun _ _ => rfl) (fun _ _ => rfl) (truncf .bf16 v0 bitsLt_bf16_f32) (truncf .bf16 v4 bitsLt_bf16_f32) r k

/-- The hidden layer of the perceptron at (r, k). -/
theorem hidden_apply (v2 : FVec Ideal S2000x256 .f32) (v8 : FVec Ideal S256x512 .f32) (v11 : FVec Ideal S1x512 .f32)
    (r : Fin 2000) (k : Fin 512) :
    maximumf (addf (matmul dot_S2000x256_S256x512_S2000x512_1_0_0_1_n_n none (truncf .bf16 v2 bitsLt_bf16_f32)
        (truncf .bf16 v8 bitsLt_bf16_f32) (constant (F := Ideal) S2000x512 .f32 0x00000000#32))
        (broadcastTo S2000x512 v11 broadcasts_S1x512_S2000x512))
      (broadcast S2000x512 (Scalar.ofBits (F := Ideal) .f32 0x00000000#32)) (ix2 r k)
      = max (∑ l : Fin 256, v2 (ix2 r l) * v8 (ix2 l k) + v11 (ix2 (0 : Fin 1) k)) 0 := by
  rw [maximumf_apply, addf_apply, broadcast_apply, scalar_zero,
    broadcastTo_1b_ab_apply v11 broadcasts_S1x512_S2000x512 r k]
  refine congrArg (fun z => max (z + v11 (ix2 (0 : Fin 1) k)) 0) ?_
  exact matmul_zero_rows dot_S2000x256_S256x512_S2000x512_1_0_0_1_n_n none rfl rfl (fun _ _ => rfl) (fun _ _ => rfl)
    (fun _ _ => rfl) (fun _ _ => rfl) (truncf .bf16 v2 bitsLt_bf16_f32) (truncf .bf16 v8 bitsLt_bf16_f32) r k

/-- The first kernel's head product at row r: the perceptron's output row times the column. -/
theorem pay3_apply (v2 : FVec Ideal S2000x256 .f32) (v8 : FVec Ideal S256x512 .f32) (v11 : FVec Ideal S1x512 .f32)
    (v18 : FVec Ideal S512x64 .f32) (v21 : FVec Ideal S1x64 .f32) (v26 : FVec Ideal S64x1 .f32) (r : Fin 2000) :
    k0_pay3 (F := Ideal) v2 v8 v11 v18 v21 v26 (ix2 r (0 : Fin 1))
      = ∑ j : Fin 64, (∑ k : Fin 512, max (∑ l : Fin 256, v2 (ix2 r l) * v8 (ix2 l k) + v11 (ix2 (0 : Fin 1) k)) 0
            * v18 (ix2 k j) + v21 (ix2 (0 : Fin 1) j)) * v26 (ix2 j (0 : Fin 1)) := by
  unfold k0_pay3
  refine (matmul_zero_rows dot_S2000x64_S64x1_S2000x1_1_0_0_1_n_n none rfl rfl (fun _ _ => rfl) (fun _ _ => rfl)
    (fun _ _ => rfl) (fun _ _ => rfl) _ _ r (0 : Fin 1)).trans ?_
  refine Finset.sum_congr rfl fun j _ => ?_
  rw [truncf_apply, truncf_apply, shapeCast_self, addf_apply, shapeCast_self, shapeCast_self,
    broadcastTo_1b_ab_apply v21 broadcasts_S1x64_S2000x64 r j]
  refine congrArg (fun z => (z + v21 (ix2 (0 : Fin 1) j)) * v26 (ix2 j (0 : Fin 1))) ?_
  refine (matmul_zero_rows dot_S2000x512_S512x64_S2000x64_1_0_0_1_n_n none rfl rfl (fun _ _ => rfl) (fun _ _ => rfl)
    (fun _ _ => rfl) (fun _ _ => rfl) _ _ r j).trans ?_
  refine Finset.sum_congr rfl fun k _ => ?_
  rw [truncf_apply, truncf_apply]
  exact congrArg (· * v18 (ix2 k j)) (hidden_apply v2 v8 v11 r k)

/-- The scalar the head adds, broadcast down the block. -/
theorem pay4_apply (v30 : FVec Ideal S1x1 .f32) (r : Fin 2000) :
    k0_pay4 (F := Ideal) v30 (ix2 r (0 : Fin 1)) = v30 (ix2 (0 : Fin 1) (0 : Fin 1)) := by
  unfold k0_pay4
  rw [shapeCast_self]
  exact broadcastTo_1b_ab_apply v30 broadcasts_S1x1_S2000x1 r (0 : Fin 1)

/-- The head's stored value is the sum of the two. -/
theorem pay1_apply (a b : FVec Ideal S2000x1 .f32) (i : S2000x1.Idx) : k0_pay1 (F := Ideal) a b i = a i + b i := rfl

/-- The second kernel's stored value at row r. -/
theorem k1_pay1_apply (v0 : FVec Ideal S2000x64 .f32) (v2 : FVec Ideal S1x64 .f32) (v9 : FVec Ideal S64x1 .f32) (r : Fin 2000) :
    k1_pay1 (F := Ideal) v0 v2 v9 (ix2 r (0 : Fin 1))
      = ∑ k : Fin 64, max (v0 (ix2 r k) + v2 (ix2 (0 : Fin 1) k)) 0 * v9 (ix2 k (0 : Fin 1)) := by
  unfold k1_pay1
  refine (matmul_zero_rows dot_S2000x64_S64x1_S2000x1_1_0_0_1_n_n none rfl rfl (fun _ _ => rfl) (fun _ _ => rfl)
    (fun _ _ => rfl) (fun _ _ => rfl) _ _ r (0 : Fin 1)).trans ?_
  refine Finset.sum_congr rfl fun k _ => ?_
  rw [truncf_apply, truncf_apply, shapeCast_self, maximumf_apply, addf_apply, shapeCast_self, shapeCast_self,
    broadcast_apply, scalar_zero, broadcastTo_1b_ab_apply v2 broadcasts_S1x64_S2000x64 r k]

end Cert.KernelIdeal.KPay

end
-- ==== Proof.KReg.lean ====
/-
  What the two pipelined regions leave in their output arrays.

  Both regions walk the 50000 node rows in 25 blocks of 2000. A grid point t reads rows 2000·t … 2000·t + 1999 of its
  row-blocked input and the whole of every weight, bias and column, and writes rows 2000·t … 2000·t + 1999 of its
  outputs. Each output row depends on the same row of the input only, so what a point writes back is its block of one
  function of the whole arrays; the 25 blocks tile the output (row n lies in block n / 2000), hence after the region
  the output array IS that function of the arrays the region found.
-/
import proofs.«152822_j8529805049887_2_alg».proof.Proof.Gen.KernelIdeal.Frame
import proofs.«152822_j8529805049887_2_alg».proof.Proof.KPay
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section
open scoped BigOperators

namespace Cert.KernelIdeal.KReg

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.KernelIdeal.KPay

variable (V : (c : Dev nD) → (b : Ref sig .tc) → Buf (Elt Ideal) ((c : Thread nD τ).loc b))

theorem hz : (![0, 0] : Fin 2 → Nat) = fun _ => 0 := funext fun a => by fin_cases a <;> rfl

/-! ## What the three output arrays hold, as functions of the arrays the regions find -/

/-- The transformed node features: row n, column k is ∑ₗ X(n, l) · W(l, k). -/
def H1arr (X : FVec Ideal S50000x256 .f32) (W : FVec Ideal S256x64 .f32) : FVec Ideal S50000x64 .f32 :=
  fun i => ∑ l : Fin 256, X (ix2 (i 0) l) * W (ix2 l (i 1))

/-- The perceptron's output at row n, column j. -/
def MLPval (U : FVec Ideal S50000x256 .f32) (A : FVec Ideal S256x512 .f32) (a : FVec Ideal S1x512 .f32)
    (B : FVec Ideal S512x64 .f32) (b : FVec Ideal S1x64 .f32) (n : Fin 50000) (j : Fin 64) : EReal :=
  ∑ k : Fin 512, max (∑ l : Fin 256, U (ix2 n l) * A (ix2 l k) + a (ix2 (0 : Fin 1) k)) 0 * B (ix2 k j) + b (ix2 (0 : Fin 1) j)

/-- The head's first half: row n is ∑ⱼ mlp(n, j) · f(j) + s. -/
def HEADarr (U : FVec Ideal S50000x256 .f32) (A : FVec Ideal S256x512 .f32) (a : FVec Ideal S1x512 .f32)
    (B : FVec Ideal S512x64 .f32) (b : FVec Ideal S1x64 .f32) (f : FVec Ideal S64x1 .f32) (s : FVec Ideal S1x1 .f32) :
    FVec Ideal S50000x1 .f32 :=
  fun i => (∑ j : Fin 64, MLPval U A a B b (i 0) j * f (ix2 j (0 : Fin 1))) + s (ix2 (0 : Fin 1) (0 : Fin 1))

/-- The second kernel's output: row n is ∑ₖ max(G(n, k) + β(k), 0) · w(k). -/
def SPREarr (G : FVec Ideal S50000x64 .f32) (β : FVec Ideal S1x64 .f32) (w : FVec Ideal S64x1 .f32) : FVec Ideal S50000x1 .f32 :=
  fun i => ∑ k : Fin 64, max (G (ix2 (i 0) k) + β (ix2 (0 : Fin 1) k)) 0 * w (ix2 k (0 : Fin 1))

/-! ## One grid point: the body's result at an index of its block -/

theorem h1_point (x0 : FVec Ideal S2000x256 .f32) (x2 : FVec Ideal S256x64 .f32) (X : FVec Ideal S50000x256 .f32)
    (W : FVec Ideal S256x64 .f32) (y : S2000x64.Idx) (i : S50000x64.Idx)
    (hx : ∀ l : Fin 256, x0 (ix2 (y 0) l) = X (ix2 (i 0) l)) (hw : ∀ l : Fin 256, x2 (ix2 l (y 1)) = W (ix2 l (i 1))) :
    k0_pay2 (F := Ideal) x0 x2 y = H1arr X W i := by
  obtain ⟨p, q, rfl⟩ : ∃ (p : Fin 2000) (q : Fin 64), y = ix2 p q := ⟨y 0, y 1, eq_ix2 y⟩
  rw [pay2_apply]
  unfold H1arr
  exact Finset.sum_congr rfl fun l _ => congrArg₂ (· * ·) (hx l) (hw l)

theorem head_point (x1 : FVec Ideal S2000x256 .f32) (A : FVec Ideal S256x512 .f32) (a : FVec Ideal S1x512 .f32)
    (B : FVec Ideal S512x64 .f32) (b : FVec Ideal S1x64 .f32) (f : FVec Ideal S64x1 .f32) (s : FVec Ideal S1x1 .f32)
    (U : FVec Ideal S50000x256 .f32) (y : S2000x1.Idx) (i : S50000x1.Idx)
    (hU : ∀ l : Fin 256, x1 (ix2 (y 0) l) = U (ix2 (i 0) l)) :
    k0_pay1 (F := Ideal) (k0_pay3 x1 A a B b f) (k0_pay4 s) y = HEADarr U A a B b f s i := by
  obtain ⟨p, q, rfl⟩ : ∃ (p : Fin 2000) (q : Fin 1), y = ix2 p q := ⟨y 0, y 1, eq_ix2 y⟩
  obtain rfl : q = 0 := Subsingleton.elim _ _
  rw [pay1_apply, pay3_apply, pay4_apply]
  unfold HEADarr MLPval
  refine congrArg (· + s (ix2 (0 : Fin 1) (0 : Fin 1))) ?_
  refine Finset.sum_congr rfl fun j _ => ?_
  refine congrArg (fun z => (z + b (ix2 (0 : Fin 1) j)) * f (ix2 j (0 : Fin 1))) ?_
  refine Finset.sum_congr rfl fun k _ => ?_
  refine congrArg (fun z => max (z + a (ix2 (0 : Fin 1) k)) 0 * B (ix2 k j)) ?_
  exact Finset.sum_congr rfl fun l _ => congrArg (· * A (ix2 l k)) (hU l)

theorem spre_point (x0 : FVec Ideal S2000x64 .f32) (β : FVec Ideal S1x64 .f32) (w : FVec Ideal S64x1 .f32)
    (G : FVec Ideal S50000x64 .f32) (y : S2000x1.Idx) (i : S50000x1.Idx)
    (hG : ∀ k : Fin 64, x0 (ix2 (y 0) k) = G (ix2 (i 0) k)) :
    k1_pay1 (F := Ideal) x0 β w y = SPREarr G β w i := by
  obtain ⟨p, q, rfl⟩ : ∃ (p : Fin 2000) (q : Fin 1), y = ix2 p q := ⟨y 0, y 1, eq_ix2 y⟩
  obtain rfl : q = 0 := Subsingleton.elim _ _
  rw [k1_pay1_apply]
  unfold SPREarr
  exact Finset.sum_congr rfl fun k _ =>
    congrArg (fun z => max (z + β (ix2 (0 : Fin 1) k)) 0 * w (ix2 k (0 : Fin 1))) (hG k)

/-! ## The printed index maps, decided over the 25 grid points -/

theorem idx_facts0 : ∀ t : Fin cfg0.N,
    win0_0.index t (0 : Fin 2) = win0_9.index t (0 : Fin 2) ∧ win0_0.index t (1 : Fin 2) = 0
    ∧ win0_1.index t (0 : Fin 2) = win0_10.index t (0 : Fin 2) ∧ win0_1.index t (1 : Fin 2) = 0
    ∧ win0_9.index t (1 : Fin 2) = 0 ∧ win0_10.index t (1 : Fin 2) = 0 :=
  (by decide +kernel : ∀ t : Fin grid0.N, _)

theorem idx_facts1 : ∀ t : Fin cfg1.N,
    win1_0.index t (0 : Fin 2) = win1_3.index t (0 : Fin 2) ∧ win1_0.index t (1 : Fin 2) = 0
    ∧ win1_3.index t (1 : Fin 2) = 0 :=
  (by decide +kernel : ∀ t : Fin grid1.N, _)

theorem whole_facts0_2 : ∀ t : Fin cfg0.N, win0_2.index t (0 : Fin 2) = 0 ∧ win0_2.index t (1 : Fin 2) = 0 :=
  (by decide +kernel : ∀ t : Fin grid0.N, _)
theorem whole_facts0_3 : ∀ t : Fin cfg0.N, win0_3.index t (0 : Fin 2) = 0 ∧ win0_3.index t (1 : Fin 2) = 0 :=
  (by decide +kernel : ∀ t : Fin grid0.N, _)
theorem whole_facts0_4 : ∀ t : Fin cfg0.N, win0_4.index t (0 : Fin 2) = 0 ∧ win0_4.index t (1 : Fin 2) = 0 :=
  (by decide +kernel : ∀ t : Fin grid0.N, _)
theorem whole_facts0_5 : ∀ t : Fin cfg0.N, win0_5.index t (0 : Fin 2) = 0 ∧ win0_5.index t (1 : Fin 2) = 0 :=
  (by decide +kernel : ∀ t : Fin grid0.N, _)
theorem whole_facts0_6 : ∀ t : Fin cfg0.N, win0_6.index t (0 : Fin 2) = 0 ∧ win0_6.index t (1 : Fin 2) = 0 :=
  (by decide +kernel : ∀ t : Fin grid0.N, _)
theorem whole_facts0_7 : ∀ t : Fin cfg0.N, win0_7.index t (0 : Fin 2) = 0 ∧ win0_7.index t (1 : Fin 2) = 0 :=
  (by decide +kernel : ∀ t : Fin grid0.N, _)
theorem whole_facts0_8 : ∀ t : Fin cfg0.N, win0_8.index t (0 : Fin 2) = 0 ∧ win0_8.index t (1 : Fin 2) = 0 :=
  (by decide +kernel : ∀ t : Fin grid0.N, _)

theorem whole_facts1_1 : ∀ t : Fin cfg1.N, win1_1.index t (0 : Fin 2) = 0 ∧ win1_1.index t (1 : Fin 2) = 0 :=
  (by decide +kernel : ∀ t : Fin grid1.N, _)
theorem whole_facts1_2 : ∀ t : Fin cfg1.N, win1_2.index t (0 : Fin 2) = 0 ∧ win1_2.index t (1 : Fin 2) = 0 :=
  (by decide +kernel : ∀ t : Fin grid1.N, _)

theorem idx_onto0_9 : ∀ q0 : Fin 25, ∃ t : Fin cfg0.N, win0_9.index t = ![q0.val, 0] :=
  (by decide +kernel : ∀ q0 : Fin 25, ∃ t : Fin grid0.N, win0_9.index t = ![q0.val, 0])
theorem idx_onto0_10 : ∀ q0 : Fin 25, ∃ t : Fin cfg0.N, win0_10.index t = ![q0.val, 0] :=
  (by decide +kernel : ∀ q0 : Fin 25, ∃ t : Fin grid0.N, win0_10.index t = ![q0.val, 0])
theorem idx_onto1_3 : ∀ q0 : Fin 25, ∃ t : Fin cfg1.N, win1_3.index t = ![q0.val, 0] :=
  (by decide +kernel : ∀ q0 : Fin 25, ∃ t : Fin grid1.N, win1_3.index t = ![q0.val, 0])

/-! ## The windows that hold a whole array -/

/-- Window 2 of region 0 is its whole array at every point. -/
theorem iblk0_2_whole (c : Dev nD) (t : Fin cfg0.N) : iblk0 V c 2 t = V c main_arg4 := by
  obtain ⟨hw0, hw1⟩ := whole_facts0_2 t
  funext y
  show V c main_arg4 (((cfg0.win 2).blk t).view.emb y) = V c main_arg4 y
  refine congrArg (V c main_arg4) (funext fun a => Fin.ext ?_)
  match a with
  | ⟨0, _⟩ => show win0_2.index t (0 : Fin 2) * 256 + 1 * (y 0).val = (y 0).val; omega
  | ⟨1, _⟩ => show win0_2.index t (1 : Fin 2) * 64 + 1 * (y 1).val = (y 1).val; omega

/-- Window 3 of region 0 is its whole array at every point. -/
theorem iblk0_3_whole (c : Dev nD) (t : Fin cfg0.N) : iblk0 V c 3 t = V c main_arg8 := by
  obtain ⟨hw0, hw1⟩ := whole_facts0_3 t
  funext y
  show V c main_arg8 (((cfg0.win 3).blk t).view.emb y) = V c main_arg8 y
  refine congrArg (V c main_arg8) (funext fun a => Fin.ext ?_)
  match a with
  | ⟨0, _⟩ => show win0_3.index t (0 : Fin 2) * 256 + 1 * (y 0).val = (y 0).val; omega
  | ⟨1, _⟩ => show win0_3.index t (1 : Fin 2) * 512 + 1 * (y 1).val = (y 1).val; omega

/-- Window 4 of region 0 is its whole array at every point. -/
theorem iblk0_4_whole (c : Dev nD) (t : Fin cfg0.N) : iblk0 V c 4 t = V c main_v34 := by
  obtain ⟨hw0, hw1⟩ := whole_facts0_4 t
  funext y
  show V c main_v34 (((cfg0.win 4).blk t).view.emb y) = V c main_v34 y
  refine congrArg (V c main_v34) (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- Window 5 of region 0 is its whole array at every point. -/
theorem iblk0_5_whole (c : Dev nD) (t : Fin cfg0.N) : iblk0 V c 5 t = V c main_arg10 := by
  obtain ⟨hw0, hw1⟩ := whole_facts0_5 t
  funext y
  show V c main_arg10 (((cfg0.win 5).blk t).view.emb y) = V c main_arg10 y
  refine congrArg (V c main_arg10) (funext fun a => Fin.ext ?_)
  match a with
  | ⟨0, _⟩ => show win0_5.index t (0 : Fin 2) * 512 + 1 * (y 0).val = (y 0).val; omega
  | ⟨1, _⟩ => show win0_5.index t (1 : Fin 2) * 64 + 1 * (y 1).val = (y 1).val; omega

/-- Window 6 of region 0 is its whole array at every point. -/
theorem iblk0_6_whole (c : Dev nD) (t : Fin cfg0.N) : iblk0 V c 6 t = V c main_v35 := by
  obtain ⟨hw0, hw1⟩ := whole_facts0_6 t
  funext y
  show V c main_v35 (((cfg0.win 6).blk t).view.emb y) = V c main_v35 y
  refine congrArg (V c main_v35) (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- Window 7 of region 0 is its whole array at every point. -/
theorem iblk0_7_whole (c : Dev nD) (t : Fin cfg0.N) : iblk0 V c 7 t = V c main_v38 := by
  obtain ⟨hw0, hw1⟩ := whole_facts0_7 t
  funext y
  show V c main_v38 (((cfg0.win 7).blk t).view.emb y) = V c main_v38 y
  refine congrArg (V c main_v38) (funext fun a => Fin.ext ?_)
  match a with
  | ⟨0, _⟩ => show win0_7.index t (0 : Fin 2) * 64 + 1 * (y 0).val = (y 0).val; omega
  | ⟨1, _⟩ => show win0_7.index t (1 : Fin 2) * 1 + 1 * (y 1).val = (y 1).val; omega

/-- Window 8 of region 0 is its whole array at every point. -/
theorem iblk0_8_whole (c : Dev nD) (t : Fin cfg0.N) : iblk0 V c 8 t = V c main_v37 := by
  obtain ⟨hw0, hw1⟩ := whole_facts0_8 t
  funext y
  show V c main_v37 (((cfg0.win 8).blk t).view.emb y) = V c main_v37 y
  refine congrArg (V c main_v37) (funext fun a => Fin.ext ?_)
  match a with
  | ⟨0, _⟩ => show win0_8.index t (0 : Fin 2) * 1 + 1 * (y 0).val = (y 0).val; omega
  | ⟨1, _⟩ => show win0_8.index t (1 : Fin 2) * 1 + 1 * (y 1).val = (y 1).val; omega

/-- Window 1 of region 1 is its whole array at every point. -/
theorem iblk1_1_whole (c : Dev nD) (t : Fin cfg1.N) : iblk1 V c 1 t = V c main_v36 := by
  obtain ⟨hw0, hw1⟩ := whole_facts1_1 t
  funext y
  show V c main_v36 (((cfg1.win 1).blk t).view.emb y) = V c main_v36 y
  refine congrArg (V c main_v36) (funext fun a => Fin.ext ?_)
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- Window 2 of region 1 is its whole array at every point. -/
theorem iblk1_2_whole (c : Dev nD) (t : Fin cfg1.N) : iblk1 V c 2 t = V c main_v40 := by
  obtain ⟨hw0, hw1⟩ := whole_facts1_2 t
  funext y
  show V c main_v40 (((cfg1.win 2).blk t).view.emb y) = V c main_v40 y
  refine congrArg (V c main_v40) (funext fun a => Fin.ext ?_)
  match a with
  | ⟨0, _⟩ => show win1_2.index t (0 : Fin 2) * 64 + 1 * (y 0).val = (y 0).val; omega
  | ⟨1, _⟩ => show win1_2.index t (1 : Fin 2) * 1 + 1 * (y 1).val = (y 1).val; omega

/-! ## What a point writes back is its block of the whole-array function -/

theorem flushed0_9_eq (c : Dev nD) (t : Fin cfg0.N) :
    (dat0 V c).flushed 9 t = ((cfg0.win 9).blk t).view.read (Elt Ideal) (H1arr (V c main_arg0) (V c main_arg4)) := by
  show (cfg0.win 9).cut (grid0.coords t) ((dat0 V c).after 9 t) = _
  rw [after0_9]
  unfold out0_9
  rw [View.canon_unit_zero hz]
  simp only [View.ld_unit_zero (S := S2000x256) hz, View.ld_unit_zero (S := S256x64) hz]
  rw [iblk0_2_whole V c t]
  obtain ⟨e0, e1, e2, e3, e4, e5⟩ := idx_facts0 t
  funext j
  show k0_pay2 (F := Ideal) (iblk0 V c 0 t) (V c main_arg4) j = H1arr (V c main_arg0) (V c main_arg4) (((cfg0.win 9).blk t).view.emb j)
  refine h1_point (iblk0 V c 0 t) (V c main_arg4) (V c main_arg0) (V c main_arg4) j (((cfg0.win 9).blk t).view.emb j) ?_ ?_
  · intro l
    show V c main_arg0 (((cfg0.win 0).blk t).view.emb (ix2 (j 0) l)) = V c main_arg0 (ix2 ((((cfg0.win 9).blk t).view.emb j) 0) l)
    refine congrArg (V c main_arg0) (funext fun a => Fin.ext ?_)
    match a with
    | ⟨0, _⟩ => show win0_0.index t (0 : Fin 2) * 2000 + 1 * (j 0).val = win0_9.index t (0 : Fin 2) * 2000 + 1 * (j 0).val; omega
    | ⟨1, _⟩ => show win0_0.index t (1 : Fin 2) * 256 + 1 * l.val = l.val; omega
  · intro l
    refine congrArg (V c main_arg4) (funext fun a => Fin.ext ?_)
    match a with
    | ⟨0, _⟩ => rfl
    | ⟨1, _⟩ => show (j 1).val = win0_9.index t (1 : Fin 2) * 64 + 1 * (j 1).val; omega

theorem flushed0_10_eq (c : Dev nD) (t : Fin cfg0.N) :
    (dat0 V c).flushed 10 t = ((cfg0.win 10).blk t).view.read (Elt Ideal)
      (HEADarr (V c main_arg3) (V c main_arg8) (V c main_v34) (V c main_arg10) (V c main_v35) (V c main_v38) (V c main_v37)) := by
  show (cfg0.win 10).cut (grid0.coords t) ((dat0 V c).after 10 t) = _
  rw [after0_10]
  unfold out0_10
  rw [View.canon_unit_zero hz]
  simp only [View.ld_unit_zero (S := S2000x256) hz, View.ld_unit_zero (S := S256x512) hz, View.ld_unit_zero (S := S1x512) hz,
    View.ld_unit_zero (S := S512x64) hz, View.ld_unit_zero (S := S1x64) hz, View.ld_unit_zero (S := S64x1) hz,
    View.ld_unit_zero (S := S1x1) hz]
  rw [iblk0_3_whole V c t, iblk0_4_whole V c t, iblk0_5_whole V c t, iblk0_6_whole V c t, iblk0_7_whole V c t, iblk0_8_whole V c t]
  obtain ⟨e0, e1, e2, e3, e4, e5⟩ := idx_facts0 t
  funext j
  show k0_pay1 (F := Ideal) (k0_pay3 (iblk0 V c 1 t) (V c main_arg8) (V c main_v34) (V c main_arg10) (V c main_v35) (V c main_v38)) (k0_pay4 (V c main_v37)) j
    = HEADarr (V c main_arg3) (V c main_arg8) (V c main_v34) (V c main_arg10) (V c main_v35) (V c main_v38) (V c main_v37) (((cfg0.win 10).blk t).view.emb j)
  refine head_point (iblk0 V c 1 t) (V c main_arg8) (V c main_v34) (V c main_arg10) (V c main_v35) (V c main_v38) (V c main_v37)
    (V c main_arg3) j (((cfg0.win 10).blk t).view.emb j) ?_
  intro l
  show V c main_arg3 (((cfg0.win 1).blk t).view.emb (ix2 (j 0) l)) = V c main_arg3 (ix2 ((((cfg0.win 10).blk t).view.emb j) 0) l)
  refine congrArg (V c main_arg3) (funext fun a => Fin.ext ?_)
  match a with
  | ⟨0, _⟩ => show win0_1.index t (0 : Fin 2) * 2000 + 1 * (j 0).val = win0_10.index t (0 : Fin 2) * 2000 + 1 * (j 0).val; omega
  | ⟨1, _⟩ => show win0_1.index t (1 : Fin 2) * 256 + 1 * l.val = l.val; omega

theorem flushed1_3_eq (c : Dev nD) (t : Fin cfg1.N) :
    (dat1 V c).flushed 3 t = ((cfg1.win 3).blk t).view.read (Elt Ideal) (SPREarr (V c main_v56) (V c main_v36) (V c main_v40)) := by
  show (cfg1.win 3).cut (grid1.coords t) ((dat1 V c).after 3 t) = _
  rw [after1_3]
  unfold out1_3
  rw [View.canon_unit_zero hz]
  simp only [View.ld_unit_zero (S := S2000x64) hz, View.ld_unit_zero (S := S1x64) hz, View.ld_unit_zero (S := S64x1) hz]
  rw [iblk1_1_whole V c t, iblk1_2_whole V c t]
  obtain ⟨e0, e1, e2⟩ := idx_facts1 t
  funext j
  show k1_pay1 (F := Ideal) (iblk1 V c 0 t) (V c main_v36) (V c main_v40) j
    = SPREarr (V c main_v56) (V c main_v36) (V c main_v40) (((cfg1.win 3).blk t).view.emb j)
  refine spre_point (iblk1 V c 0 t) (V c main_v36) (V c main_v40) (V c main_v56) j (((cfg1.win 3).blk t).view.emb j) ?_
  intro k
  show V c main_v56 (((cfg1.win 0).blk t).view.emb (ix2 (j 0) k)) = V c main_v56 (ix2 ((((cfg1.win 3).blk t).view.emb j) 0) k)
  refine congrArg (V c main_v56) (funext fun a => Fin.ext ?_)
  match a with
  | ⟨0, _⟩ => show win1_0.index t (0 : Fin 2) * 2000 + 1 * (j 0).val = win1_3.index t (0 : Fin 2) * 2000 + 1 * (j 0).val; omega
  | ⟨1, _⟩ => show win1_0.index t (1 : Fin 2) * 64 + 1 * k.val = k.val; omega

/-! ## The blocks cover the arrays: row n lies in the block of point n / 2000 -/

theorem mem_blk0_9 (t : Fin cfg0.N) (i : S50000x64.Idx) :
    i ∈ ((cfg0.win 9).blk t).view.set ↔ ∀ a : Fin 2, win0_9.index t a * S2000x64.size a ≤ (i a).val ∧ (i a).val < win0_9.index t a * S2000x64.size a + S2000x64.size a := by
  show i ∈ ((View.whole main_v43_0).slice (win0_9.rect t)).set ↔ _
  rw [View.set_slice_whole, Rect.mem_set_unit]
  exact Iff.rfl

theorem mem_blk0_10 (t : Fin cfg0.N) (i : S50000x1.Idx) :
    i ∈ ((cfg0.win 10).blk t).view.set ↔ ∀ a : Fin 2, win0_10.index t a * S2000x1.size a ≤ (i a).val ∧ (i a).val < win0_10.index t a * S2000x1.size a + S2000x1.size a := by
  show i ∈ ((View.whole main_v43_1).slice (win0_10.rect t)).set ↔ _
  rw [View.set_slice_whole, Rect.mem_set_unit]
  exact Iff.rfl

theorem mem_blk1_3 (t : Fin cfg1.N) (i : S50000x1.Idx) :
    i ∈ ((cfg1.win 3).blk t).view.set ↔ ∀ a : Fin 2, win1_3.index t a * S2000x1.size a ≤ (i a).val ∧ (i a).val < win1_3.index t a * S2000x1.size a + S2000x1.size a := by
  show i ∈ ((View.whole main_v57).slice (win1_3.rect t)).set ↔ _
  rw [View.set_slice_whole, Rect.mem_set_unit]
  exact Iff.rfl

theorem cover0_9_all (i : S50000x64.Idx) :
    ∃ t : Fin cfg0.N, (cfg0.win 9).flush t = true ∧ i ∈ ((cfg0.win 9).blk t).view.set := by
  have hi0 : (i 0).val < 50000 := (i 0).isLt
  have hi1 : (i 1).val < 64 := (i 1).isLt
  obtain ⟨t, ht⟩ := idx_onto0_9 ⟨(i 0).val / 2000, by omega⟩
  have q0 : win0_9.index t (0 : Fin 2) = (i 0).val / 2000 := congrFun ht 0
  have q1 : win0_9.index t (1 : Fin 2) = 0 := congrFun ht 1
  refine ⟨t, flush0_9 t, ?_⟩
  rw [mem_blk0_9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 64 ≤ (i 1).val ∧ (i 1).val < win0_9.index t (1 : Fin 2) * 64 + 64; omega

theorem cover0_10_all (i : S50000x1.Idx) :
    ∃ t : Fin cfg0.N, (cfg0.win 10).flush t = true ∧ i ∈ ((cfg0.win 10).blk t).view.set := by
  have hi0 : (i 0).val < 50000 := (i 0).isLt
  have hi1 : (i 1).val < 1 := (i 1).isLt
  obtain ⟨t, ht⟩ := idx_onto0_10 ⟨(i 0).val / 2000, by omega⟩
  have q0 : win0_10.index t (0 : Fin 2) = (i 0).val / 2000 := congrFun ht 0
  have q1 : win0_10.index t (1 : Fin 2) = 0 := congrFun ht 1
  refine ⟨t, flush0_10 t, ?_⟩
  rw [mem_blk0_10]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 1 ≤ (i 1).val ∧ (i 1).val < win0_10.index t (1 : Fin 2) * 1 + 1; omega

theorem cover1_3_all (i : S50000x1.Idx) :
    ∃ t : Fin cfg1.N, (cfg1.win 3).flush t = true ∧ i ∈ ((cfg1.win 3).blk t).view.set := by
  have hi0 : (i 0).val < 50000 := (i 0).isLt
  have hi1 : (i 1).val < 1 := (i 1).isLt
  obtain ⟨t, ht⟩ := idx_onto1_3 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk1_3]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 1 ≤ (i 1).val ∧ (i 1).val < win1_3.index t (1 : Fin 2) * 1 + 1; omega

/-! ## The arrays after each region -/

/-- After the first region its first output holds the transformed node features. -/
theorem final0_9 (c : Dev nD) : (dat0 V c).arrAt 9 cfg0.N = H1arr (V c main_arg0) (V c main_arg4) :=
  (dat0 V c).arrAt_eq_of_cover 9 (H1arr (V c main_arg0) (V c main_arg4)) (fun t _ => flushed0_9_eq V c t) cover0_9_all

/-- After the first region its second output holds the head's first half. -/
theorem final0_10 (c : Dev nD) : (dat0 V c).arrAt 10 cfg0.N
    = HEADarr (V c main_arg3) (V c main_arg8) (V c main_v34) (V c main_arg10) (V c main_v35) (V c main_v38) (V c main_v37) :=
  (dat0 V c).arrAt_eq_of_cover 10 _ (fun t _ => flushed0_10_eq V c t) cover0_10_all

/-- After the second region its output holds the clamped, projected aggregate. -/
theorem final1_3 (c : Dev nD) : (dat1 V c).arrAt 3 cfg1.N = SPREarr (V c main_v56) (V c main_v36) (V c main_v40) :=
  (dat1 V c).arrAt_eq_of_cover 3 _ (fun t _ => flushed1_3_eq V c t) cover1_3_all

end Cert.KernelIdeal.KReg
end
-- ==== Proof.LibGatherRows.lean ====
import Idealize.ShloMosaic.Lib.ValueIdx

/-!
  A ROW GATHER READ AT AN INDEX.

  A gather whose start indices are one column of row numbers — operand `[N, J]`, start indices `[E, 1]`, result
  `[E, J]`, result row `e` a copy of operand row `idx e` — is, at result index `(e, c)`, the operand at
  `(r, c)` where `r` is the row number `idx (e, 0)` read SIGNED and CLAMPED into `[0, N - 1]`: a negative row
  number reads row `0`, one that is `N` or more reads row `N - 1`. The same for a rank-1 operand `[N]` with
  result `[E]`: result entry `e` is the operand at the clamped `idx (e, 0)`.

  Every lemma takes an arbitrary dimension record `d` of the right shapes together with the equations that say
  its lists are those of a row gather; for a record given by literal lists each equation is `rfl`.
-/

open Idealize.ShloMosaic Idealize.ShloMosaic.ValueIdx

namespace GatherRows

/-! ## Rank 2: operand `[N, J]`, start indices `[E, 1]`, result `[E, J]` -/

section Rank2

variable {α : Type} {N J E w : Nat} (d : GatherDims ⟨2, ![N, J]⟩ ⟨2, ![E, 1]⟩ ⟨2, ![E, J]⟩)

/-- Result index `(e, c)` reads its row number at `(e, 0)` of the start indices. -/
theorem siIdx2 (hod : d.offsetDims = [1]) (hsm : d.startIndexMap = [0]) (hiv : d.indexVectorDim = 1)
    (e : Fin E) (c : Fin J) (k : Fin d.startIndexMap.length) :
    d.siIdx (ix2 e c) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- On the row axis the slice of result index `(e, c)` starts at its row number, read signed and clamped into
    `[0, N - 1]`. -/
theorem start2_row (hod : d.offsetDims = [1]) (hsm : d.startIndexMap = [0]) (hiv : d.indexVectorDim = 1)
    (hss : d.sliceSizes = ![1, J]) (idx : IVec ⟨2, ![E, 1]⟩ w) (e : Fin E) (c : Fin J) :
    d.start (ix2 e c) idx 0 = min (idx (ix2 e 0)).toInt.toNat (N - 1) := by
  have hm : (0 : Fin 2) ∈ d.startIndexMap := by
    rw [hsm]; show (0 : Fin 2) ∈ ([0] : List (Fin 2)); decide
  unfold GatherDims.start
  rw [dif_pos hm, siIdx2 d hod hsm hiv, hss]
  rfl

/-- On the column axis the slice starts at `0`. -/
theorem start2_col (hsm : d.startIndexMap = [0]) (idx : IVec ⟨2, ![E, 1]⟩ w) (j : (⟨2, ![E, J]⟩ : Shape).Idx) :
    d.start j idx 1 = 0 := by
  have hm : ¬ (1 : Fin 2) ∈ d.startIndexMap := by
    rw [hsm]; show ¬ (1 : Fin 2) ∈ ([0] : List (Fin 2)); decide
  unfold GatherDims.start
  rw [dif_neg hm]

/-- The offset coordinate on the column axis is the result's column. -/
theorem offCoord2_col (hod : d.offsetDims = [1]) (hcd : d.collapsedSliceDims = [0])
    (hob : d.operandBatchingDims = []) (e : Fin E) (c : Fin J) :
    d.offCoord (ix2 e c) 1 = c.val := by
  obtain ⟨od, cd, ob, sb, sm, iv, ss, wf⟩ := d
  subst hod hcd hob
  rfl

/-- THE ROW GATHER AT AN INDEX, rank 2: the operand at `(r, c)`, `r` the row number `idx (e, 0)` read signed
    and clamped into `[0, N - 1]`. -/
theorem gather_rows2 (hN : 0 < N) (hod : d.offsetDims = [1]) (hcd : d.collapsedSliceDims = [0])
    (hob : d.operandBatchingDims = []) (hsm : d.startIndexMap = [0]) (hiv : d.indexVectorDim = 1)
    (hss : d.sliceSizes = ![1, J])
    (x : (⟨2, ![N, J]⟩ : Shape).Idx → α) (idx : IVec ⟨2, ![E, 1]⟩ w) (e : Fin E) (c : Fin J) :
    Host.gather d x idx (ix2 e c)
      = x (ix2 ⟨min (idx (ix2 e 0)).toInt.toNat (N - 1), by omega⟩ c) := by
  have hnb : ∀ a : Fin 2, a ∉ d.operandBatchingDims := by
    intro a; rw [hob]; exact List.not_mem_nil
  unfold Host.gather
  congr 1
  funext a
  refine Fin.ext ?_
  match a with
  | ⟨0, _⟩ =>
    show d.start (ix2 e c) idx 0 + d.batchCoord (ix2 e c) 0 + d.offCoord (ix2 e c) 0 = _
    rw [d.batchCoord_eq_zero _ _ (hnb 0),
      d.offCoord_eq_zero _ _ (fun h => ((d.mem_sKept _).mp h).1 (by rw [hcd]; exact List.mem_singleton.mpr rfl)),
      start2_row d hod hsm hiv hss]
    rfl
  | ⟨1, _⟩ =>
    show d.start (ix2 e c) idx 1 + d.batchCoord (ix2 e c) 1 + d.offCoord (ix2 e c) 1 = c.val
    rw [d.batchCoord_eq_zero _ _ (hnb 1), start2_col d hsm, offCoord2_col d hod hcd hob]
    omega

end Rank2

/-! ## Rank 1: operand `[N]`, start indices `[E, 1]`, result `[E]` -/

section Rank1

variable {α : Type} {N E w : Nat} (d : GatherDims ⟨1, ![N]⟩ ⟨2, ![E, 1]⟩ ⟨1, ![E]⟩)

/-- Result index `e` reads its row number at `(e, 0)` of the start indices. -/
theorem siIdx1 (hod : d.offsetDims = []) (hsm : d.startIndexMap = [0]) (hiv : d.indexVectorDim = 1)
    (e : Fin E) (k : Fin d.startIndexMap.length) :
    d.siIdx (ix1 e) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- The slice of result index `e` starts at its row number, read signed and clamped into `[0, N - 1]`. -/
theorem start1 (hod : d.offsetDims = []) (hsm : d.startIndexMap = [0]) (hiv : d.indexVectorDim = 1)
    (hss : d.sliceSizes = ![1]) (idx : IVec ⟨2, ![E, 1]⟩ w) (e : Fin E) :
    d.start (ix1 e) idx 0 = min (idx (ix2 e 0)).toInt.toNat (N - 1) := by
  have hm : (0 : Fin 1) ∈ d.startIndexMap := by
    rw [hsm]; show (0 : Fin 1) ∈ ([0] : List (Fin 1)); decide
  unfold GatherDims.start
  rw [dif_pos hm, siIdx1 d hod hsm hiv, hss]
  rfl

/-- THE ROW GATHER AT AN INDEX, rank 1: the operand at the row number `idx (e, 0)` read signed and clamped into
    `[0, N - 1]`. -/
theorem gather_rows1 (hN : 0 < N) (hod : d.offsetDims = []) (hcd : d.collapsedSliceDims = [0])
    (hob : d.operandBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  unfold Host.gather
  congr 1
  funext a
  obtain rfl : a = 0 := Subsingleton.elim _ _
  refine Fin.ext ?_
  show d.start (ix1 e) idx 0 + d.batchCoord (ix1 e) 0 + d.offCoord (ix1 e) 0 = _
  rw [d.batchCoord_eq_zero _ _ (by rw [hob]; exact List.not_mem_nil),
    d.offCoord_eq_zero _ _ (fun h => ((d.mem_sKept _).mp h).1 (by rw [hcd]; exact List.mem_singleton.mpr rfl)),
    start1 d hod hsm hiv hss]
  rfl

end Rank1

end GatherRows
-- ==== Proof.LibScatterRows.lean ====
import Idealize.ShloMosaic.Lib.ValueIdx

/-!
  A ROW SCATTER READ AT AN INDEX.

  An accumulating scatter whose scatter indices are one column of row numbers — operand `[N, F]`, updates
  `[E, F]`, indices `[E, 1]`, update `e` added onto operand row `idx e` (a segment sum over the leading axis) — is, at
  the ideal values and at operand index `(n, f)`, the operand there plus the sum of `u (e, f)` over the updates `e`
  whose row number is `n`. The row number is read SIGNED and is not clamped: an update whose row number lies outside
  `[0, N)` lands nowhere and is dropped. The same for a rank-3 operand `[N, H, D]` with updates `[E, H, D]`, and
  the two compared: scattering `[E, H, D]` updates is scattering the same numbers laid out as `[E, H * D]`.

  Every lemma takes an arbitrary dimension record `d` of the right shapes together with the four equations that
  say its lists are those of a row scatter; for a record given by literal lists each equation is `rfl`.
-/

open scoped BigOperators
open Idealize.ShloMosaic Idealize.ShloMosaic.ValueIdx

namespace ScatterRows

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rank 2: operand `[N, F]`, updates `[E, F]`, indices `[E, 1]` -/

section Rank2

variable {N E F : Nat} (d : ScatterDims ⟨2, ![N, F]⟩ ⟨2, ![E, 1]⟩ ⟨2, ![E, F]⟩)

/-- Update `(e, f)` reads its row number at `(e, 0)` of the scatter indices. -/
theorem siIdx2 (huw : d.updateWindowDims = [1]) (hiw : d.insertedWindowDims = [0])
    (hsd : d.scatterDimsToOperandDims = [0]) (hiv : d.indexVectorDim = 1)
    (e : Fin E) (f : Fin F) (c : Fin d.scatterDimsToOperandDims.length) :
    d.siIdx (ix2 e f) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, f)` starts at its row number, read signed. -/
theorem start2_row (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) :
    d.start (ix2 e f) idx 0 = (idx (ix2 e 0)).toInt := by
  have hm : (0 : Fin 2) ∈ d.scatterDimsToOperandDims := by
    rw [hsd]; show (0 : Fin 2) ∈ ([0] : List (Fin 2)); decide
  unfold ScatterDims.start
  rw [dif_pos hm, siIdx2 d huw hiw hsd hiv]

/-- On the column axis the window starts at `0`. -/
theorem start2_col (hsd : d.scatterDimsToOperandDims = [0])
    (idx : IVec ⟨2, ![E, 1]⟩ 32) (j : (⟨2, ![E, F]⟩ : Shape).Idx) :
    d.start j idx 1 = 0 := by
  have hm : ¬ (1 : Fin 2) ∈ d.scatterDimsToOperandDims := by
    rw [hsd]; show ¬ (1 : Fin 2) ∈ ([0] : List (Fin 2)); decide
  unfold ScatterDims.start
  rw [dif_neg hm]

/-- The row axis is inserted: the window coordinate there is `0`. -/
theorem window2_row (hiw : d.insertedWindowDims = [0]) (j : (⟨2, ![E, F]⟩ : Shape).Idx) :
    d.window j 0 = 0 := by
  have hm : ¬ (0 : Fin 2) ∈ d.sKept := by
    show ¬ (0 : Fin 2) ∈ Shape.kept _ d.insertedWindowDims
    rw [hiw]
    show ¬ (0 : Fin 2) ∈ (List.finRange 2).filter (fun a => a ∉ ([0] : List (Fin 2)))
    decide
  unfold ScatterDims.window
  rw [dif_neg hm]

/-- The window coordinate on the column axis is the update's column. -/
theorem window2_col (huw : d.updateWindowDims = [1]) (hiw : d.insertedWindowDims = [0])
    (e : Fin E) (f : Fin F) :
    d.window (ix2 e f) 1 = f.val := by
  obtain ⟨uw, iw, sd, iv, wf⟩ := d
  subst huw hiw
  rfl

/-- Update `(e, f)` lands at operand index `(n, f')` exactly when its row number is `n` and `f = f'`. -/
theorem resultIdx2 (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) (n : Fin N) (f' : Fin F) :
    d.resultIdx? (ix2 e f) idx = some (ix2 n f') ↔ (idx (ix2 e 0)).toInt = (n.val : Int) ∧ f = f' := by
  have s0 := start2_row d huw hiw hsd hiv idx e f
  have s1 := start2_col d hsd idx (ix2 e f)
  have w0 := window2_row d hiw (ix2 e f)
  have w1 := window2_col d huw hiw e f
  unfold ScatterDims.resultIdx?
  split
  · rename_i h
    constructor
    · intro he
      have hfun := Option.some.inj he
      have h0 : (d.start (ix2 e f) idx 0 + d.window (ix2 e f) 0).toNat = n.val :=
        congrArg Fin.val (congrFun hfun 0)
      have h1 : (d.start (ix2 e f) idx 1 + d.window (ix2 e f) 1).toNat = f'.val :=
        congrArg Fin.val (congrFun hfun 1)
      have hh := (h 0).1
      rw [s0, w0] at h0 hh
      rw [s1, w1] at h1
      exact ⟨by omega, Fin.ext (by omega)⟩
    · rintro ⟨hn, rfl⟩
      congr 1
      funext a
      match a with
      | ⟨0, _⟩ =>
        exact Fin.ext (by
          show (d.start (ix2 e f) idx 0 + d.window (ix2 e f) 0).toNat = n.val
          rw [s0, w0]; omega)
      | ⟨1, _⟩ =>
        exact Fin.ext (by
          show (d.start (ix2 e f) idx 1 + d.window (ix2 e f) 1).toNat = f.val
          rw [s1, w1]; omega)
  · rename_i h
    constructor
    · intro he; exact absurd he (by simp)
    · rintro ⟨hn, rfl⟩
      exfalso; apply h
      intro a
      match a with
      | ⟨0, _⟩ =>
        show 0 ≤ d.start (ix2 e f) idx 0 + d.window (ix2 e f) 0
          ∧ d.start (ix2 e f) idx 0 + d.window (ix2 e f) 0 < (N : Int)
        rw [s0, w0]; have := n.isLt; omega
      | ⟨1, _⟩ =>
        show 0 ≤ d.start (ix2 e f) idx 1 + d.window (ix2 e f) 1
          ∧ d.start (ix2 e f) idx 1 + d.window (ix2 e f) 1 < (F : Int)
        rw [s1, w1]; have := f.isLt; omega

/-- THE ROW SCATTER AT AN INDEX, rank 2: the operand at `(n, f)` plus the sum of `u (e, f)` over the updates `e`
    whose row number, read signed, is `n`. -/
theorem hostScatterAdd_rows2 (huw : d.updateWindowDims = [1]) (hiw : d.insertedWindowDims = [0])
    (hsd : d.scatterDimsToOperandDims = [0]) (hiv : d.indexVectorDim = 1)
    (x : (⟨2, ![N, F]⟩ : Shape).Idx → EReal) (idx : IVec ⟨2, ![E, 1]⟩ 32)
    (u : (⟨2, ![E, F]⟩ : Shape).Idx → EReal) (n : Fin N) (f : Fin F) :
    Ideal.hostScatterAdd d x idx u (ix2 n f)
      = x (ix2 n f) + ∑ e ∈ Finset.univ.filter (fun e : Fin E => (idx (ix2 e 0)).toInt = (n.val : Int)), u (ix2 e f) := by
  unfold Ideal.hostScatterAdd
  congr 1
  rw [Finset.sum_filter, Finset.sum_filter, sum_idx2]
  refine Finset.sum_congr rfl fun e _ => ?_
  simp only [resultIdx2 d huw hiw hsd hiv idx e]
  by_cases hn : (idx (ix2 e 0)).toInt = (n.val : Int)
  · simp [hn]
  · simp [hn]

end Rank2

/-! ## Rank 3: operand `[N, H, D]`, updates `[E, H, D]`, indices `[E, 1]` -/

section Rank3

variable {N E H D : Nat} (d : ScatterDims ⟨3, ![N, H, D]⟩ ⟨2, ![E, 1]⟩ ⟨3, ![E, H, D]⟩)

/-- Update `(e, h, k)` reads its row number at `(e, 0)` of the scatter indices. -/
theorem siIdx3 (huw : d.updateWindowDims = [1, 2]) (hiw : d.insertedWindowDims = [0])
    (hsd : d.scatterDimsToOperandDims = [0]) (hiv : d.indexVectorDim = 1)
    (e : Fin E) (h : Fin H) (k : Fin D) (c : Fin d.scatterDimsToOperandDims.length) :
    d.siIdx (ix3 e h k) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, h, k)` starts at its row number, read signed. -/
theorem start3_row (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) :
    d.start (ix3 e h k) idx 0 = (idx (ix2 e 0)).toInt := by
  have hm : (0 : Fin 3) ∈ d.scatterDimsToOperandDims := by
    rw [hsd]; show (0 : Fin 3) ∈ ([0] : List (Fin 3)); decide
  unfold ScatterDims.start
  rw [dif_pos hm, siIdx3 d huw hiw hsd hiv]

/-- On the two window axes the window starts at `0`. -/
theorem start3_win (hsd : d.scatterDimsToOperandDims = [0])
    (idx : IVec ⟨2, ![E, 1]⟩ 32) (j : (⟨3, ![E, H, D]⟩ : Shape).Idx) (a : Fin 3) (ha : a ≠ 0) :
    d.start j idx a = 0 := by
  have hm : ¬ a ∈ d.scatterDimsToOperandDims := by
    rw [hsd]; intro hmem; exact ha (List.mem_singleton.1 hmem)
  unfold ScatterDims.start
  rw [dif_neg hm]

/-- The row axis is inserted: the window coordinate there is `0`. -/
theorem window3_row (hiw : d.insertedWindowDims = [0]) (j : (⟨3, ![E, H, D]⟩ : Shape).Idx) :
    d.window j 0 = 0 := by
  have hm : ¬ (0 : Fin 3) ∈ d.sKept := by
    show ¬ (0 : Fin 3) ∈ Shape.kept _ d.insertedWindowDims
    rw [hiw]
    show ¬ (0 : Fin 3) ∈ (List.finRange 3).filter (fun a => a ∉ ([0] : List (Fin 3)))
    decide
  unfold ScatterDims.window
  rw [dif_neg hm]

/-- The window coordinate on the second axis is the update's second coordinate. -/
theorem window3_mid (huw : d.updateWindowDims = [1, 2]) (hiw : d.insertedWindowDims = [0])
    (e : Fin E) (h : Fin H) (k : Fin D) :
    d.window (ix3 e h k) 1 = h.val := by
  obtain ⟨uw, iw, sd, iv, wf⟩ := d
  subst huw hiw
  rfl

/-- The window coordinate on the third axis is the update's third coordinate. -/
theorem window3_last (huw : d.updateWindowDims = [1, 2]) (hiw : d.insertedWindowDims = [0])
    (e : Fin E) (h : Fin H) (k : Fin D) :
    d.window (ix3 e h k) 2 = k.val := by
  obtain ⟨uw, iw, sd, iv, wf⟩ := d
  subst huw hiw
  rfl

/-- Update `(e, h, k)` lands at operand index `(n, h', k')` exactly when its row number is `n`, `h = h'` and `k = k'`. -/
theorem resultIdx3 (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) (n : Fin N) (h' : Fin H) (k' : Fin D) :
    d.resultIdx? (ix3 e h k) idx = some (ix3 n h' k')
      ↔ (idx (ix2 e 0)).toInt = (n.val : Int) ∧ h = h' ∧ k = k' := by
  have s0 := start3_row d huw hiw hsd hiv idx e h k
  have s1 := start3_win d hsd idx (ix3 e h k) 1 (by decide)
  have s2 := start3_win d hsd idx (ix3 e h k) 2 (by decide)
  have w0 := window3_row d hiw (ix3 e h k)
  have w1 := window3_mid d huw hiw e h k
  have w2 := window3_last d huw hiw e h k
  unfold ScatterDims.resultIdx?
  split
  · rename_i hb
    constructor
    · intro he
      have hfun := Option.some.inj he
      have h0 : (d.start (ix3 e h k) idx 0 + d.window (ix3 e h k) 0).toNat = n.val :=
        congrArg Fin.val (congrFun hfun 0)
      have h1 : (d.start (ix3 e h k) idx 1 + d.window (ix3 e h k) 1).toNat = h'.val :=
        congrArg Fin.val (congrFun hfun 1)
      have h2 : (d.start (ix3 e h k) idx 2 + d.window (ix3 e h k) 2).toNat = k'.val :=
        congrArg Fin.val (congrFun hfun 2)
      have hh := (hb 0).1
      rw [s0, w0] at h0 hh
      rw [s1, w1] at h1
      rw [s2, w2] at h2
      exact ⟨by omega, Fin.ext (by omega), Fin.ext (by omega)⟩
    · rintro ⟨hn, rfl, rfl⟩
      congr 1
      funext a
      match a with
      | ⟨0, _⟩ =>
        exact Fin.ext (by
          show (d.start (ix3 e h k) idx 0 + d.window (ix3 e h k) 0).toNat = n.val
          rw [s0, w0]; omega)
      | ⟨1, _⟩ =>
        exact Fin.ext (by
          show (d.start (ix3 e h k) idx 1 + d.window (ix3 e h k) 1).toNat = h.val
          rw [s1, w1]; omega)
      | ⟨2, _⟩ =>
        exact Fin.ext (by
          show (d.start (ix3 e h k) idx 2 + d.window (ix3 e h k) 2).toNat = k.val
          rw [s2, w2]; omega)
  · rename_i hb
    constructor
    · intro he; exact absurd he (by simp)
    · rintro ⟨hn, rfl, rfl⟩
      exfalso; apply hb
      intro a
      match a with
      | ⟨0, _⟩ =>
        show 0 ≤ d.start (ix3 e h k) idx 0 + d.window (ix3 e h k) 0
          ∧ d.start (ix3 e h k) idx 0 + d.window (ix3 e h k) 0 < (N : Int)
        rw [s0, w0]; have := n.isLt; omega
      | ⟨1, _⟩ =>
        show 0 ≤ d.start (ix3 e h k) idx 1 + d.window (ix3 e h k) 1
          ∧ d.start (ix3 e h k) idx 1 + d.window (ix3 e h k) 1 < (H : Int)
        rw [s1, w1]; have := h.isLt; omega
      | ⟨2, _⟩ =>
        show 0 ≤ d.start (ix3 e h k) idx 2 + d.window (ix3 e h k) 2
          ∧ d.start (ix3 e h k) idx 2 + d.window (ix3 e h k) 2 < (D : Int)
        rw [s2, w2]; have := k.isLt; omega

/-- THE ROW SCATTER AT AN INDEX, rank 3: the operand at `(n, h, k)` plus the sum of `u (e, h, k)` over the updates
    `e` whose row number, read signed, is `n`. -/
theorem hostScatterAdd_rows3 (huw : d.updateWindowDims = [1, 2]) (hiw : d.insertedWindowDims = [0])
    (hsd : d.scatterDimsToOperandDims = [0]) (hiv : d.indexVectorDim = 1)
    (x : (⟨3, ![N, H, D]⟩ : Shape).Idx → EReal) (idx : IVec ⟨2, ![E, 1]⟩ 32)
    (u : (⟨3, ![E, H, D]⟩ : Shape).Idx → EReal) (n : Fin N) (h : Fin H) (k : Fin D) :
    Ideal.hostScatterAdd d x idx u (ix3 n h k)
      = x (ix3 n h k)
        + ∑ e ∈ Finset.univ.filter (fun e : Fin E => (idx (ix2 e 0)).toInt = (n.val : Int)), u (ix3 e h k) := by
  unfold Ideal.hostScatterAdd
  congr 1
  rw [Finset.sum_filter, Finset.sum_filter, sum_idx3]
  refine Finset.sum_congr rfl fun e _ => ?_
  simp only [resultIdx3 d huw hiw hsd hiv idx e]
  by_cases hn : (idx (ix2 e 0)).toInt = (n.val : Int)
  · simp [hn, ite_and]
  · simp [hn]

end Rank3

/-! ## The two ranks compared -/

/-- A rank-3 row scatter at `(n, h, k)` is a rank-2 row scatter at `(n, f)` over the same scatter indices, as soon
    as the operands agree at these two indices and the updates agree there in every row `e`. -/
theorem hostScatterAdd_rows3_eq_rows2 {N E H D F : Nat}
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (n : Fin N) (h : Fin H) (k : Fin D) (f : Fin F)
    (hx : x3 (ix3 n h k) = x2 (ix2 n f))
    (hu : ∀ e : Fin E, u3 (ix3 e h k) = u2 (ix2 e f)) :
    Ideal.hostScatterAdd d3 x3 idx u3 (ix3 n h k) = Ideal.hostScatterAdd d2 x2 idx u2 (ix2 n f) := by
  rw [hostScatterAdd_rows3 d3 huw3 hiw3 hsd3 hiv3, hostScatterAdd_rows2 d2 huw2 hiw2 hsd2 hiv2, hx]
  congr 1
  exact Finset.sum_congr rfl fun e _ => hu e

/-- The same when the rank-2 updates are the rank-3 ones with the last two axes laid out as one of length
    `F = H * D` (column `f` holding entry `(f / D, f % D)`): the rank-3 scatter at `(n, h, k)` is the rank-2 scatter at
    column `D * h + k`. -/
theorem hostScatterAdd_rows3_flat {N E H D F : Nat} (hF : F = H * D)
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (hu : ∀ (e : Fin E) (f : Fin F) (hq : f.val / D < H) (hr : f.val % D < D),
      u2 (ix2 e f) = u3 (ix3 e ⟨f.val / D, hq⟩ ⟨f.val % D, hr⟩))
    (n : Fin N) (h : Fin H) (k : Fin D) (f : Fin F) (hf : f.val = D * h.val + k.val)
    (hx : x3 (ix3 n h k) = x2 (ix2 n f)) :
    Ideal.hostScatterAdd d3 x3 idx u3 (ix3 n h k) = Ideal.hostScatterAdd d2 x2 idx u2 (ix2 n f) := by
  have hD : 0 < D := Nat.lt_of_le_of_lt (Nat.zero_le _) k.isLt
  have hq : f.val / D = h.val := by
    rw [hf, Nat.mul_add_div hD, Nat.div_eq_of_lt k.isLt, Nat.add_zero]
  have hr : f.val % D = k.val := by
    rw [hf, Nat.mul_add_mod, Nat.mod_eq_of_lt k.isLt]
  refine hostScatterAdd_rows3_eq_rows2 d3 huw3 hiw3 hsd3 hiv3 d2 huw2 hiw2 hsd2 hiv2 x3 x2 idx u3 u2 n h k f hx ?_
  intro e
  have hq' : f.val / D < H := by rw [hq]; exact h.isLt
  have hr' : f.val % D < D := by rw [hr]; exact k.isLt
  have e1 : (⟨f.val / D, hq'⟩ : Fin H) = h := Fin.ext hq
  have e2 : (⟨f.val % D, hr'⟩ : Fin D) = k := Fin.ext hr
  rw [hu e f hq' hr', e1, e2]

end ScatterRows
-- ==== Proof.LibHostScatterIdeal.lean ====
import Idealize.ShloMosaic.PureOps.Ideal

/-!
  THE HOST'S ACCUMULATING SCATTER AT THE IDEAL VALUES, WITHOUT OPENING IT.

  The host program's accumulating float scatter `Host.scatterAdd d x idx upd` is, at the ideal values, the exact
  function `Ideal.hostScatterAdd d x idx upd`: each operand element plus the sum of the update elements that land on it.
  Both steps of this identification are definitional, but at a full-size update array (hundreds of thousands of
  updates) a goal must never be asked to see that by unfolding: the exact function's body is an extended-real sum over
  every update index. So the first step is stated for an ARBITRARY float instance, where the operation is a field of
  an unknown structure and nothing can unfold, and the second is the instance's own equation; a proof rewrites with
  this lemma as a whole and then reads the result with a lemma about `Ideal.hostScatterAdd` (a segment sum read at an
  index, say).
-/

namespace Idealize.ShloMosaic

/-- The host's accumulating scatter is the float instance's `hostScatterAdd` at the single-device schedule, at any
    instance. -/
theorem Host.scatterAdd_eq_hostScatterAdd {F : FTy → Type} [FloatOps F] {s si u : Shape} {φ : FTy} {w : Nat}
    (d : ScatterDims s si u) (x : FVec F s φ) (idx : IVec si w) (upd : FVec F u φ) :
    Host.scatterAdd d x idx upd = FloatOps.hostScatterAdd d .single x idx upd := rfl

/-- At the ideal values it is the exact accumulating scatter. -/
theorem Host.scatterAdd_ideal {s si u : Shape} {φ : FTy} {w : Nat}
    (d : ScatterDims s si u) (x : FVec Ideal s φ) (idx : IVec si w) (upd : FVec Ideal u φ) :
    Host.scatterAdd d x idx upd = Ideal.hostScatterAdd d x idx upd :=
  (Host.scatterAdd_eq_hostScatterAdd d x idx upd).trans (Ideal.hostScatterAdd_def d .single x idx upd)

end Idealize.ShloMosaic
-- ==== Proof.LibHostRowScalar.lean ====
/-
  Host layout steps read at an index written by coordinates, for any element type and any extents, and two
  identities between a reshape and a broadcast.

  A row `[1, b]` copied down `a` rows reads, at `(i, j)`, the row at `j`.  A vector `[b]` broadcast to the single row `[1, b]` reads, at `(u, j)`, the vector at `j`.
  Reshaping a vector `[a]` to the column `[a, 1]` keeps the elements in row-major order, and so does broadcasting it
  along the new unit axis: the two arrays are equal; likewise for the row `[1, b]`.  General; no program is imported.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- A row `[1, b]` copied down `a` rows reads, at `(i, j)`, the row at `j`. -/
theorem broadcastInDim_row_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply ![0, 1] h v (ix2 i j) (ix2 (0 : Fin 1) j) fun ax => ?_
  match ax with
  | ⟨0, _⟩ => exact (if_pos rfl).symm
  | ⟨1, _⟩ =>
    show j.val = if b = 1 then 0 else j.val
    split
    · have := j.isLt; omega
    · rfl

/-- A vector `[b]` broadcast to the single row `[1, b]` reads, at `(u, j)`, the vector at `j`. -/
theorem broadcastInDim_vec_row_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- A vector `[a]` broadcast to the column `[a, 1]` reads, at `(i, u)`, the vector at `i`. -/
theorem broadcastInDim_vec_column_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The reshape of a vector to the column `[a, 1]` is its broadcast along the new unit axis. -/
theorem shapeCast_column_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨i, u, rfl⟩ : ∃ (i : Fin a) (u : Fin 1), j = ix2 i u := ⟨j 0, j 1, eq_ix2 j⟩
  rw [broadcastInDim_vec_column_apply]
  exact shapeCast_apply x hc _ _ (by
    have hu : u.val = 0 := by omega
    rw [Shape.rowMajor_val_two, Shape.rowMajor_val_one]
    show i.val = i.val * 1 + u.val
    rw [hu, Nat.mul_one, Nat.add_zero])

/-- The reshape of a vector to the row `[1, b]` is its broadcast along the new unit axis. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext j
  obtain ⟨u, i, rfl⟩ : ∃ (u : Fin 1) (i : Fin b), j = ix2 u i := ⟨j 0, j 1, eq_ix2 j⟩
  rw [broadcastInDim_vec_row_apply, shapeCast_a_1a_apply]

end Idealize.ShloMosaic.ValueIdx
-- ==== Proof.KAgg.lean ====
/-
  The last host expression of the program, read at a node.

  For every node i the expression is

      head(i) + ( segment_sum( gather(s)[e] * norm[e] )(i) + c ),

  where the gather reads the column s at the source of every edge e (the row number read signed and clamped into
  the node range), the product with the edge normalisation norm is taken edge by edge, the segment sum adds, into
  zeros, the products of the edges whose destination (read signed, not clamped) is i, and c is a scalar repeated
  for every node. Read at node i this is

      head(i) + ( (sum over the edges e with destination i of s(source e) * norm(e)) + c ).

  The accumulating scatter is rewritten as a whole into the exact segment sum and then read at the node; the sum
  over the edges is never unfolded.
-/
import proofs.«152822_j8529805049887_2_alg».proof.KernelIdeal
import Idealize.ShloMosaic.Lib.ValueIdx
import Idealize.ShloMosaic.Lib.IdealHost
import Idealize.ShloMosaic.PureOps.Ideal.Laws
import proofs.«152822_j8529805049887_2_alg».proof.Proof.LibGatherRows
import proofs.«152822_j8529805049887_2_alg».proof.Proof.LibScatterRows
import proofs.«152822_j8529805049887_2_alg».proof.Proof.LibHostScatterIdeal
import proofs.«152822_j8529805049887_2_alg».proof.Proof.LibHostRowScalar

noncomputable section

open scoped BigOperators
open Idealize.ShloMosaic Idealize.ShloMosaic.ValueIdx
open Cert.KernelIdeal Cert.KernelIdeal.Facts₀

namespace Cert.KAgg

variable [Cert.KernelIdeal.Facts₀]

/-- The array the segment sum accumulates into is zero at every index. -/
theorem zeros_at (j : S50000x1.Idx) :
    broadcastInDim S50000x1 ![] bcast_S_S50000x1 (constant (F := Ideal) S_ .f32 0x00000000#32) j = 0 := by
  rw [broadcastInDim_scalar_apply, constant_apply, Ideal.ofBits_zero_f32]

/-- One message: the column `s` at the source of edge `e` (read signed and clamped into the node range) times the
    normalisation of `e`. -/
theorem message_at (S : FVec Ideal S50000x1 .f32) (SI : IVec S850000x1 32) (NRM : FVec Ideal S850000 .f32)
    (e : Fin 850000) :
    mulf (Host.gather gather_S50000x1_S850000x1_S850000x1_1_0_n_n_0_1_11 S SI)
        (broadcastInDim S850000x1 ![0] bcast_S850000_S850000x1_0 NRM) (ix2 e (0 : Fin 1))
      = S (ix2 (⟨min (SI (ix2 e (0 : Fin 1))).toInt.toNat (50000 - 1), by omega⟩ : Fin 50000) (0 : Fin 1))
          * NRM (ix1 e) := by
  rw [mulf_apply,
    GatherRows.gather_rows2 gather_S50000x1_S850000x1_S850000x1_1_0_n_n_0_1_11 (by norm_num) rfl rfl rfl rfl rfl rfl,
    broadcastInDim_vec_column_apply]

/-- The segment sum of the messages at node `i`: the sum over the edges whose destination is `i`. -/
theorem segment_sum_at (S : FVec Ideal S50000x1 .f32) (SI DI : IVec S850000x1 32) (NRM : FVec Ideal S850000 .f32)
    (i : Fin 50000) :
    Host.scatterAdd scatter_S50000x1_S850000x1_S850000x1_1_0_0_1
        (broadcastInDim S50000x1 ![] bcast_S_S50000x1 (constant (F := Ideal) S_ .f32 0x00000000#32)) DI
        (mulf (Host.gather gather_S50000x1_S850000x1_S850000x1_1_0_n_n_0_1_11 S SI)
          (broadcastInDim S850000x1 ![0] bcast_S850000_S850000x1_0 NRM)) (ix2 i (0 : Fin 1))
      = ∑ e ∈ Finset.univ.filter (fun e : Fin 850000 => (DI (ix2 e (0 : Fin 1))).toInt = (i.val : Int)),
          S (ix2 (⟨min (SI (ix2 e (0 : Fin 1))).toInt.toNat (50000 - 1), by omega⟩ : Fin 50000) (0 : Fin 1))
            * NRM (ix1 e) := by
  rw [Host.scatterAdd_ideal,
    ScatterRows.hostScatterAdd_rows2 scatter_S50000x1_S850000x1_S850000x1_1_0_0_1 rfl rfl rfl rfl,
    zeros_at, zero_add]
  exact Finset.sum_congr rfl fun e _ => message_at S SI NRM e

/-- The last host expression at node `i`: the head there, plus the sum over the edges into `i` of the source's entry
    of `s` times the edge's normalisation, plus the scalar. -/
theorem out_at (HEAD S : FVec Ideal S50000x1 .f32) (SI DI : IVec S850000x1 32) (NRM : FVec Ideal S850000 .f32)
    (CC : FVec Ideal S1x1 .f32) (i : Fin 50000) :
    addf HEAD (addf (Host.scatterAdd scatter_S50000x1_S850000x1_S850000x1_1_0_0_1
          (broadcastInDim S50000x1 ![] bcast_S_S50000x1 (constant (F := Ideal) S_ .f32 0x00000000#32)) DI
          (mulf (Host.gather gather_S50000x1_S850000x1_S850000x1_1_0_n_n_0_1_11 S SI)
            (broadcastInDim S850000x1 ![0] bcast_S850000_S850000x1_0 NRM)))
        (broadcastInDim S50000x1 ![0, 1] bcast_S1x1_S50000x1_0_1 CC)) (ix2 i (0 : Fin 1))
      = HEAD (ix2 i (0 : Fin 1))
        + ((∑ e ∈ Finset.univ.filter (fun e : Fin 850000 => (DI (ix2 e (0 : Fin 1))).toInt = (i.val : Int)),
              S (ix2 (⟨min (SI (ix2 e (0 : Fin 1))).toInt.toNat (50000 - 1), by omega⟩ : Fin 50000) (0 : Fin 1))
                * NRM (ix1 e))
          + CC (ix2 (0 : Fin 1) (0 : Fin 1))) := by
  rw [addf_apply, addf_apply, segment_sum_at, broadcastInDim_row_apply]

end Cert.KAgg

end
-- ==== Proof.KConst.lean ====
/-
  The kernel's constant operands, read at an index.

  Before the grid runs, the program forms a few small arrays from its arguments: the two halves of the
  [128, 1] column x12 (rows 0 to 63 and rows 64 to 127), the product of the [64, 64] matrix x6 with the lower
  half, the product of the row x7 with the lower half, and the vectors x5, x7, x9, x11, x13 recast as
  one-row matrices. Each is given here entry by entry: a cut along the rows reads the source at the shifted
  row; a matrix product is the sum over the contracted coordinate of the products of the entries; a vector
  recast as a one-row matrix reads the vector at the column.
-/
import proofs.«152822_j8529805049887_2_alg».proof.KernelIdeal
import proofs.«152822_j8529805049887_2_alg».proof.Proof.LibDotRows
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KConst

open Cert.KernelIdeal Cert.KernelIdeal.Facts₀ Idealize.ShloMosaic Idealize.ShloMosaic.ValueIdx

variable [Cert.KernelIdeal.Facts₀]

/-- The upper half of the column: row j of the cut is row j of x12. -/
theorem ftop_at (x12 : FVec Ideal S128x1 .f32) (j : Fin 64) :
    extractStridedSlice S64x1 ![0, 0] x12 slices_S128x1_S64x1_0_0 (ix2 j (0 : Fin 1))
      = x12 (ix2 (⟨j.val, by omega⟩ : Fin 128) (0 : Fin 1)) :=
  slice2_axis0_apply 0 x12 slices_S128x1_S64x1_0_0 j 0 ⟨j.val, by omega⟩ (Nat.zero_add _).symm

/-- The lower half of the column: row j of the cut is row 64 + j of x12. -/
theorem fbot_at (x12 : FVec Ideal S128x1 .f32) (j : Fin 64) :
    extractStridedSlice S64x1 ![64, 0] x12 slices_S128x1_S64x1_64_0 (ix2 j (0 : Fin 1))
      = x12 (ix2 (⟨64 + j.val, by omega⟩ : Fin 128) (0 : Fin 1)) :=
  slice2_axis0_apply 64 x12 slices_S128x1_S64x1_64_0 j 0 ⟨64 + j.val, by omega⟩ rfl

/-- The matrix x6 times the lower half of the column: entry k is the sum over j of x6 (k, j) · x12 (64 + j). -/
theorem wf_at (x6 : FVec Ideal S64x64 .f32) (x12 : FVec Ideal S128x1 .f32) (k : Fin 64) :
    Host.dotGeneral (F := Ideal) dot_S64x64_S64x1_S64x1_1_0_0_1_n_n none x6
        (extractStridedSlice S64x1 ![64, 0] x12 slices_S128x1_S64x1_64_0) (ix2 k (0 : Fin 1))
      = ∑ j : Fin 64, x6 (ix2 k j) * x12 (ix2 (⟨64 + j.val, by omega⟩ : Fin 128) (0 : Fin 1)) := by
  refine (dotGeneral_rows dot_S64x64_S64x1_S64x1_1_0_0_1_n_n none .single rfl rfl (fun _ _ => rfl) (fun _ _ => rfl) (fun _ _ => rfl) (fun _ _ => rfl)
    x6 (extractStridedSlice S64x1 ![64, 0] x12 slices_S128x1_S64x1_64_0) k 0).trans ?_
  exact Finset.sum_congr rfl fun j _ => by rw [fbot_at]

/-- A vector of length 64 recast as a one-row matrix: entry (0, k) is entry k. -/
theorem row64_at (x : FVec Ideal S64 .f32) (k : Fin 64) :
    shapeCast S1x64 x shapeCasts_S64_S1x64 (ix2 (0 : Fin 1) k) = x (ix1 k) :=
  shapeCast_a_1a_apply x shapeCasts_S64_S1x64 0 k

/-- The row x7 times the lower half of the column: the sum over j of x7 j · x12 (64 + j). -/
theorem c_at (x7 : FVec Ideal S64 .f32) (x12 : FVec Ideal S128x1 .f32) :
    Host.dotGeneral (F := Ideal) dot_S1x64_S64x1_S1x1_1_0_0_1_n_n none (shapeCast S1x64 x7 shapeCasts_S64_S1x64)
        (extractStridedSlice S64x1 ![64, 0] x12 slices_S128x1_S64x1_64_0) (ix2 (0 : Fin 1) (0 : Fin 1))
      = ∑ j : Fin 64, x7 (ix1 j) * x12 (ix2 (⟨64 + j.val, by omega⟩ : Fin 128) (0 : Fin 1)) := by
  refine (dotGeneral_rows dot_S1x64_S64x1_S1x1_1_0_0_1_n_n none .single rfl rfl (fun _ _ => rfl) (fun _ _ => rfl) (fun _ _ => rfl) (fun _ _ => rfl)
    (shapeCast S1x64 x7 shapeCasts_S64_S1x64) (extractStridedSlice S64x1 ![64, 0] x12 slices_S128x1_S64x1_64_0) 0 0).trans ?_
  exact Finset.sum_congr rfl fun j _ => by rw [fbot_at, row64_at]

/-- The vector x9 of length 512 recast as a one-row matrix: entry (0, k) is entry k. -/
theorem row512_at (x9 : FVec Ideal S512 .f32) (k : Fin 512) :
    shapeCast S1x512 x9 shapeCasts_S512_S1x512 (ix2 (0 : Fin 1) k) = x9 (ix1 k) :=
  shapeCast_a_1a_apply x9 shapeCasts_S512_S1x512 0 k

/-- The one-entry vector x13 recast as a one-entry matrix. -/
theorem one_at (x13 : FVec Ideal S1 .f32) :
    shapeCast S1x1 x13 shapeCasts_S1_S1x1 (ix2 (0 : Fin 1) (0 : Fin 1)) = x13 (ix1 (0 : Fin 1)) :=
  shapeCast_a_1a_apply x13 shapeCasts_S1_S1x1 0 0

end Cert.KConst

end
-- ==== Proof.RefStages.lean ====
/-
  The reference's dense stages, read at an index.

  Three of the reference's intermediate arrays are given entry by entry, in terms of the argument arrays:
  the projection h = x0 · W (a matrix product), the two-layer perceptron
  mlp = relu (x3 · W1 + b1) · W2 + b2, and the rectified sum g = relu (s + b), where s is the array the
  scatter-accumulation produces and is left as it is. A matrix product is the sum over the contracted
  coordinate of the products of the entries; a bias row is added at its column; relu is the maximum with 0.
-/
import proofs.«152822_j8529805049887_2_alg».proof.Proof.Gen.ReferenceIdeal.Read
import Idealize.ShloMosaic.Lib.ValueIdx
import Idealize.ShloMosaic.PureOps.Ideal.Laws

noncomputable section

open scoped BigOperators

namespace Cert.RefStages

open Cert.ReferenceIdeal Idealize.ShloMosaic Idealize.ShloMosaic.ValueIdx

/-! ## The operand indices of the products and of the bias rows, by coordinates -/

theorem lidx13 (n : Fin 50000) (k : Fin 64) (l : Fin 256) : Read.lidx_main_v13 (ix2 n k) l = ix2 n l :=
  funext fun a => Fin.ext (by match a with | ⟨0, _⟩ => rfl | ⟨1, _⟩ => rfl)
theorem ridx13 (n : Fin 50000) (k : Fin 64) (l : Fin 256) : Read.ridx_main_v13 (ix2 n k) l = ix2 l k :=
  funext fun a => Fin.ext (by match a with | ⟨0, _⟩ => rfl | ⟨1, _⟩ => rfl)
theorem lidx4 (n : Fin 50000) (k : Fin 512) (l : Fin 256) : Read.lidx_main_v4 (ix2 n k) l = ix2 n l :=
  funext fun a => Fin.ext (by match a with | ⟨0, _⟩ => rfl | ⟨1, _⟩ => rfl)
theorem ridx4 (n : Fin 50000) (k : Fin 512) (l : Fin 256) : Read.ridx_main_v4 (ix2 n k) l = ix2 l k :=
  funext fun a => Fin.ext (by match a with | ⟨0, _⟩ => rfl | ⟨1, _⟩ => rfl)
theorem lidx9 (n : Fin 50000) (j : Fin 64) (k : Fin 512) : Read.lidx_main_v9 (ix2 n j) k = ix2 n k :=
  funext fun a => Fin.ext (by match a with | ⟨0, _⟩ => rfl | ⟨1, _⟩ => rfl)
theorem ridx9 (n : Fin 50000) (j : Fin 64) (k : Fin 512) : Read.ridx_main_v9 (ix2 n j) k = ix2 k j :=
  funext fun a => Fin.ext (by match a with | ⟨0, _⟩ => rfl | ⟨1, _⟩ => rfl)
theorem idx6 (n : Fin 50000) (k : Fin 512) : Read.idx_main_v5 (Read.idx_main_v6 (ix2 n k)) = ix1 k :=
  funext fun a => Fin.ext (by match a with | ⟨0, _⟩ => rfl)
theorem idx11 (n : Fin 50000) (j : Fin 64) : Read.idx_main_v10 (Read.idx_main_v11 (ix2 n j)) = ix1 j :=
  funext fun a => Fin.ext (by match a with | ⟨0, _⟩ => rfl)
theorem idx58 (n : Fin 50000) (k : Fin 64) : Read.idx_main_v57 (Read.idx_main_v58 (ix2 n k)) = ix1 k :=
  funext fun a => Fin.ext (by match a with | ⟨0, _⟩ => rfl)

/-! ## The stages -/

/-- The projection: entry (n, k) of x0 · x4 is the sum over l of x0 (n, l) · x4 (l, k). -/
theorem h_eq (x0 : (⟨S50000x256, .f32⟩ : BufTy).Contents (Elt Ideal)) (x4 : (⟨S256x64, .f32⟩ : BufTy).Contents (Elt Ideal)) (n : Fin 50000) (k : Fin 64) :
    Read.val_main_v13 (F := Ideal) x0 x4 (ix2 n k) = ∑ l : Fin 256, x0 (ix2 n l) * x4 (ix2 l k) := by
  rw [Read.val_main_v13_apply]
  exact Finset.sum_congr rfl fun l _ => by rw [lidx13, ridx13]

/-- The hidden layer: entry (n, k) of relu (x3 · x8 + x9) is the maximum with 0 of the sum over l of
    x3 (n, l) · x8 (l, k), plus x9 k. -/
theorem hid_eq (x3 : (⟨S50000x256, .f32⟩ : BufTy).Contents (Elt Ideal)) (x8 : (⟨S256x512, .f32⟩ : BufTy).Contents (Elt Ideal)) (x9 : (⟨S512, .f32⟩ : BufTy).Contents (Elt Ideal)) (n : Fin 50000) (k : Fin 512) :
    Read.val_main_v8 (F := Ideal) x3 x8 x9 (ix2 n k)
      = max (∑ l : Fin 256, x3 (ix2 n l) * x8 (ix2 l k) + x9 (ix1 k)) 0 := by
  rw [Read.val_main_v8_apply, Read.val_main_v7_apply, Read.val_main_v4_apply, Read.val_main_v6_apply,
    Read.val_main_v5_apply, Read.val_main_call0_v0_apply, Read.val_main_call0_cst_apply, idx6]
  simp only [Ideal.maximumf_def, Ideal.addf_def, Ideal.ofBits_def, Ideal.ofBits_zero_f32]
  congr 2
  exact Finset.sum_congr rfl fun l _ => by rw [lidx4, ridx4]

/-- The perceptron: entry (n, j) of relu (x3 · x8 + x9) · x10 + x11. -/
theorem mlp_eq (x3 : (⟨S50000x256, .f32⟩ : BufTy).Contents (Elt Ideal)) (x8 : (⟨S256x512, .f32⟩ : BufTy).Contents (Elt Ideal)) (x9 : (⟨S512, .f32⟩ : BufTy).Contents (Elt Ideal)) (x10 : (⟨S512x64, .f32⟩ : BufTy).Contents (Elt Ideal))
    (x11 : (⟨S64, .f32⟩ : BufTy).Contents (Elt Ideal)) (n : Fin 50000) (j : Fin 64) :
    Read.val_main_v12 (F := Ideal) x3 x8 x9 x10 x11 (ix2 n j)
      = ∑ k : Fin 512, max (∑ l : Fin 256, x3 (ix2 n l) * x8 (ix2 l k) + x9 (ix1 k)) 0 * x10 (ix2 k j) + x11 (ix1 j) := by
  rw [Read.val_main_v12_apply, Read.val_main_v9_apply, Read.val_main_v11_apply, Read.val_main_v10_apply, idx11]
  simp only [Ideal.addf_def]
  congr 1
  exact Finset.sum_congr rfl fun k _ => by rw [lidx9, ridx9, hid_eq]

/-- The rectified sum: entry (n, k) of relu (s + x5), s the scatter-accumulated array. -/
theorem g_eq (x0 : (⟨S50000x256, .f32⟩ : BufTy).Contents (Elt Ideal)) (x1 : (⟨S2x800000, .i32⟩ : BufTy).Contents (Elt Ideal)) (x2 : (⟨S800000, .f32⟩ : BufTy).Contents (Elt Ideal))
    (x4 : (⟨S256x64, .f32⟩ : BufTy).Contents (Elt Ideal)) (x5 : (⟨S64, .f32⟩ : BufTy).Contents (Elt Ideal)) (n : Fin 50000) (k : Fin 64) :
    Read.val_main_v60 (F := Ideal) x0 x1 x2 x4 x5 (ix2 n k)
      = max (Read.val_main_v56 (F := Ideal) x0 x1 x2 x4 (ix2 n k) + x5 (ix1 k)) 0 := by
  rw [Read.val_main_v60_apply, Read.val_main_v59_apply, Read.val_main_v58_apply, Read.val_main_v57_apply,
    Read.val_main_call2_v0_apply, Read.val_main_call2_cst_apply, idx58]
  simp only [Ideal.maximumf_def, Ideal.addf_def, Ideal.ofBits_def, Ideal.ofBits_zero_f32]

end Cert.RefStages

end
-- ==== Proof.KHost.lean ====
/-
  The host operations of the idealized kernel's program, read off the run.

  The program's host side computes, before the first region, the source and target rows of the edges with one
  self-loop per node appended, the edge weights with ones appended, the weighted degree of every node, its inverse
  square root (zero where the degree is not positive), and from these the normalisation of every edge; it also lays
  the biases out as rows, cuts the head column into its two halves and multiplies the second graph-convolution weight
  and bias by the lower half. Between the regions it gathers the transformed features along the source rows, scales
  them by the normalisation and sums them into their target rows. After the second region it does the same with the
  one projected column, adds the projected bias and the head's first half.

  Each of these is the same composition of the same operations as in the reference program, so it is identified with
  the reference's own stage of the same arguments; none of the graph operations is opened here. The contents of the
  buffers at every boundary of the run are then read one stretch at a time, down to the result array at a row.
-/
import proofs.«152822_j8529805049887_2_alg».proof.Proof.Gen.KernelIdeal.Frame
import proofs.«152822_j8529805049887_2_alg».proof.Proof.Gen.ReferenceIdeal.Read
import proofs.«152822_j8529805049887_2_alg».proof.Proof.LibTRef
import proofs.«152822_j8529805049887_2_alg».proof.Proof.KReg
import proofs.«152822_j8529805049887_2_alg».proof.Proof.KAgg
import proofs.«152822_j8529805049887_2_alg».proof.Proof.KConst
import proofs.«152822_j8529805049887_2_alg».proof.Proof.RefStages
import Idealize.ShloMosaic.Lib.StableHlo.Run

set_option maxRecDepth 16384

noncomputable section
open scoped BigOperators

namespace Cert.RefWhere
open Cert.ReferenceIdeal Cert.ReferenceIdeal.Facts₀ Cert.ReferenceIdeal.Read Idealize.ShloMosaic
/-- The reference's where, one level open: a select between the inverse square root and a broadcast zero. -/
theorem where_eq (x1 : (⟨S2x800000, .i32⟩ : BufTy).Contents (Elt Ideal)) (x2 : (⟨S800000, .f32⟩ : BufTy).Contents (Elt Ideal)) :
    select (val_main_v23 (F := Ideal) x1 x2) (val_main_v26 (F := Ideal) x1 x2)
      (broadcastInDim S50000 ![] bcast_S_S50000 (id (constant (F := Ideal) S_ .f32 0x00000000#32))) = val_main_v27 (F := Ideal) x1 x2 := rfl
end Cert.RefWhere

namespace Cert.KernelIdeal.KHost

open Cert.KernelIdeal Cert.KernelIdeal.Gen Idealize.ShloMosaic Idealize.ShloMosaic.TcCoe Idealize.ShloMosaic.StableHlo
open Idealize.ShloMosaic.ValueIdx
open Idealize.SL.Sem
open Cert.ReferenceIdeal.Read (val_main_v12 val_main_v13 val_main_v15 val_main_v16 val_main_v18 val_main_v21 val_main_v23 val_main_v26 val_main_v27 val_main_v43 val_main_v49 val_main_v55 val_main_v56 val_main_v60)

/-- Finishes what the one-pass reading leaves inside the operand lists of a concatenation. -/
macro "finish_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- A buffer that no operation of the line writes keeps its contents. -/
macro "keeps" l:ident : tactic =>
  `(tactic| exact StableHlo.after_of_forall_not_mem _ _ (List.forall_iff_forall_mem.mp (by
      simp only [$l:ident, List.Forall, StableHlo.nullary_writes, StableHlo.unary_writes, StableHlo.binary_writes,
        StableHlo.ternary_writes, StableHlo.quaternary_writes, StableHlo.reshape_writes, Finset.mem_singleton]
      repeat' apply And.intro
      all_goals exact StableHlo.devRef_ne_of_ne (by decide))))

/-- The fourteen argument buffers. -/
abbrev argList : List (Ref sig .tc) := [main_arg0, main_arg1, main_arg2, main_arg3, main_arg4, main_arg5, main_arg6, main_arg7, main_arg8, main_arg9, main_arg10, main_arg11, main_arg12, main_arg13]

variable (X : Valuation τ sig (Elt Ideal))

/-! ## The first stretch: source and target rows with the self-loops appended, the weights, the degree -/

theorem A0_v5 : after (hostOps0 (F := Ideal)) X (Proc.devRef .tc main_v5) = val_main_v15 (F := Ideal) (X (Proc.devRef .tc main_arg1)) := by
  after_results; rfl
theorem A0_v6 : after (hostOps0 (F := Ideal)) X (Proc.devRef .tc main_v6) = val_main_v16 (F := Ideal) (X (Proc.devRef .tc main_arg1)) := by
  after_results; rfl
theorem A0_v8 : after (hostOps0 (F := Ideal)) X (Proc.devRef .tc main_v8) = val_main_v18 (F := Ideal) (X (Proc.devRef .tc main_arg2)) := by
  after_results; rfl
theorem A0_v13 : after (hostOps0 (F := Ideal)) X (Proc.devRef .tc main_v13)
    = val_main_v23 (F := Ideal) (X (Proc.devRef .tc main_arg1)) (X (Proc.devRef .tc main_arg2)) := by
  after_results_simp; finish_results; rfl
theorem A0_v16 : after (hostOps0 (F := Ideal)) X (Proc.devRef .tc main_v16)
    = val_main_v26 (F := Ideal) (X (Proc.devRef .tc main_arg1)) (X (Proc.devRef .tc main_arg2)) := by
  after_results_simp; finish_results; rfl
theorem A0_cst3 : after (hostOps0 (F := Ideal)) X (Proc.devRef .tc main_cst_3) = constant (F := Ideal) S_ .f32 0x00000000#32 := by
  after_results_simp

theorem keep0 : ∀ b ∈ argList, after (hostOps0 (F := Ideal)) X (Proc.devRef .tc b) = X (Proc.devRef .tc b) := by
  intro b hb
  simp only [argList, List.mem_cons, List.mem_nil_iff, or_false] at hb
  rcases hb with rfl | rfl | rfl | rfl | rfl | rfl | rfl | rfl | rfl | rfl | rfl | rfl | rfl | rfl <;> keeps hostOps0

/-! ## The inlined where: the inverse square root of the degree, zero where the degree is not positive -/

theorem ofBuf_v13 (p1 p2 p3) (v : Vec Ideal S50000 .i1) : (TRef.of (T := ⟨S50000, .i1⟩) main_v13 p1 p2 p3).ofBuf v = v := rfl
theorem ofBuf_v16 (p1 p2 p3) (v : (⟨S50000, .f32⟩ : BufTy).Contents (Elt Ideal)) :
    (TRef.of (T := ⟨S50000, .f32⟩) main_v16 p1 p2 p3).ofBuf (Val := Elt Ideal) v = v := rfl
theorem ofBuf_cst3 (p1 p2 p3) (v : (⟨S_, .f32⟩ : BufTy).Contents (Elt Ideal)) :
    (TRef.of (T := ⟨S_, .f32⟩) main_cst_3 p1 p2 p3).ofBuf (Val := Elt Ideal) v = v := rfl
theorem toBuf_v17 (p1 p2 p3) (v : (⟨S50000, .f32⟩ : BufTy).Contents (Elt Ideal)) :
    (TRef.of (T := ⟨S50000, .f32⟩) main_v17 p1 p2 p3).toBuf (Val := Elt Ideal) v = v := rfl

theorem A1_v17 (x1 : IVec S2x800000 32) (x2 : FVec Ideal S800000 .f32)
    (h13 : X (Proc.devRef .tc main_v13) = val_main_v23 (F := Ideal) x1 x2)
    (h16 : X (Proc.devRef .tc main_v16) = val_main_v26 (F := Ideal) x1 x2)
    (hc : X (Proc.devRef .tc main_cst_3) = constant (F := Ideal) S_ .f32 0x00000000#32) :
    after (hostOps0_1 (F := Ideal)) X (Proc.devRef .tc main_v17) = val_main_v27 (F := Ideal) x1 x2 := by
  after_results_simp
  rw [h13, h16, hc]
  simp only [TRef.ofBuf_toBuf, TRef.toBuf_ofBuf]
  rw [ofBuf_v13, ofBuf_v16, ofBuf_cst3, toBuf_v17]
  exact Cert.RefWhere.where_eq x1 x2

theorem keep1a : ∀ b ∈ argList, after (hostOps0_1 (F := Ideal)) X (Proc.devRef .tc b) = X (Proc.devRef .tc b) := by
  intro b hb
  simp only [argList, List.mem_cons, List.mem_nil_iff, or_false] at hb
  rcases hb with rfl | rfl | rfl | rfl | rfl | rfl | rfl | rfl | rfl | rfl | rfl | rfl | rfl | rfl <;> keeps hostOps0_1
theorem keep1b : ∀ b ∈ [main_v5, main_v6, main_v8], after (hostOps0_1 (F := Ideal)) X (Proc.devRef .tc b) = X (Proc.devRef .tc b) := by
  intro b hb
  simp only [List.mem_cons, List.mem_nil_iff, or_false] at hb
  rcases hb with rfl | rfl | rfl <;> keeps hostOps0_1

/-! ## The second stretch: the edge normalisation, the biases as rows, the head's two halves, the fused column -/

theorem A2_v33 (x1 : IVec S2x800000 32) (x2 : FVec Ideal S800000 .f32)
    (h17 : X (Proc.devRef .tc main_v17) = val_main_v27 (F := Ideal) x1 x2)
    (h5 : X (Proc.devRef .tc main_v5) = val_main_v15 (F := Ideal) x1)
    (h6 : X (Proc.devRef .tc main_v6) = val_main_v16 (F := Ideal) x1)
    (h8 : X (Proc.devRef .tc main_v8) = val_main_v18 (F := Ideal) x2) :
    after (hostOps0_2 (F := Ideal)) X (Proc.devRef .tc main_v33) = val_main_v43 (F := Ideal) x1 x2 := by
  after_results_simp
  rw [h17, h5, h6, h8]
  rfl
theorem A2_v34 : after (hostOps0_2 (F := Ideal)) X (Proc.devRef .tc main_v34)
    = shapeCast (α := Ideal .f32) S1x512 (X (Proc.devRef .tc main_arg9) : FVec Ideal S512 .f32) shapeCasts_S512_S1x512 := by
  after_results_simp; rfl
theorem A2_v35 : after (hostOps0_2 (F := Ideal)) X (Proc.devRef .tc main_v35)
    = shapeCast (α := Ideal .f32) S1x64 (X (Proc.devRef .tc main_arg11) : FVec Ideal S64 .f32) shapeCasts_S64_S1x64 := by
  after_results_simp; rfl
theorem A2_v36 : after (hostOps0_2 (F := Ideal)) X (Proc.devRef .tc main_v36)
    = shapeCast (α := Ideal .f32) S1x64 (X (Proc.devRef .tc main_arg5) : FVec Ideal S64 .f32) shapeCasts_S64_S1x64 := by
  after_results_simp; rfl
theorem A2_v37 : after (hostOps0_2 (F := Ideal)) X (Proc.devRef .tc main_v37)
    = shapeCast (α := Ideal .f32) S1x1 (X (Proc.devRef .tc main_arg13) : FVec Ideal S1 .f32) shapeCasts_S1_S1x1 := by
  after_results_simp; rfl
theorem A2_v38 : after (hostOps0_2 (F := Ideal)) X (Proc.devRef .tc main_v38)
    = extractStridedSlice (α := Ideal .f32) S64x1 ![0, 0] (X (Proc.devRef .tc main_arg12) : FVec Ideal S128x1 .f32) slices_S128x1_S64x1_0_0 := by
  after_results_simp
theorem A2_v40 : after (hostOps0_2 (F := Ideal)) X (Proc.devRef .tc main_v40)
    = Host.dotGeneral (F := Ideal) (φ₁ := .f32) (φ₂ := .f32) dot_S64x64_S64x1_S64x1_1_0_0_1_n_n none (X (Proc.devRef .tc main_arg6) : FVec Ideal S64x64 .f32)
        (extractStridedSlice (α := Ideal .f32) S64x1 ![64, 0] (X (Proc.devRef .tc main_arg12) : FVec Ideal S128x1 .f32) slices_S128x1_S64x1_64_0) := by
  after_results_simp
theorem A2_v42 : after (hostOps0_2 (F := Ideal)) X (Proc.devRef .tc main_v42)
    = Host.dotGeneral (F := Ideal) (φ₁ := .f32) (φ₂ := .f32) dot_S1x64_S64x1_S1x1_1_0_0_1_n_n none
        (shapeCast (α := Ideal .f32) S1x64 (X (Proc.devRef .tc main_arg7) : FVec Ideal S64 .f32) shapeCasts_S64_S1x64)
        (extractStridedSlice (α := Ideal .f32) S64x1 ![64, 0] (X (Proc.devRef .tc main_arg12) : FVec Ideal S128x1 .f32) slices_S128x1_S64x1_64_0) := by
  after_results_simp; rfl

theorem keep2a : ∀ b ∈ argList, after (hostOps0_2 (F := Ideal)) X (Proc.devRef .tc b) = X (Proc.devRef .tc b) := by
  intro b hb
  simp only [argList, List.mem_cons, List.mem_nil_iff, or_false] at hb
  rcases hb with rfl | rfl | rfl | rfl | rfl | rfl | rfl | rfl | rfl | rfl | rfl | rfl | rfl | rfl <;> keeps hostOps0_2
theorem keep2b : ∀ b ∈ [main_v5, main_v6], after (hostOps0_2 (F := Ideal)) X (Proc.devRef .tc b) = X (Proc.devRef .tc b) := by
  intro b hb
  simp only [List.mem_cons, List.mem_nil_iff, or_false] at hb
  rcases hb with rfl | rfl <;> keeps hostOps0_2

/-! ## Between the regions: the first aggregation -/

theorem B_v56 (x0 : FVec Ideal S50000x256 .f32) (x1 : IVec S2x800000 32) (x2 : FVec Ideal S800000 .f32) (x4 : FVec Ideal S256x64 .f32)
    (h0 : X (Proc.devRef .tc main_v43_0) = val_main_v13 (F := Ideal) x0 x4)
    (h5 : X (Proc.devRef .tc main_v5) = val_main_v15 (F := Ideal) x1)
    (h6 : X (Proc.devRef .tc main_v6) = val_main_v16 (F := Ideal) x1)
    (h33 : X (Proc.devRef .tc main_v33) = val_main_v43 (F := Ideal) x1 x2) :
    after (hostOps1 (F := Ideal)) X (Proc.devRef .tc main_v56) = val_main_v56 (F := Ideal) x0 x1 x2 x4 := by
  after_results_simp
  rw [h0, h5, h6, h33]
  rfl

theorem keepB : ∀ b ∈ [main_v5, main_v6, main_v33, main_v36, main_v40, main_v42, main_v43_1], after (hostOps1 (F := Ideal)) X (Proc.devRef .tc b) = X (Proc.devRef .tc b) := by
  intro b hb
  simp only [List.mem_cons, List.mem_nil_iff, or_false] at hb
  rcases hb with rfl | rfl | rfl | rfl | rfl | rfl | rfl <;> keeps hostOps1

/-! ## After the regions: the second aggregation on one column, the bias scalar, the head -/

theorem C_v72 (x1 : IVec S2x800000 32) (x2 : FVec Ideal S800000 .f32)
    (h5 : X (Proc.devRef .tc main_v5) = val_main_v15 (F := Ideal) x1)
    (h6 : X (Proc.devRef .tc main_v6) = val_main_v16 (F := Ideal) x1)
    (h33 : X (Proc.devRef .tc main_v33) = val_main_v43 (F := Ideal) x1 x2) :
    after (hostOps2 (F := Ideal)) X (Proc.devRef .tc main_v72)
      = addf (X (Proc.devRef .tc main_v43_1))
          (addf (Host.scatterAdd (F := Ideal) (φ := .f32) scatter_S50000x1_S850000x1_S850000x1_1_0_0_1
              (broadcastInDim S50000x1 ![] bcast_S_S50000x1 (constant (F := Ideal) S_ .f32 0x00000000#32))
              (val_main_v55 (F := Ideal) x1)
              (mulf (Host.gather (α := Ideal .f32) gather_S50000x1_S850000x1_S850000x1_1_0_n_n_0_1_11 (X (Proc.devRef .tc main_v57))
                  (val_main_v49 (F := Ideal) x1))
                (broadcastInDim S850000x1 ![0] bcast_S850000_S850000x1_0 (val_main_v43 (F := Ideal) x1 x2))))
            (broadcastInDim S50000x1 ![0, 1] bcast_S1x1_S50000x1_0_1 (X (Proc.devRef .tc main_v42)))) := by
  after_results_simp
  rw [h5, h6, h33]
  rfl

/-! ## The boundary contents along the run, from the launch memory -/

section Chain

variable (m : (ℓ : Loc nD τ sig) → Buf (Elt Ideal) ℓ) (ρ : Dev nD → PrngReg) (c : Dev nD)

/-- An argument array as launched. -/
abbrev argOf (b : Ref sig .tc) : Buf (Elt Ideal) ((c : Thread nD τ).loc b) := m ((c : Thread nD τ).loc b)

theorem W1_arg (b : Ref sig .tc) (hb : b ∈ argList) : W1 m ρ c (Proc.devRef .tc b) = argOf m c b := keep0 (W0 m ρ c) b hb
theorem W2_arg (b : Ref sig .tc) (hb : b ∈ argList) : W2 m ρ c (Proc.devRef .tc b) = argOf m c b :=
  (keep1a (W1 m ρ c) b hb).trans (W1_arg m ρ c b hb)
theorem W3_arg (b : Ref sig .tc) (hb : b ∈ argList) : W3 m ρ c (Proc.devRef .tc b) = argOf m c b :=
  (keep2a (W2 m ρ c) b hb).trans (W2_arg m ρ c b hb)

theorem W1_v5 : W1 m ρ c (Proc.devRef .tc main_v5) = val_main_v15 (F := Ideal) (argOf m c main_arg1) := A0_v5 (W0 m ρ c)
theorem W1_v6 : W1 m ρ c (Proc.devRef .tc main_v6) = val_main_v16 (F := Ideal) (argOf m c main_arg1) := A0_v6 (W0 m ρ c)
theorem W1_v8 : W1 m ρ c (Proc.devRef .tc main_v8) = val_main_v18 (F := Ideal) (argOf m c main_arg2) := A0_v8 (W0 m ρ c)
theorem W1_v13 : W1 m ρ c (Proc.devRef .tc main_v13) = val_main_v23 (F := Ideal) (argOf m c main_arg1) (argOf m c main_arg2) :=
  A0_v13 (W0 m ρ c)
theorem W1_v16 : W1 m ρ c (Proc.devRef .tc main_v16) = val_main_v26 (F := Ideal) (argOf m c main_arg1) (argOf m c main_arg2) :=
  A0_v16 (W0 m ρ c)
theorem W1_cst3 : W1 m ρ c (Proc.devRef .tc main_cst_3) = constant (F := Ideal) S_ .f32 0x00000000#32 := A0_cst3 (W0 m ρ c)

theorem W2_v17 : W2 m ρ c (Proc.devRef .tc main_v17) = val_main_v27 (F := Ideal) (argOf m c main_arg1) (argOf m c main_arg2) :=
  A1_v17 (W1 m ρ c) (argOf m c main_arg1) (argOf m c main_arg2) (W1_v13 m ρ c) (W1_v16 m ρ c) (W1_cst3 m ρ c)
theorem W2_v5 : W2 m ρ c (Proc.devRef .tc main_v5) = val_main_v15 (F := Ideal) (argOf m c main_arg1) :=
  (keep1b (W1 m ρ c) main_v5 (by simp)).trans (W1_v5 m ρ c)
theorem W2_v6 : W2 m ρ c (Proc.devRef .tc main_v6) = val_main_v16 (F := Ideal) (argOf m c main_arg1) :=
  (keep1b (W1 m ρ c) main_v6 (by simp)).trans (W1_v6 m ρ c)
theorem W2_v8 : W2 m ρ c (Proc.devRef .tc main_v8) = val_main_v18 (F := Ideal) (argOf m c main_arg2) :=
  (keep1b (W1 m ρ c) main_v8 (by simp)).trans (W1_v8 m ρ c)

theorem W3_v33 : W3 m ρ c (Proc.devRef .tc main_v33) = val_main_v43 (F := Ideal) (argOf m c main_arg1) (argOf m c main_arg2) :=
  A2_v33 (W2 m ρ c) (argOf m c main_arg1) (argOf m c main_arg2) (W2_v17 m ρ c) (W2_v5 m ρ c) (W2_v6 m ρ c) (W2_v8 m ρ c)
theorem W3_v5 : W3 m ρ c (Proc.devRef .tc main_v5) = val_main_v15 (F := Ideal) (argOf m c main_arg1) :=
  (keep2b (W2 m ρ c) main_v5 (by simp)).trans (W2_v5 m ρ c)
theorem W3_v6 : W3 m ρ c (Proc.devRef .tc main_v6) = val_main_v16 (F := Ideal) (argOf m c main_arg1) :=
  (keep2b (W2 m ρ c) main_v6 (by simp)).trans (W2_v6 m ρ c)
theorem W3_v34 : W3 m ρ c (Proc.devRef .tc main_v34) = shapeCast (α := Ideal .f32) S1x512 (argOf m c main_arg9 : FVec Ideal S512 .f32) shapeCasts_S512_S1x512 :=
  (A2_v34 (W2 m ρ c)).trans (by rw [W2_arg m ρ c main_arg9 (by simp)])
theorem W3_v35 : W3 m ρ c (Proc.devRef .tc main_v35) = shapeCast (α := Ideal .f32) S1x64 (argOf m c main_arg11 : FVec Ideal S64 .f32) shapeCasts_S64_S1x64 :=
  (A2_v35 (W2 m ρ c)).trans (by rw [W2_arg m ρ c main_arg11 (by simp)])
theorem W3_v36 : W3 m ρ c (Proc.devRef .tc main_v36) = shapeCast (α := Ideal .f32) S1x64 (argOf m c main_arg5 : FVec Ideal S64 .f32) shapeCasts_S64_S1x64 :=
  (A2_v36 (W2 m ρ c)).trans (by rw [W2_arg m ρ c main_arg5 (by simp)])
theorem W3_v37 : W3 m ρ c (Proc.devRef .tc main_v37) = shapeCast (α := Ideal .f32) S1x1 (argOf m c main_arg13 : FVec Ideal S1 .f32) shapeCasts_S1_S1x1 :=
  (A2_v37 (W2 m ρ c)).trans (by rw [W2_arg m ρ c main_arg13 (by simp)])
theorem W3_v38 : W3 m ρ c (Proc.devRef .tc main_v38)
    = extractStridedSlice (α := Ideal .f32) S64x1 ![0, 0] (argOf m c main_arg12 : FVec Ideal S128x1 .f32) slices_S128x1_S64x1_0_0 :=
  (A2_v38 (W2 m ρ c)).trans (by rw [W2_arg m ρ c main_arg12 (by simp)])
theorem W3_v40 : W3 m ρ c (Proc.devRef .tc main_v40)
    = Host.dotGeneral (F := Ideal) (φ₁ := .f32) (φ₂ := .f32) dot_S64x64_S64x1_S64x1_1_0_0_1_n_n none (argOf m c main_arg6 : FVec Ideal S64x64 .f32)
        (extractStridedSlice (α := Ideal .f32) S64x1 ![64, 0] (argOf m c main_arg12 : FVec Ideal S128x1 .f32) slices_S128x1_S64x1_64_0) :=
  (A2_v40 (W2 m ρ c)).trans (by rw [W2_arg m ρ c main_arg6 (by simp), W2_arg m ρ c main_arg12 (by simp)])
theorem W3_v42 : W3 m ρ c (Proc.devRef .tc main_v42)
    = Host.dotGeneral (F := Ideal) (φ₁ := .f32) (φ₂ := .f32) dot_S1x64_S64x1_S1x1_1_0_0_1_n_n none
        (shapeCast (α := Ideal .f32) S1x64 (argOf m c main_arg7 : FVec Ideal S64 .f32) shapeCasts_S64_S1x64)
        (extractStridedSlice (α := Ideal .f32) S64x1 ![64, 0] (argOf m c main_arg12 : FVec Ideal S128x1 .f32) slices_S128x1_S64x1_64_0) :=
  (A2_v42 (W2 m ρ c)).trans (by rw [W2_arg m ρ c main_arg7 (by simp), W2_arg m ρ c main_arg12 (by simp)])

/-- After the first region its first output holds the transformed node features, the reference's product. -/
theorem W4_h1 : W4 m ρ c (Proc.devRef .tc main_v43_0) = val_main_v13 (F := Ideal) (argOf m c main_arg0) (argOf m c main_arg4) := by
  refine (W4_arr m ρ c 9).trans ((KReg.final0_9 (V3 m ρ) c).trans ?_)
  rw [show V3 m ρ c main_arg0 = argOf m c main_arg0 from W3_arg m ρ c main_arg0 (by simp),
    show V3 m ρ c main_arg4 = argOf m c main_arg4 from W3_arg m ρ c main_arg4 (by simp)]
  funext i
  obtain ⟨n, k, rfl⟩ : ∃ (n : Fin 50000) (k : Fin 64), i = ix2 n k := ⟨i 0, i 1, eq_ix2 i⟩
  exact (Cert.RefStages.h_eq (argOf m c main_arg0) (argOf m c main_arg4) n k).symm

/-- After the first region its second output holds the head's first half. -/
theorem W4_head : W4 m ρ c (Proc.devRef .tc main_v43_1)
    = KReg.HEADarr (argOf m c main_arg3) (argOf m c main_arg8)
        (shapeCast (α := Ideal .f32) S1x512 (argOf m c main_arg9 : FVec Ideal S512 .f32) shapeCasts_S512_S1x512) (argOf m c main_arg10)
        (shapeCast (α := Ideal .f32) S1x64 (argOf m c main_arg11 : FVec Ideal S64 .f32) shapeCasts_S64_S1x64)
        (extractStridedSlice (α := Ideal .f32) S64x1 ![0, 0] (argOf m c main_arg12 : FVec Ideal S128x1 .f32) slices_S128x1_S64x1_0_0)
        (shapeCast (α := Ideal .f32) S1x1 (argOf m c main_arg13 : FVec Ideal S1 .f32) shapeCasts_S1_S1x1) := by
  refine (W4_arr m ρ c 10).trans ((KReg.final0_10 (V3 m ρ) c).trans ?_)
  rw [show V3 m ρ c main_arg3 = argOf m c main_arg3 from W3_arg m ρ c main_arg3 (by simp),
    show V3 m ρ c main_arg8 = argOf m c main_arg8 from W3_arg m ρ c main_arg8 (by simp),
    show V3 m ρ c main_arg10 = argOf m c main_arg10 from W3_arg m ρ c main_arg10 (by simp),
    show V3 m ρ c main_v34 = _ from W3_v34 m ρ c, show V3 m ρ c main_v35 = _ from W3_v35 m ρ c,
    show V3 m ρ c main_v38 = _ from W3_v38 m ρ c, show V3 m ρ c main_v37 = _ from W3_v37 m ρ c]

theorem W4_keep (b : Ref sig .tc) (hb : ∀ w, Pipeline.arrRef spec0 w ≠ b) :
    W4 m ρ c (Proc.devRef .tc b) = W3 m ρ c (Proc.devRef .tc b) := W4_of_ne m ρ c b hb

theorem W4_v5 : W4 m ρ c (Proc.devRef .tc main_v5) = val_main_v15 (F := Ideal) (argOf m c main_arg1) :=
  (W4_keep m ρ c main_v5 (by decide)).trans (W3_v5 m ρ c)
theorem W4_v6 : W4 m ρ c (Proc.devRef .tc main_v6) = val_main_v16 (F := Ideal) (argOf m c main_arg1) :=
  (W4_keep m ρ c main_v6 (by decide)).trans (W3_v6 m ρ c)
theorem W4_v33 : W4 m ρ c (Proc.devRef .tc main_v33) = val_main_v43 (F := Ideal) (argOf m c main_arg1) (argOf m c main_arg2) :=
  (W4_keep m ρ c main_v33 (by decide)).trans (W3_v33 m ρ c)

/-- Between the regions the first aggregation is the reference's. -/
theorem W5_v56 : W5 m ρ c (Proc.devRef .tc main_v56)
    = val_main_v56 (F := Ideal) (argOf m c main_arg0) (argOf m c main_arg1) (argOf m c main_arg2) (argOf m c main_arg4) :=
  B_v56 (W4 m ρ c) (argOf m c main_arg0) (argOf m c main_arg1) (argOf m c main_arg2) (argOf m c main_arg4)
    (W4_h1 m ρ c) (W4_v5 m ρ c) (W4_v6 m ρ c) (W4_v33 m ρ c)

theorem W5_keep (b : Ref sig .tc) (hb : b ∈ [main_v5, main_v6, main_v33, main_v36, main_v40, main_v42, main_v43_1])
    (hb' : ∀ w, Pipeline.arrRef spec0 w ≠ b) :
    W5 m ρ c (Proc.devRef .tc b) = W3 m ρ c (Proc.devRef .tc b) :=
  (keepB (W4 m ρ c) b hb).trans (W4_keep m ρ c b hb')

/-- After the second region its output holds the clamped, projected first aggregation. -/
theorem W6_v57 : W6 m ρ c (Proc.devRef .tc main_v57)
    = KReg.SPREarr (val_main_v56 (F := Ideal) (argOf m c main_arg0) (argOf m c main_arg1) (argOf m c main_arg2) (argOf m c main_arg4))
        (shapeCast (α := Ideal .f32) S1x64 (argOf m c main_arg5 : FVec Ideal S64 .f32) shapeCasts_S64_S1x64)
        (Host.dotGeneral (F := Ideal) (φ₁ := .f32) (φ₂ := .f32) dot_S64x64_S64x1_S64x1_1_0_0_1_n_n none (argOf m c main_arg6 : FVec Ideal S64x64 .f32)
          (extractStridedSlice (α := Ideal .f32) S64x1 ![64, 0] (argOf m c main_arg12 : FVec Ideal S128x1 .f32) slices_S128x1_S64x1_64_0)) := by
  refine (W6_arr m ρ c 3).trans ((KReg.final1_3 (V5 m ρ) c).trans ?_)
  rw [show V5 m ρ c main_v56 = _ from W5_v56 m ρ c,
    show V5 m ρ c main_v36 = _ from (W5_keep m ρ c main_v36 (by simp) (by decide)).trans (W3_v36 m ρ c),
    show V5 m ρ c main_v40 = _ from (W5_keep m ρ c main_v40 (by simp) (by decide)).trans (W3_v40 m ρ c)]

theorem W6_keep (b : Ref sig .tc) (hb : b ∈ [main_v5, main_v6, main_v33, main_v36, main_v40, main_v42, main_v43_1])
    (hb0 : ∀ w, Pipeline.arrRef spec0 w ≠ b) (hb1 : ∀ w, Pipeline.arrRef spec1 w ≠ b) :
    W6 m ρ c (Proc.devRef .tc b) = W3 m ρ c (Proc.devRef .tc b) :=
  (W6_of_ne m ρ c b hb1).trans (W5_keep m ρ c b hb hb0)

theorem W6_head : W6 m ρ c (Proc.devRef .tc main_v43_1) = W4 m ρ c (Proc.devRef .tc main_v43_1) :=
  (W6_of_ne m ρ c main_v43_1 (by decide)).trans (keepB (W4 m ρ c) main_v43_1 (by simp))

theorem W6_v5 : W6 m ρ c (Proc.devRef .tc main_v5) = val_main_v15 (F := Ideal) (argOf m c main_arg1) :=
  (W6_keep m ρ c main_v5 (by simp) (by decide) (by decide)).trans (W3_v5 m ρ c)
theorem W6_v6 : W6 m ρ c (Proc.devRef .tc main_v6) = val_main_v16 (F := Ideal) (argOf m c main_arg1) :=
  (W6_keep m ρ c main_v6 (by simp) (by decide) (by decide)).trans (W3_v6 m ρ c)
theorem W6_v33 : W6 m ρ c (Proc.devRef .tc main_v33) = val_main_v43 (F := Ideal) (argOf m c main_arg1) (argOf m c main_arg2) :=
  (W6_keep m ρ c main_v33 (by simp) (by decide) (by decide)).trans (W3_v33 m ρ c)
theorem W6_v42 : W6 m ρ c (Proc.devRef .tc main_v42)
    = Host.dotGeneral (F := Ideal) (φ₁ := .f32) (φ₂ := .f32) dot_S1x64_S64x1_S1x1_1_0_0_1_n_n none
        (shapeCast (α := Ideal .f32) S1x64 (argOf m c main_arg7 : FVec Ideal S64 .f32) shapeCasts_S64_S1x64)
        (extractStridedSlice (α := Ideal .f32) S64x1 ![64, 0] (argOf m c main_arg12 : FVec Ideal S128x1 .f32) slices_S128x1_S64x1_64_0) :=
  (W6_keep m ρ c main_v42 (by simp) (by decide) (by decide)).trans (W3_v42 m ρ c)

/-- The result array, through the last stretch: the head's first half plus the second aggregation of the one
    projected column plus the projected bias. -/
theorem W7_v72 : W7 m ρ c (Proc.devRef .tc main_v72)
    = addf (W6 m ρ c (Proc.devRef .tc main_v43_1))
        (addf (Host.scatterAdd (F := Ideal) (φ := .f32) scatter_S50000x1_S850000x1_S850000x1_1_0_0_1
            (broadcastInDim S50000x1 ![] bcast_S_S50000x1 (constant (F := Ideal) S_ .f32 0x00000000#32))
            (val_main_v55 (F := Ideal) (argOf m c main_arg1))
            (mulf (Host.gather (α := Ideal .f32) gather_S50000x1_S850000x1_S850000x1_1_0_n_n_0_1_11 (W6 m ρ c (Proc.devRef .tc main_v57))
                (val_main_v49 (F := Ideal) (argOf m c main_arg1)))
              (broadcastInDim S850000x1 ![0] bcast_S850000_S850000x1_0
                (val_main_v43 (F := Ideal) (argOf m c main_arg1) (argOf m c main_arg2)))))
          (broadcastInDim S50000x1 ![0, 1] bcast_S1x1_S50000x1_0_1 (W6 m ρ c (Proc.devRef .tc main_v42)))) :=
  C_v72 (W6 m ρ c) (argOf m c main_arg1) (argOf m c main_arg2) (W6_v5 m ρ c) (W6_v6 m ρ c) (W6_v33 m ρ c)

end Chain

end Cert.KernelIdeal.KHost
end
-- ==== Proof.KOut.lean ====
/-
  The idealized kernel's result at a row.

  Row i of the result is the head's first half — the perceptron's output row times the upper half of the head column,
  plus the head bias — plus the second aggregation: over the edges (self-loops included) whose target row is i, the
  sum of the projected, clamped first aggregation at the edge's source row times the edge's normalisation, plus the
  second bias projected on the lower half of the head column. The clamped first aggregation and the perceptron's
  output are the reference's own stages; the projection is the product with the second weight matrix already
  multiplied by the lower half of the head column.
-/
import proofs.«152822_j8529805049887_2_alg».proof.Proof.KHost

set_option maxRecDepth 16384

noncomputable section
open scoped BigOperators

namespace Cert.KernelIdeal.KOut

open Cert.KernelIdeal Cert.KernelIdeal.Gen Cert.KernelIdeal.KHost Idealize.ShloMosaic Idealize.ShloMosaic.TcCoe
open Idealize.ShloMosaic.ValueIdx Idealize.SL.Sem
open Cert.ReferenceIdeal.Read (val_main_v12 val_main_v43 val_main_v49 val_main_v55 val_main_v56 val_main_v60)

/-- A row number clamped into the node range is a node. -/
theorem clamp_lt (n : Nat) : min n (50000 - 1) < 50000 := by omega

/-- The second kernel's output array at a row. -/
theorem spre_at (G : FVec Ideal S50000x64 .f32) (β : FVec Ideal S1x64 .f32) (w : FVec Ideal S64x1 .f32) (n : Fin 50000) :
    KReg.SPREarr G β w (ix2 n (0 : Fin 1))
      = ∑ k : Fin 64, max (G (ix2 n k) + β (ix2 (0 : Fin 1) k)) 0 * w (ix2 k (0 : Fin 1)) := rfl

/-- The head's first half at a row. -/
theorem head_at (U : FVec Ideal S50000x256 .f32) (A : FVec Ideal S256x512 .f32) (a : FVec Ideal S1x512 .f32)
    (B : FVec Ideal S512x64 .f32) (b : FVec Ideal S1x64 .f32) (f : FVec Ideal S64x1 .f32) (s : FVec Ideal S1x1 .f32) (n : Fin 50000) :
    KReg.HEADarr U A a B b f s (ix2 n (0 : Fin 1))
      = (∑ j : Fin 64, KReg.MLPval U A a B b n j * f (ix2 j (0 : Fin 1))) + s (ix2 (0 : Fin 1) (0 : Fin 1)) := rfl

variable (m : (ℓ : Loc nD τ sig) → Buf (Elt Ideal) ℓ) (ρ : Dev nD → PrngReg) (c : Dev nD)

/-- The second graph-convolution weight, its bias, the head column and the head bias, as arrays of extended reals. -/
abbrev arr6 : FVec Ideal S64x64 .f32 := argOf m c main_arg6
abbrev arr7 : FVec Ideal S64 .f32 := argOf m c main_arg7
abbrev arr12 : FVec Ideal S128x1 .f32 := argOf m c main_arg12
abbrev arr13 : FVec Ideal S1 .f32 := argOf m c main_arg13
abbrev mlpArr : FVec Ideal S50000x64 .f32 := val_main_v12 (F := Ideal) (argOf m c main_arg3) (argOf m c main_arg8) (argOf m c main_arg9) (argOf m c main_arg10) (argOf m c main_arg11)
abbrev gArr : FVec Ideal S50000x64 .f32 := val_main_v60 (F := Ideal) (argOf m c main_arg0) (argOf m c main_arg1) (argOf m c main_arg2) (argOf m c main_arg4) (argOf m c main_arg5)
abbrev nrmArr : FVec Ideal S850000 .f32 := val_main_v43 (F := Ideal) (argOf m c main_arg1) (argOf m c main_arg2)
abbrev srcIdx : IVec S850000x1 32 := val_main_v49 (F := Ideal) (argOf m c main_arg1)
abbrev dstIdx : IVec S850000x1 32 := val_main_v55 (F := Ideal) (argOf m c main_arg1)

attribute [local irreducible] Cert.ReferenceIdeal.Read.val_main_v12 Cert.ReferenceIdeal.Read.val_main_v43 Cert.ReferenceIdeal.Read.val_main_v49 Cert.ReferenceIdeal.Read.val_main_v55 Cert.ReferenceIdeal.Read.val_main_v56 Cert.ReferenceIdeal.Read.val_main_v60

theorem kernel_at (i : Fin 50000) :
    W7 m ρ c (Proc.devRef .tc main_v72) (ix2 i (0 : Fin 1))
      = ((∑ j : Fin 64, mlpArr m c (ix2 i j) * arr12 m c (ix2 (⟨j.val, by omega⟩ : Fin 128) (0 : Fin 1)))
          + arr13 m c (ix1 (0 : Fin 1)))
        + ((∑ e ∈ Finset.univ.filter (fun e : Fin 850000 => (dstIdx m c (ix2 e (0 : Fin 1))).toInt = (i.val : Int)),
              (∑ k : Fin 64, gArr m c (ix2 (⟨min (srcIdx m c (ix2 e (0 : Fin 1))).toInt.toNat (50000 - 1), clamp_lt _⟩ : Fin 50000) k)
                  * (∑ j : Fin 64, arr6 m c (ix2 k j) * arr12 m c (ix2 (⟨64 + j.val, by omega⟩ : Fin 128) (0 : Fin 1))))
                * nrmArr m c (ix1 e))
            + ∑ j : Fin 64, arr7 m c (ix1 j) * arr12 m c (ix2 (⟨64 + j.val, by omega⟩ : Fin 128) (0 : Fin 1))) := by
  rw [W7_v72 m ρ c, Cert.KAgg.out_at]
  rw [W6_head m ρ c, W4_head m ρ c, W6_v57 m ρ c, W6_v42 m ρ c]
  refine congrArg₂ (fun (p q : EReal) => p + q) ?_ (congrArg₂ (fun (p q : EReal) => p + q) ?_ ?_)
  · rw [head_at, Cert.KConst.one_at]
    refine congrArg (fun z : EReal => z + arr13 m c (ix1 (0 : Fin 1))) (Finset.sum_congr rfl fun j _ => ?_)
    rw [Cert.KConst.ftop_at]
    refine congrArg (fun z : EReal => z * arr12 m c (ix2 (⟨j.val, by omega⟩ : Fin 128) (0 : Fin 1))) ?_
    unfold KReg.MLPval
    dsimp only [mlpArr]
    rw [Cert.RefStages.mlp_eq]
    simp only [Cert.KConst.row512_at, Cert.KConst.row64_at]
  · refine Finset.sum_congr rfl fun e _ => ?_
    refine congrArg (fun z : EReal => z * nrmArr m c (ix1 e)) ?_
    rw [spre_at]
    refine Finset.sum_congr rfl fun k _ => ?_
    dsimp only [gArr, arr6, arr12, srcIdx]
    rw [Cert.KConst.row64_at, Cert.KConst.wf_at, Cert.RefStages.g_eq]
  · exact Cert.KConst.c_at _ _

end Cert.KernelIdeal.KOut

end
-- ==== Proof.Real.lean ====
/-
  Extended reals that are real numbers.

  On the extended reals multiplication does not distribute over addition once an infinite value is present, so
  every rearrangement of sums of products in this certificate is made on real numbers. This module fixes the
  vocabulary: an extended real is REAL when it is the image of a real number, an array is real when every entry
  is, and real values are closed under sums, products and finite sums. The coercion from the reals commutes
  with finite sums.
-/
import Idealize.ShloMosaic.PureOps.Ideal

noncomputable section

open scoped BigOperators
open Idealize.ShloMosaic

namespace Cert.Real

/-- An extended real that is the image of a real number. -/
def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number. -/
theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array of extended reals every entry of which is a real number. -/
def RealArr {ι : Type*} (x : ι → EReal) : Prop := ∀ i, IsReal (x i)

end Cert.Real

end
-- ==== Proof.Algebra.lean ====
/-
  The algebraic law of the certificate and the splitting of a sum over 128 terms.

  The second aggregation is contracted with a fixed vector. On real numbers the contraction moves inside the
  aggregation: the weights are contracted with the vector first, and the bias contributes its own contracted term.
  The statement is about extended reals every one of which is a real number; it is proved on the reals and carried
  back through the coercion.
-/
import proofs.«152822_j8529805049887_2_alg».proof.Proof.Real

noncomputable section

open scoped BigOperators
open Idealize.ShloMosaic

namespace Cert.Algebra

open Cert.Real

/-- The one algebraic law of the certificate: contracting an aggregated, biased product with a fixed
vector equals aggregating the product with the contracted weights, plus the contracted bias. Every entry is a
real number, so the rearrangement is made on the reals and carried back through the coercion. -/
theorem second_agg_law {ι : Type*} (S : Finset ι) (g : ι → Fin 64 → EReal) (n : ι → EReal)
    (W : Fin 64 → Fin 64 → EReal) (b f : Fin 64 → EReal)
    (hg : ∀ e k, IsReal (g e k)) (hn : ∀ e, IsReal (n e)) (hW : ∀ k j, IsReal (W k j))
    (hb : ∀ j, IsReal (b j)) (hf : ∀ j, IsReal (f j)) :
    ∑ j : Fin 64, ((∑ e ∈ S, (∑ k : Fin 64, g e k * W k j) * n e) + b j) * f j
      = (∑ e ∈ S, (∑ k : Fin 64, g e k * (∑ j : Fin 64, W k j * f j)) * n e)
        + ∑ j : Fin 64, b j * f j := by
  choose g' hg' using hg
  choose n' hn' using hn
  choose W' hW' using hW
  choose b' hb' using hb
  choose f' hf' using hf
  -- the law on the reals
  have key : ∑ j : Fin 64, ((∑ e ∈ S, (∑ k : Fin 64, g' e k * W' k j) * n' e) + b' j) * f' j
      = (∑ e ∈ S, (∑ k : Fin 64, g' e k * (∑ j : Fin 64, W' k j * f' j)) * n' e)
        + ∑ j : Fin 64, b' j * f' j := by
    simp only [add_mul, Finset.sum_add_distrib]
    congr 1
    simp only [Finset.sum_mul]
    rw [Finset.sum_comm]
    refine Finset.sum_congr rfl fun e _ => ?_
    simp only [Finset.mul_sum, Finset.sum_mul]
    rw [Finset.sum_comm]
    refine Finset.sum_congr rfl fun k _ => Finset.sum_congr rfl fun j _ => ?_
    ring
  -- carry it through the coercion
  simp only [hg', hn', hW', hb', hf', ← EReal.coe_mul, ← coe_sum, ← EReal.coe_add]
  exact congrArg _ key

/-- A sum over 128 terms is the sum over the first 64 plus the sum over the last 64. -/
theorem split_dot {M : Type*} [AddCommMonoid M] (t : Fin 128 → M) :
    ∑ j : Fin 128, t j
      = (∑ j : Fin 64, t ⟨j.val, by omega⟩) + ∑ j : Fin 64, t ⟨64 + j.val, by omega⟩ := by
  exact Fin.sum_univ_add (a := 64) (b := 64) t

end Cert.Algebra

end
-- ==== Proof.LibCat2.lean ====
/-
  Two equal pieces joined along one axis, read at an index, for any element type and any extents.
  Two matrices [n, w] laid side by side make a matrix [n, W] with W = 2·w: its column g·w + q (g the piece, q the
  column inside the piece) at row k is piece g at (k, q).  Two matrices [n, w] stacked make a matrix [N, w] with
  N = 2·n: its row g·n + q at column c is piece g at (q, c).  Two vectors [w] laid end to end make a vector [W]:
  its element g·w + q is piece g at q.  Each is the library's reading of a concatenation at an index, with the
  extents of the pieces before piece g summed to g·w (or g·n).
-/
import Idealize.ShloMosaic.Lib.Pipeline.Value
import Idealize.ShloMosaic.Lib.ValueIdx

open Idealize.ShloMosaic Idealize.ShloMosaic.ValueIdx

namespace Cat2

variable {α : Type}

/-- Two [n, w] matrices side by side: column `g·w + q` of row `k` is piece `g` at `(k, q)`. -/
theorem cat2_cols_apply {n w W : ℕ} (x0 x1 : (⟨2, ![n, w]⟩ : Shape).Idx → α)
    (h : Shape.Concatenates [(⟨2, ![n, w]⟩ : Shape), ⟨2, ![n, w]⟩] ⟨2, ![n, W]⟩ (1 : Fin 2))
    (g : Fin 2) (k : Fin n) (q : Fin w) (c : Fin W) (hc : c.val = g.val * w + q.val) :
    concatenate (⟨2, ![n, W]⟩ : Shape) (1 : Fin 2)
        [⟨(⟨2, ![n, w]⟩ : Shape), x0⟩, ⟨(⟨2, ![n, w]⟩ : Shape), x1⟩] h (ix2 k c)
      = (![x0, x1] g) (ix2 k q) := by
  refine concatenate_apply_piece (t := (⟨2, ![n, W]⟩ : Shape)) (1 : Fin 2)
    [⟨(⟨2, ![n, w]⟩ : Shape), x0⟩, ⟨(⟨2, ![n, w]⟩ : Shape), x1⟩] h (ix2 k c) g.val g.isLt (⟨2, ![n, w]⟩ : Shape) (![x0, x1] g) ?_ rfl
    (g.val * w) ?_ (ix2 k q) ?_ ?_
  · fin_cases g <;> rfl
  · fin_cases g <;> simp
  · intro b hb
    match b with
    | ⟨0, _⟩ => rfl
    | ⟨1, _⟩ => exact absurd rfl hb
  · show g.val * w + q.val = c.val
    omega

/-- Two [n, w] matrices stacked: row `g·n + q` at column `c` is piece `g` at `(q, c)`. -/
theorem cat2_rows_apply {n w N : ℕ} (x0 x1 : (⟨2, ![n, w]⟩ : Shape).Idx → α)
    (h : Shape.Concatenates [(⟨2, ![n, w]⟩ : Shape), ⟨2, ![n, w]⟩] ⟨2, ![N, w]⟩ (0 : Fin 2))
    (g : Fin 2) (q : Fin n) (c : Fin w) (r : Fin N) (hr : r.val = g.val * n + q.val) :
    concatenate (⟨2, ![N, w]⟩ : Shape) (0 : Fin 2)
        [⟨(⟨2, ![n, w]⟩ : Shape), x0⟩, ⟨(⟨2, ![n, w]⟩ : Shape), x1⟩] h (ix2 r c)
      = (![x0, x1] g) (ix2 q c) := by
  refine concatenate_apply_piece (t := (⟨2, ![N, w]⟩ : Shape)) (0 : Fin 2)
    [⟨(⟨2, ![n, w]⟩ : Shape), x0⟩, ⟨(⟨2, ![n, w]⟩ : Shape), x1⟩] h (ix2 r c) g.val g.isLt (⟨2, ![n, w]⟩ : Shape) (![x0, x1] g) ?_ rfl
    (g.val * n) ?_ (ix2 q c) ?_ ?_
  · fin_cases g <;> rfl
  · fin_cases g <;> simp
  · intro b hb
    match b with
    | ⟨0, _⟩ => exact absurd rfl hb
    | ⟨1, _⟩ => rfl
  · show g.val * n + q.val = r.val
    omega

/-- Two [w] vectors end to end: element `g·w + q` is piece `g` at `q`. -/
theorem cat2_vec_apply {w W : ℕ} (x0 x1 : (⟨1, ![w]⟩ : Shape).Idx → α)
    (h : Shape.Concatenates [(⟨1, ![w]⟩ : Shape), ⟨1, ![w]⟩] ⟨1, ![W]⟩ (0 : Fin 1))
    (g : Fin 2) (q : Fin w) (c : Fin W) (hc : c.val = g.val * w + q.val) :
    concatenate (⟨1, ![W]⟩ : Shape) (0 : Fin 1)
        [⟨(⟨1, ![w]⟩ : Shape), x0⟩, ⟨(⟨1, ![w]⟩ : Shape), x1⟩] h (ix1 c)
      = (![x0, x1] g) (ix1 q) := by
  refine concatenate_apply_piece (t := (⟨1, ![W]⟩ : Shape)) (0 : Fin 1)
    [⟨(⟨1, ![w]⟩ : Shape), x0⟩, ⟨(⟨1, ![w]⟩ : Shape), x1⟩] h (ix1 c) g.val g.isLt (⟨1, ![w]⟩ : Shape) (![x0, x1] g) ?_ rfl
    (g.val * w) ?_ (ix1 q) ?_ ?_
  · fin_cases g <;> rfl
  · fin_cases g <;> simp
  · intro b hb
    match b with
    | ⟨0, _⟩ => exact absurd rfl hb
  · show g.val * w + q.val = c.val
    omega

end Cat2
-- ==== Proof.RefRead.lean ====
/-
  The reference's result at an index.

  The reference computes a two-branch network on 50000 rows: a two-layer perceptron, and two graph convolutions
  (each a matrix product, a gather of rows along the edges, a scaling by the edge normalisation, and a scatter-add
  onto the destination rows, plus a bias). The two branches are laid side by side and contracted with one weight
  column, and a last bias is added. This module reads that result at row `i`, from the generated one-operation-
  at-a-time description of the program, as: the perceptron branch contracted with the first 64 weights, plus the
  second convolution (the sum over the edges landing on `i` of the gathered product row times the normalisation,
  plus the bias) contracted with the last 64 weights, plus the last bias. The accumulating scatter is rewritten as
  a whole and read with the general row-scatter lemma: the sum over the 850000 updates is never opened.
-/
import proofs.«152822_j8529805049887_2_alg».proof.Proof.Gen.ReferenceIdeal.Read
import proofs.«152822_j8529805049887_2_alg».proof.Proof.Real
import proofs.«152822_j8529805049887_2_alg».proof.Proof.Algebra
import proofs.«152822_j8529805049887_2_alg».proof.Proof.LibGatherRows
import proofs.«152822_j8529805049887_2_alg».proof.Proof.LibScatterRows
import proofs.«152822_j8529805049887_2_alg».proof.Proof.LibHostScatterIdeal
import proofs.«152822_j8529805049887_2_alg».proof.Proof.LibCat2

noncomputable section

open scoped BigOperators
open Idealize.ShloMosaic Idealize.ShloMosaic.ValueIdx
open Cert.ReferenceIdeal Cert.ReferenceIdeal.Gen

namespace Cert.RefRead

/-! ## The second convolution recomputes its index and normalisation arrays

The program computes the gather row numbers, the scatter row numbers and the edge normalisation once for each
convolution, by the same operations on the same arguments: the second copies are the first ones. -/

section Recomputed

variable {F : FTy → Type} [FloatOps F]

/-! Each equality is proved one definition at a time: both sides are opened one level and the operands are
rewritten with the equalities already proved. -/

theorem cst_11_eq_cst_0 :
    Read.val_main_cst_11 (F := F) = Read.val_main_cst_0 (F := F) := rfl

theorem v67_eq_v19 :
    Read.val_main_v67 (F := F) = Read.val_main_v19 (F := F) := by
  unfold Read.val_main_v67 Read.val_main_v19
  rw [cst_11_eq_cst_0]

theorem v62_eq_v14 :
    Read.val_main_v62 (F := F) = Read.val_main_v14 (F := F) := rfl

theorem v64_eq_v16 (x1 : (⟨S2x800000, .i32⟩ : BufTy).Contents (Elt F)) :
    Read.val_main_v64 (F := F) x1 = Read.val_main_v16 (F := F) x1 := by
  unfold Read.val_main_v64 Read.val_main_v16
  rw [v62_eq_v14]

theorem v68_eq_v20 (x1 : (⟨S2x800000, .i32⟩ : BufTy).Contents (Elt F)) :
    Read.val_main_v68 (F := F) x1 = Read.val_main_v20 (F := F) x1 := by
  unfold Read.val_main_v68 Read.val_main_v20
  rw [v64_eq_v16]

theorem cst_10_eq_cst :
    Read.val_main_cst_10 (F := F) = Read.val_main_cst (F := F) := rfl

theorem v65_eq_v17 :
    Read.val_main_v65 (F := F) = Read.val_main_v17 (F := F) := by
  unfold Read.val_main_v65 Read.val_main_v17
  rw [cst_10_eq_cst]

theorem v66_eq_v18 (x2 : (⟨S800000, .f32⟩ : BufTy).Contents (Elt F)) :
    Read.val_main_v66 (F := F) x2 = Read.val_main_v18 (F := F) x2 := by
  unfold Read.val_main_v66 Read.val_main_v18
  rw [v65_eq_v17]

theorem v69_eq_v21 (x1 : (⟨S2x800000, .i32⟩ : BufTy).Contents (Elt F)) (x2 : (⟨S800000, .f32⟩ : BufTy).Contents (Elt F)) :
    Read.val_main_v69 (F := F) x1 x2 = Read.val_main_v21 (F := F) x1 x2 := by
  unfold Read.val_main_v69 Read.val_main_v21
  rw [v67_eq_v19, v68_eq_v20, v66_eq_v18]

theorem cst_12_eq_cst_1 :
    Read.val_main_cst_12 (F := F) = Read.val_main_cst_1 (F := F) := rfl

theorem v70_eq_v22 :
    Read.val_main_v70 (F := F) = Read.val_main_v22 (F := F) := by
  unfold Read.val_main_v70 Read.val_main_v22
  rw [cst_12_eq_cst_1]

theorem v71_eq_v23 (x1 : (⟨S2x800000, .i32⟩ : BufTy).Contents (Elt F)) (x2 : (⟨S800000, .f32⟩ : BufTy).Contents (Elt F)) :
    Read.val_main_v71 (F := F) x1 x2 = Read.val_main_v23 (F := F) x1 x2 := by
  unfold Read.val_main_v71 Read.val_main_v23
  rw [v69_eq_v21, v70_eq_v22]

theorem cst_13_eq_cst_2 :
    Read.val_main_cst_13 (F := F) = Read.val_main_cst_2 (F := F) := rfl

theorem v72_eq_v24 :
    Read.val_main_v72 (F := F) = Read.val_main_v24 (F := F) := by
  unfold Read.val_main_v72 Read.val_main_v24
  rw [cst_13_eq_cst_2]

theorem v73_eq_v25 (x1 : (⟨S2x800000, .i32⟩ : BufTy).Contents (Elt F)) (x2 : (⟨S800000, .f32⟩ : BufTy).Contents (Elt F)) :
    Read.val_main_v73 (F := F) x1 x2 = Read.val_main_v25 (F := F) x1 x2 := by
  unfold Read.val_main_v73 Read.val_main_v25
  rw [v69_eq_v21, v72_eq_v24]

theorem v74_eq_v26 (x1 : (⟨S2x800000, .i32⟩ : BufTy).Contents (Elt F)) (x2 : (⟨S800000, .f32⟩ : BufTy).Contents (Elt F)) :
    Read.val_main_v74 (F := F) x1 x2 = Read.val_main_v26 (F := F) x1 x2 := by
  unfold Read.val_main_v74 Read.val_main_v26
  rw [v73_eq_v25]

theorem cst_14_eq_cst_3 :
    Read.val_main_cst_14 (F := F) = Read.val_main_cst_3 (F := F) := rfl

theorem call3_v0_eq_call1_v0 :
    Read.val_main_call3_v0 (F := F) = Read.val_main_call1_v0 (F := F) := by
  unfold Read.val_main_call3_v0 Read.val_main_call1_v0
  rw [cst_14_eq_cst_3]

theorem call3_v1_eq_call1_v1 :
    Read.val_main_call3_v1 (F := F) = Read.val_main_call1_v1 (F := F) := by
  unfold Read.val_main_call3_v1 Read.val_main_call1_v1
  rw [call3_v0_eq_call1_v0]

theorem v75_eq_v27 (x1 : (⟨S2x800000, .i32⟩ : BufTy).Contents (Elt F)) (x2 : (⟨S800000, .f32⟩ : BufTy).Contents (Elt F)) :
    Read.val_main_v75 (F := F) x1 x2 = Read.val_main_v27 (F := F) x1 x2 := by
  unfold Read.val_main_v75 Read.val_main_v27
  rw [v71_eq_v23, v74_eq_v26, call3_v1_eq_call1_v1]

theorem v63_eq_v15 (x1 : (⟨S2x800000, .i32⟩ : BufTy).Contents (Elt F)) :
    Read.val_main_v63 (F := F) x1 = Read.val_main_v15 (F := F) x1 := by
  unfold Read.val_main_v63 Read.val_main_v15
  rw [v62_eq_v14]

theorem c_15_eq_c :
    Read.val_main_c_15 (F := F) = Read.val_main_c (F := F) := rfl

theorem v76_eq_v28 :
    Read.val_main_v76 (F := F) = Read.val_main_v28 (F := F) := by
  unfold Read.val_main_v76 Read.val_main_v28
  rw [c_15_eq_c]

theorem v77_eq_v29 (x1 : (⟨S2x800000, .i32⟩ : BufTy).Contents (Elt F)) :
    Read.val_main_v77 (F := F) x1 = Read.val_main_v29 (F := F) x1 := by
  unfold Read.val_main_v77 Read.val_main_v29
  rw [v63_eq_v15, v76_eq_v28]

theorem c_16_eq_c_4 :
    Read.val_main_c_16 (F := F) = Read.val_main_c_4 (F := F) := rfl

theorem v78_eq_v30 :
    Read.val_main_v78 (F := F) = Read.val_main_v30 (F := F) := by
  unfold Read.val_main_v78 Read.val_main_v30
  rw [c_16_eq_c_4]

theorem v79_eq_v31 (x1 : (⟨S2x800000, .i32⟩ : BufTy).Contents (Elt F)) :
    Read.val_main_v79 (F := F) x1 = Read.val_main_v31 (F := F) x1 := by
  unfold Read.val_main_v79 Read.val_main_v31
  rw [v63_eq_v15, v78_eq_v30]

theorem v80_eq_v32 (x1 : (⟨S2x800000, .i32⟩ : BufTy).Contents (Elt F)) :
    Read.val_main_v80 (F := F) x1 = Read.val_main_v32 (F := F) x1 := by
  unfold Read.val_main_v80 Read.val_main_v32
  rw [v77_eq_v29, v79_eq_v31, v63_eq_v15]

theorem v81_eq_v33 (x1 : (⟨S2x800000, .i32⟩ : BufTy).Contents (Elt F)) :
    Read.val_main_v81 (F := F) x1 = Read.val_main_v33 (F := F) x1 := by
  unfold Read.val_main_v81 Read.val_main_v33
  rw [v80_eq_v32]

theorem v82_eq_v34 (x1 : (⟨S2x800000, .i32⟩ : BufTy).Contents (Elt F)) (x2 : (⟨S800000, .f32⟩ : BufTy).Contents (Elt F)) :
    Read.val_main_v82 (F := F) x1 x2 = Read.val_main_v34 (F := F) x1 x2 := by
  unfold Read.val_main_v82 Read.val_main_v34
  rw [v75_eq_v27, v81_eq_v33]

theorem v83_eq_v35 (x1 : (⟨S2x800000, .i32⟩ : BufTy).Contents (Elt F)) (x2 : (⟨S800000, .f32⟩ : BufTy).Contents (Elt F)) :
    Read.val_main_v83 (F := F) x1 x2 = Read.val_main_v35 (F := F) x1 x2 := by
  unfold Read.val_main_v83 Read.val_main_v35
  rw [v82_eq_v34, v66_eq_v18]

theorem c_17_eq_c_5 :
    Read.val_main_c_17 (F := F) = Read.val_main_c_5 (F := F) := rfl

theorem v84_eq_v36 :
    Read.val_main_v84 (F := F) = Read.val_main_v36 (F := F) := by
  unfold Read.val_main_v84 Read.val_main_v36
  rw [c_17_eq_c_5]

theorem v85_eq_v37 (x1 : (⟨S2x800000, .i32⟩ : BufTy).Contents (Elt F)) :
    Read.val_main_v85 (F := F) x1 = Read.val_main_v37 (F := F) x1 := by
  unfold Read.val_main_v85 Read.val_main_v37
  rw [v64_eq_v16, v84_eq_v36]

theorem c_18_eq_c_6 :
    Read.val_main_c_18 (F := F) = Read.val_main_c_6 (F := F) := rfl

theorem v86_eq_v38 :
    Read.val_main_v86 (F := F) = Read.val_main_v38 (F := F) := by
  unfold Read.val_main_v86 Read.val_main_v38
  rw [c_18_eq_c_6]

theorem v87_eq_v39 (x1 : (⟨S2x800000, .i32⟩ : BufTy).Contents (Elt F)) :
    Read.val_main_v87 (F := F) x1 = Read.val_main_v39 (F := F) x1 := by
  unfold Read.val_main_v87 Read.val_main_v39
  rw [v64_eq_v16, v86_eq_v38]

theorem v88_eq_v40 (x1 : (⟨S2x800000, .i32⟩ : BufTy).Contents (Elt F)) :
    Read.val_main_v88 (F := F) x1 = Read.val_main_v40 (F := F) x1 := by
  unfold Read.val_main_v88 Read.val_main_v40
  rw [v85_eq_v37, v87_eq_v39, v64_eq_v16]

theorem v89_eq_v41 (x1 : (⟨S2x800000, .i32⟩ : BufTy).Contents (Elt F)) :
    Read.val_main_v89 (F := F) x1 = Read.val_main_v41 (F := F) x1 := by
  unfold Read.val_main_v89 Read.val_main_v41
  rw [v88_eq_v40]

theorem v90_eq_v42 (x1 : (⟨S2x800000, .i32⟩ : BufTy).Contents (Elt F)) (x2 : (⟨S800000, .f32⟩ : BufTy).Contents (Elt F)) :
    Read.val_main_v90 (F := F) x1 x2 = Read.val_main_v42 (F := F) x1 x2 := by
  unfold Read.val_main_v90 Read.val_main_v42
  rw [v75_eq_v27, v89_eq_v41]

theorem v91_eq_v43 (x1 : (⟨S2x800000, .i32⟩ : BufTy).Contents (Elt F)) (x2 : (⟨S800000, .f32⟩ : BufTy).Contents (Elt F)) :
    Read.val_main_v91 (F := F) x1 x2 = Read.val_main_v43 (F := F) x1 x2 := by
  unfold Read.val_main_v91 Read.val_main_v43
  rw [v83_eq_v35, v90_eq_v42]

theorem c_19_eq_c_7 :
    Read.val_main_c_19 (F := F) = Read.val_main_c_7 (F := F) := rfl

theorem v92_eq_v44 :
    Read.val_main_v92 (F := F) = Read.val_main_v44 (F := F) := by
  unfold Read.val_main_v92 Read.val_main_v44
  rw [c_19_eq_c_7]

theorem v93_eq_v45 (x1 : (⟨S2x800000, .i32⟩ : BufTy).Contents (Elt F)) :
    Read.val_main_v93 (F := F) x1 = Read.val_main_v45 (F := F) x1 := by
  unfold Read.val_main_v93 Read.val_main_v45
  rw [v63_eq_v15, v92_eq_v44]

theorem c_20_eq_c_8 :
    Read.val_main_c_20 (F := F) = Read.val_main_c_8 (F := F) := rfl

theorem v94_eq_v46 :
    Read.val_main_v94 (F := F) = Read.val_main_v46 (F := F) := by
  unfold Read.val_main_v94 Read.val_main_v46
  rw [c_20_eq_c_8]

theorem v95_eq_v47 (x1 : (⟨S2x800000, .i32⟩ : BufTy).Contents (Elt F)) :
    Read.val_main_v95 (F := F) x1 = Read.val_main_v47 (F := F) x1 := by
  unfold Read.val_main_v95 Read.val_main_v47
  rw [v63_eq_v15, v94_eq_v46]

theorem v96_eq_v48 (x1 : (⟨S2x800000, .i32⟩ : BufTy).Contents (Elt F)) :
    Read.val_main_v96 (F := F) x1 = Read.val_main_v48 (F := F) x1 := by
  unfold Read.val_main_v96 Read.val_main_v48
  rw [v93_eq_v45, v95_eq_v47, v63_eq_v15]

theorem v97_eq_v49 (x1 : (⟨S2x800000, .i32⟩ : BufTy).Contents (Elt F)) :
    Read.val_main_v97 (F := F) x1 = Read.val_main_v49 (F := F) x1 := by
  unfold Read.val_main_v97 Read.val_main_v49
  rw [v96_eq_v48]

theorem v103_eq_v55 (x1 : (⟨S2x800000, .i32⟩ : BufTy).Contents (Elt F)) :
    Read.val_main_v103 (F := F) x1 = Read.val_main_v55 (F := F) x1 := by
  unfold Read.val_main_v103 Read.val_main_v55
  rw [v64_eq_v16]

end Recomputed

/-- A row number clamped into `[0, 49999]` is below 50000. -/
theorem clamp_lt (n : ℕ) : min n (50000 - 1) < 50000 := by omega

/-! ## The layout steps at an index -/

/-- The last bias, broadcast over the rows, at `(i, 0)`. -/
theorem v111_at (x13 : (⟨S1, .f32⟩ : BufTy).Contents (Elt Ideal)) (i : Fin 50000) :
    Read.val_main_v111 (F := Ideal) x13 (ix2 i 0) = x13 (ix1 0) := by
  rw [Read.val_main_v111_apply, Read.val_main_v110_apply]
  exact congrArg x13 (funext fun a => Fin.ext (by match a with | ⟨0, _⟩ => rfl))

/-- The bias of the second convolution, broadcast over the rows, at `(i, j)`. -/
theorem v106_at (x7 : (⟨S64, .f32⟩ : BufTy).Contents (Elt Ideal)) (i : Fin 50000) (j : Fin 64) :
    Read.val_main_v106 (F := Ideal) x7 (ix2 i j) = x7 (ix1 j) := by
  rw [Read.val_main_v106_apply, Read.val_main_v105_apply]
  exact congrArg x7 (funext fun a => Fin.ext (by match a with | ⟨0, _⟩ => rfl))

/-- The edge normalisation, broadcast along the 64 columns, at `(e, j)`. -/
theorem v100_at (x1 : (⟨S2x800000, .i32⟩ : BufTy).Contents (Elt Ideal)) (x2 : (⟨S800000, .f32⟩ : BufTy).Contents (Elt Ideal)) (e : Fin 850000) (j : Fin 64) :
    Read.val_main_v100 (F := Ideal) x1 x2 (ix2 e j) = Read.val_main_v43 (F := Ideal) x1 x2 (ix1 e) := by
  rw [Read.val_main_v100_apply, Read.val_main_v99_apply, v91_eq_v43]
  exact congrArg _ (funext fun a => Fin.ext (by match a with | ⟨0, _⟩ => rfl))

/-- The zero array the scatter accumulates into. -/
theorem v102_at (p : S50000x64.Idx) : Read.val_main_v102 (F := Ideal) p = 0 := by
  rw [Read.val_main_v102_apply, Read.val_main_cst_21_apply, Ideal.ofBits_def, Ideal.ofBits_zero_f32]

/-! ## The second convolution at an index -/

/-- The product of the first convolution's output with the second weight matrix, at `(r, j)`. -/
theorem v61_at (x0 : (⟨S50000x256, .f32⟩ : BufTy).Contents (Elt Ideal)) (x1 : (⟨S2x800000, .i32⟩ : BufTy).Contents (Elt Ideal)) (x2 : (⟨S800000, .f32⟩ : BufTy).Contents (Elt Ideal)) (x4 : (⟨S256x64, .f32⟩ : BufTy).Contents (Elt Ideal)) (x5 : (⟨S64, .f32⟩ : BufTy).Contents (Elt Ideal)) (x6 : (⟨S64x64, .f32⟩ : BufTy).Contents (Elt Ideal)) (r : Fin 50000) (j : Fin 64) :
    Read.val_main_v61 (F := Ideal) x0 x1 x2 x4 x5 x6 (ix2 r j)
      = ∑ k : Fin 64, Read.val_main_v60 (F := Ideal) x0 x1 x2 x4 x5 (ix2 r k) * x6 (ix2 k j) := by
  rw [Read.val_main_v61_apply]
  refine Finset.sum_congr rfl fun k _ => ?_
  have el : Read.lidx_main_v61 (ix2 r j) k = ix2 r k :=
    funext fun a => Fin.ext (by match a with | ⟨0, _⟩ => rfl | ⟨1, _⟩ => rfl)
  have er : Read.ridx_main_v61 (ix2 r j) k = ix2 k j :=
    funext fun a => Fin.ext (by match a with | ⟨0, _⟩ => rfl | ⟨1, _⟩ => rfl)
  rw [el, er]

/-- The gathered rows: row `e` is the row of the product whose number is the gather row number of `e`, read signed
and clamped into `[0, 49999]`. -/
theorem v98_at (x0 : (⟨S50000x256, .f32⟩ : BufTy).Contents (Elt Ideal)) (x1 : (⟨S2x800000, .i32⟩ : BufTy).Contents (Elt Ideal)) (x2 : (⟨S800000, .f32⟩ : BufTy).Contents (Elt Ideal)) (x4 : (⟨S256x64, .f32⟩ : BufTy).Contents (Elt Ideal)) (x5 : (⟨S64, .f32⟩ : BufTy).Contents (Elt Ideal)) (x6 : (⟨S64x64, .f32⟩ : BufTy).Contents (Elt Ideal)) (e : Fin 850000) (j : Fin 64) :
    Read.val_main_v98 (F := Ideal) x0 x1 x2 x4 x5 x6 (ix2 e j)
      = Read.val_main_v61 (F := Ideal) x0 x1 x2 x4 x5 x6 (ix2 (⟨min (Read.val_main_v49 (F := Ideal) x1 (ix2 e 0)).toInt.toNat (50000 - 1), clamp_lt _⟩ : Fin 50000) j) := by
  unfold Read.val_main_v98
  rw [v97_eq_v49]
  generalize Read.val_main_v61 (F := Ideal) x0 x1 x2 x4 x5 x6 = y
  generalize Read.val_main_v49 (F := Ideal) x1 = idx
  exact GatherRows.gather_rows2 (N := 50000) (J := 64) (E := 850000)
    gather_S50000x64_S850000x1_S850000x64_1_0_n_n_0_1_164 (by decide) rfl rfl rfl rfl rfl rfl y idx e j

/-- The scattered sum at `(i, j)`: the sum, over the updates whose scatter row number is `i`, of the gathered row
times the normalisation. The sum over the updates is never opened: the scatter is rewritten as a whole. -/
theorem v104_at (x0 : (⟨S50000x256, .f32⟩ : BufTy).Contents (Elt Ideal)) (x1 : (⟨S2x800000, .i32⟩ : BufTy).Contents (Elt Ideal)) (x2 : (⟨S800000, .f32⟩ : BufTy).Contents (Elt Ideal)) (x4 : (⟨S256x64, .f32⟩ : BufTy).Contents (Elt Ideal)) (x5 : (⟨S64, .f32⟩ : BufTy).Contents (Elt Ideal)) (x6 : (⟨S64x64, .f32⟩ : BufTy).Contents (Elt Ideal)) (i : Fin 50000) (j : Fin 64) :
    Read.val_main_v104 (F := Ideal) x0 x1 x2 x4 x5 x6 (ix2 i j)
      = ∑ e ∈ Finset.univ.filter (fun e : Fin 850000 => (Read.val_main_v55 (F := Ideal) x1 (ix2 e 0)).toInt = (i.val : Int)),
          (∑ k : Fin 64, Read.val_main_v60 (F := Ideal) x0 x1 x2 x4 x5 (ix2 (⟨min (Read.val_main_v49 (F := Ideal) x1 (ix2 e 0)).toInt.toNat (50000 - 1), clamp_lt _⟩ : Fin 50000) k) * x6 (ix2 k j))
            * Read.val_main_v43 (F := Ideal) x1 x2 (ix1 e) := by
  unfold Read.val_main_v104
  rw [Host.scatterAdd_ideal, v103_eq_v55,
    ScatterRows.hostScatterAdd_rows2 (N := 50000) (E := 850000) (F := 64)
      scatter_S50000x64_S850000x1_S850000x64_1_0_0_1 rfl rfl rfl rfl,
    v102_at, zero_add]
  refine Finset.sum_congr rfl fun e _ => ?_
  rw [Read.val_main_v101_apply, Ideal.mulf_def, v98_at, v61_at, v100_at]

/-- The second convolution's output at `(i, j)`: the scattered sum plus the bias. -/
theorem v107_at (x0 : (⟨S50000x256, .f32⟩ : BufTy).Contents (Elt Ideal)) (x1 : (⟨S2x800000, .i32⟩ : BufTy).Contents (Elt Ideal)) (x2 : (⟨S800000, .f32⟩ : BufTy).Contents (Elt Ideal)) (x4 : (⟨S256x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (i : Fin 50000) (j : Fin 64) :
    Read.val_main_v107 (F := Ideal) x0 x1 x2 x4 x5 x6 x7 (ix2 i j)
      = (∑ e ∈ Finset.univ.filter (fun e : Fin 850000 => (Read.val_main_v55 (F := Ideal) x1 (ix2 e 0)).toInt = (i.val : Int)),
          (∑ k : Fin 64, Read.val_main_v60 (F := Ideal) x0 x1 x2 x4 x5 (ix2 (⟨min (Read.val_main_v49 (F := Ideal) x1 (ix2 e 0)).toInt.toNat (50000 - 1), clamp_lt _⟩ : Fin 50000) k) * x6 (ix2 k j))
            * Read.val_main_v43 (F := Ideal) x1 x2 (ix1 e)) + x7 (ix1 j) := by
  rw [Read.val_main_v107_apply, Ideal.addf_def, v104_at, v106_at]

/-! ## The two branches side by side -/

/-- Two `[50000, 64]` arrays side by side, read in the first 64 columns: the first array. Stated for arbitrary
arrays, so that the small computation selecting the piece is checked on variables. -/
theorem cat_left (a b : FVec Ideal S50000x64 .f32) (i : Fin 50000) (j : Fin 64) (c : Fin 128) (hc : c.val = j.val) :
    concatenate S50000x128 1 [⟨S50000x64, a⟩, ⟨S50000x64, b⟩] concatenates_S50000x64_S50000x64_S50000x128_d1 (ix2 i c) = a (ix2 i j) :=
  (Cat2.cat2_cols_apply (n := 50000) (w := 64) (W := 128) a b concatenates_S50000x64_S50000x64_S50000x128_d1 0 i j c
    (by show c.val = 0 * 64 + j.val; omega)).trans rfl

/-- Two `[50000, 64]` arrays side by side, read in the last 64 columns: the second array. -/
theorem cat_right (a b : FVec Ideal S50000x64 .f32) (i : Fin 50000) (j : Fin 64) (c : Fin 128) (hc : c.val = 64 + j.val) :
    concatenate S50000x128 1 [⟨S50000x64, a⟩, ⟨S50000x64, b⟩] concatenates_S50000x64_S50000x64_S50000x128_d1 (ix2 i c) = b (ix2 i j) :=
  (Cat2.cat2_cols_apply (n := 50000) (w := 64) (W := 128) a b concatenates_S50000x64_S50000x64_S50000x128_d1 1 i j c
    (by show c.val = 1 * 64 + j.val; omega)).trans rfl

/-- The first 64 columns of the joined matrix are the first branch. -/
theorem v108_left (x0 : (⟨S50000x256, .f32⟩ : BufTy).Contents (Elt Ideal)) (x1 : (⟨S2x800000, .i32⟩ : BufTy).Contents (Elt Ideal)) (x2 : (⟨S800000, .f32⟩ : BufTy).Contents (Elt Ideal)) (x3 : (⟨S50000x256, .f32⟩ : BufTy).Contents (Elt Ideal)) (x4 : (⟨S256x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S256x512, .f32⟩ : BufTy).Contents (Elt Ideal)) (x9 : (⟨S512, .f32⟩ : BufTy).Contents (Elt Ideal)) (x10 : (⟨S512x64, .f32⟩ : BufTy).Contents (Elt Ideal)) (x11 : (⟨S64, .f32⟩ : BufTy).Contents (Elt Ideal)) (i : Fin 50000) (j : Fin 64) :
    Read.val_main_v108 (F := Ideal) x0 x1 x2 x3 x4 x5 x6 x7 x8 x9 x10 x11 (ix2 i ⟨j.val, by omega⟩)
      = Read.val_main_v12 (F := Ideal) x3 x8 x9 x10 x11 (ix2 i j) := by
  unfold Read.val_main_v108
  exact cat_left _ _ i j _ rfl

/-- The last 64 columns of the joined matrix are the second convolution's output. -/
theorem v108_right (x0 : (⟨S50000x256, .f32⟩ : BufTy).Contents (Elt Ideal)) (x1 : (⟨S2x800000, .i32⟩ : BufTy).Contents (Elt Ideal)) (x2 : (⟨S800000, .f32⟩ : BufTy).Contents (Elt Ideal)) (x3 : (⟨S50000x256, .f32⟩ : BufTy).Contents (Elt Ideal)) (x4 : (⟨S256x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S256x512, .f32⟩ : BufTy).Contents (Elt Ideal)) (x9 : (⟨S512, .f32⟩ : BufTy).Contents (Elt Ideal)) (x10 : (⟨S512x64, .f32⟩ : BufTy).Contents (Elt Ideal)) (x11 : (⟨S64, .f32⟩ : BufTy).Contents (Elt Ideal)) (i : Fin 50000) (j : Fin 64) :
    Read.val_main_v108 (F := Ideal) x0 x1 x2 x3 x4 x5 x6 x7 x8 x9 x10 x11 (ix2 i ⟨64 + j.val, by omega⟩)
      = Read.val_main_v107 (F := Ideal) x0 x1 x2 x4 x5 x6 x7 (ix2 i j) := by
  unfold Read.val_main_v108
  exact cat_right _ _ i j _ rfl

/-- The final contraction over the 128 joined columns, at `(i, 0)`. -/
theorem v109_at (x0 : (⟨S50000x256, .f32⟩ : BufTy).Contents (Elt Ideal)) (x1 : (⟨S2x800000, .i32⟩ : BufTy).Contents (Elt Ideal)) (x2 : (⟨S800000, .f32⟩ : BufTy).Contents (Elt Ideal)) (x3 : (⟨S50000x256, .f32⟩ : BufTy).Contents (Elt Ideal)) (x4 : (⟨S256x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S256x512, .f32⟩ : BufTy).Contents (Elt Ideal)) (x9 : (⟨S512, .f32⟩ : BufTy).Contents (Elt Ideal)) (x10 : (⟨S512x64, .f32⟩ : BufTy).Contents (Elt Ideal)) (x11 : (⟨S64, .f32⟩ : BufTy).Contents (Elt Ideal)) (x12 : (⟨S128x1, .f32⟩ : BufTy).Contents (Elt Ideal)) (i : Fin 50000) :
    Read.val_main_v109 (F := Ideal) x0 x1 x2 x3 x4 x5 x6 x7 x8 x9 x10 x11 x12 (ix2 i 0)
      = ∑ k : Fin 128, Read.val_main_v108 (F := Ideal) x0 x1 x2 x3 x4 x5 x6 x7 x8 x9 x10 x11 (ix2 i k) * x12 (ix2 k 0) := by
  rw [Read.val_main_v109_apply]
  refine Finset.sum_congr rfl fun k _ => ?_
  have el : Read.lidx_main_v109 (ix2 i (0 : Fin 1)) k = ix2 i k :=
    funext fun a => Fin.ext (by match a with | ⟨0, _⟩ => rfl | ⟨1, _⟩ => rfl)
  have er : Read.ridx_main_v109 (ix2 i (0 : Fin 1)) k = ix2 k (0 : Fin 1) :=
    funext fun a => Fin.ext (by match a with | ⟨0, _⟩ => rfl | ⟨1, _⟩ => rfl)
  rw [el, er]

/-! ## The reference's result at an index -/

/-- THE REFERENCE AT ROW `i`: the first branch contracted with the first 64 entries of the last weight column,
plus the second convolution's output (aggregated product plus bias) contracted with the last 64 entries, plus the
last bias. -/
theorem ref_at (x0 : (⟨S50000x256, .f32⟩ : BufTy).Contents (Elt Ideal)) (x1 : (⟨S2x800000, .i32⟩ : BufTy).Contents (Elt Ideal)) (x2 : (⟨S800000, .f32⟩ : BufTy).Contents (Elt Ideal)) (x3 : (⟨S50000x256, .f32⟩ : BufTy).Contents (Elt Ideal)) (x4 : (⟨S256x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S256x512, .f32⟩ : BufTy).Contents (Elt Ideal)) (x9 : (⟨S512, .f32⟩ : BufTy).Contents (Elt Ideal)) (x10 : (⟨S512x64, .f32⟩ : BufTy).Contents (Elt Ideal)) (x11 : (⟨S64, .f32⟩ : BufTy).Contents (Elt Ideal)) (x12 : (⟨S128x1, .f32⟩ : BufTy).Contents (Elt Ideal)) (x13 : (⟨S1, .f32⟩ : BufTy).Contents (Elt Ideal)) (i : Fin 50000) :
    Read.val_main_v112 (F := Ideal) x0 x1 x2 x3 x4 x5 x6 x7 x8 x9 x10 x11 x12 x13 (ix2 i 0)
      = ((∑ j : Fin 64, Read.val_main_v12 (F := Ideal) x3 x8 x9 x10 x11 (ix2 i j) * x12 (ix2 ⟨j.val, by omega⟩ 0))
          + ∑ j : Fin 64, ((∑ e ∈ Finset.univ.filter (fun e : Fin 850000 => (Read.val_main_v55 (F := Ideal) x1 (ix2 e 0)).toInt = (i.val : Int)),
          (∑ k : Fin 64, Read.val_main_v60 (F := Ideal) x0 x1 x2 x4 x5 (ix2 (⟨min (Read.val_main_v49 (F := Ideal) x1 (ix2 e 0)).toInt.toNat (50000 - 1), clamp_lt _⟩ : Fin 50000) k) * x6 (ix2 k j))
            * Read.val_main_v43 (F := Ideal) x1 x2 (ix1 e)) + x7 (ix1 j)) * x12 (ix2 ⟨64 + j.val, by omega⟩ 0))
        + x13 (ix1 0) := by
  rw [Read.val_main_v112_apply, Ideal.addf_def, v111_at, v109_at, Algebra.split_dot]
  simp only [v108_left, v108_right, v107_at]

end Cert.RefRead

end
-- ==== Proof.Bridge.lean ====
/-
  The two programs' results at one output row.

  At row i one program adds, to the contraction of the perceptron's row with the upper half of the column x12
  and the scalar x13, the aggregation over the edges arriving at i of the neighbour's row contracted with the
  matrix x6 times the lower half of x12, weighted by the edge's normaliser, plus the bias x7 contracted with the
  lower half. The other program contracts, with the lower half of x12, the aggregated and biased row, adds the
  perceptron's contraction, and adds x13 last. When the neighbours' rows, the normalisers, x6, x7 and x12 are
  real numbers the contraction moves inside the aggregation, and what is left is commutativity and
  associativity of addition on the extended reals; the perceptron's row and x13 may be any extended reals.
-/
import proofs.«152822_j8529805049887_2_alg».proof.Proof.Real
import proofs.«152822_j8529805049887_2_alg».proof.Proof.Algebra
import Idealize.ShloMosaic.Lib.ValueIdx
import Idealize.ShloMosaic.PureOps.Ideal

noncomputable section

open scoped BigOperators

namespace Cert.Bridge

open Idealize.ShloMosaic Idealize.ShloMosaic.ValueIdx Cert.Real

/-- The two results at row i are equal. The edges arriving at i are those whose destination word equals i;
    an edge's neighbour is its source word, clamped to the last row. -/
theorem kernel_eq_reference
    (MLP G : (⟨2, ![50000, 64]⟩ : Shape).Idx → EReal) (NRM : (⟨1, ![850000]⟩ : Shape).Idx → EReal)
    (SI DI : IVec ⟨2, ![850000, 1]⟩ 32)
    (x6 : (⟨2, ![64, 64]⟩ : Shape).Idx → EReal) (x7 : (⟨1, ![64]⟩ : Shape).Idx → EReal)
    (x12 : (⟨2, ![128, 1]⟩ : Shape).Idx → EReal) (x13 : (⟨1, ![1]⟩ : Shape).Idx → EReal)
    (hG : RealArr G) (hN : RealArr NRM) (h6 : RealArr x6) (h7 : RealArr x7) (h12 : RealArr x12)
    (i : Fin 50000) :
    ((∑ j : Fin 64, MLP (ix2 i j) * x12 (ix2 (⟨j.val, by omega⟩ : Fin 128) (0 : Fin 1))) + x13 (ix1 (0 : Fin 1)))
        + ((∑ e ∈ (Finset.univ.filter (fun e : Fin 850000 => (DI (ix2 e (0 : Fin 1))).toInt = (i.val : Int))),
            (∑ k : Fin 64, G (ix2 (⟨min (SI (ix2 e (0 : Fin 1))).toInt.toNat (50000 - 1), by omega⟩ : Fin 50000) k) * (∑ j : Fin 64, x6 (ix2 k j) * x12 (ix2 (⟨64 + j.val, by omega⟩ : Fin 128) (0 : Fin 1)))) * NRM (ix1 e))
          + ∑ j : Fin 64, x7 (ix1 j) * x12 (ix2 (⟨64 + j.val, by omega⟩ : Fin 128) (0 : Fin 1)))
      = ((∑ j : Fin 64, MLP (ix2 i j) * x12 (ix2 (⟨j.val, by omega⟩ : Fin 128) (0 : Fin 1)))
          + ∑ j : Fin 64, ((∑ e ∈ (Finset.univ.filter (fun e : Fin 850000 => (DI (ix2 e (0 : Fin 1))).toInt = (i.val : Int))),
            (∑ k : Fin 64, G (ix2 (⟨min (SI (ix2 e (0 : Fin 1))).toInt.toNat (50000 - 1), by omega⟩ : Fin 50000) k) * x6 (ix2 k j)) * NRM (ix1 e)) + x7 (ix1 j)) * x12 (ix2 (⟨64 + j.val, by omega⟩ : Fin 128) (0 : Fin 1)))
        + x13 (ix1 (0 : Fin 1)) := by
  have key : (∑ j : Fin 64, ((∑ e ∈ (Finset.univ.filter (fun e : Fin 850000 => (DI (ix2 e (0 : Fin 1))).toInt = (i.val : Int))),
            (∑ k : Fin 64, G (ix2 (⟨min (SI (ix2 e (0 : Fin 1))).toInt.toNat (50000 - 1), by omega⟩ : Fin 50000) k) * x6 (ix2 k j)) * NRM (ix1 e)) + x7 (ix1 j)) * x12 (ix2 (⟨64 + j.val, by omega⟩ : Fin 128) (0 : Fin 1)))
      = (∑ e ∈ (Finset.univ.filter (fun e : Fin 850000 => (DI (ix2 e (0 : Fin 1))).toInt = (i.val : Int))),
            (∑ k : Fin 64, G (ix2 (⟨min (SI (ix2 e (0 : Fin 1))).toInt.toNat (50000 - 1), by omega⟩ : Fin 50000) k) * (∑ j : Fin 64, x6 (ix2 k j) * x12 (ix2 (⟨64 + j.val, by omega⟩ : Fin 128) (0 : Fin 1)))) * NRM (ix1 e))
        + ∑ j : Fin 64, x7 (ix1 j) * x12 (ix2 (⟨64 + j.val, by omega⟩ : Fin 128) (0 : Fin 1)) :=
    Cert.Algebra.second_agg_law (Finset.univ.filter (fun e : Fin 850000 => (DI (ix2 e (0 : Fin 1))).toInt = (i.val : Int)))
      (fun e k => G (ix2 (⟨min (SI (ix2 e (0 : Fin 1))).toInt.toNat (50000 - 1), by omega⟩ : Fin 50000) k)) (fun e => NRM (ix1 e)) (fun k j => x6 (ix2 k j)) (fun j => x7 (ix1 j))
      (fun j => x12 (ix2 (⟨64 + j.val, by omega⟩ : Fin 128) (0 : Fin 1)))
      (fun e k => hG _) (fun e => hN _) (fun k j => h6 _) (fun j => h7 _) (fun j => h12 _)
  rw [key]
  exact add_right_comm _ _ _

end Cert.Bridge

end
-- ==== Proof.Finite.lean ====
/-
  Finiteness of the inputs.

  The precondition says that, for each of the thirteen float arguments x, the conjunction over all entries of
  the comparison |x| < +∞ is true, and that the conjunction of these thirteen truth values is true. On the
  extended reals |x| = max x (-x), and +∞ is the top element, so |x| < +∞ excludes both infinities: every entry
  of every float argument is the image of a real number. One lemma, stated over an arbitrary shape, reads a
  single all-entries conjunction back; the precondition is then split into its thirteen conjuncts.
-/
import proofs.«152822_j8529805049887_2_alg».proof.Defs
import proofs.«152822_j8529805049887_2_alg».proof.Proof.Gen.Pre_finite_inputs
import proofs.«152822_j8529805049887_2_alg».proof.Proof.Real
import Idealize.ShloMosaic.Lib.ReduceAll
import Idealize.ShloMosaic.Lib.ValueIdx

noncomputable section

open Idealize.ShloMosaic Idealize.SL.Sem

namespace Cert.Finite

/-- The shape of a scalar has exactly one index. -/
instance : Subsingleton Cert.Pre_finite_inputs.S_.Idx := ⟨fun a b => funext fun d => d.elim0⟩

/-- A truth value, as a one-bit word, is 1 exactly when it is true. -/
theorem ofBool_eq_one (b : Bool) : BitVec.ofBool b = 1#1 ↔ b = true := by cases b <;> decide

/-- The single-precision pattern of positive infinity denotes the top element of the extended reals. -/
theorem ofBits_posInf : Ideal.ofBits .f32 0x7F800000#32 = (⊤ : EReal) := by
  simp [Ideal.ofBits, Ideal.ieee]

/-- An extended real whose absolute value max x (-x) lies strictly below the top element is a real number:
    the bottom element has absolute value top, and so does the top element. -/
theorem isReal_of_abs_lt_top (x : EReal) (h : max x (-x) < ⊤) : Cert.Real.IsReal x := by
  induction x using EReal.rec with
  | bot => simp at h
  | coe r => exact ⟨r, rfl⟩
  | top => simp at h

/-- An array, of any shape, for which the conjunction over all entries of |x| < +∞ is true holds real
    numbers only: the conjunction being true makes every compared entry true, and the comparison at one
    entry says max x (-x) < ⊤. -/
theorem realArr_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) :
    Cert.Real.RealArr x := by
  intro i
  have h := Host.reduce_andi_all _ _ hr hu j e i
  apply isReal_of_abs_lt_top
  simp only [cmpf, Host.absf, broadcastInDim, constant] at h
  change Ideal.cmp .olt (max (x i) (-(x i))) (Ideal.ofBits .f32 0x7F800000#32) = 1#1 at h
  rw [ofBits_posInf] at h
  have h2 : decide (max (x i) (-(x i)) < (⊤ : EReal)) = true := (ofBool_eq_one _).1 h
  exact of_decide_eq_true h2

/-- The precondition read back: each of the thirteen float arguments holds real numbers only. The
    predicate is a left-nested conjunction of thirteen all-entries conjunctions, one per float argument. -/
theorem real_all [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg0)) ∧
    Cert.Real.RealArr (m ((c.tc : Thread Cert.KernelIdeal.nD Cert.KernelIdeal.τ).loc Cert.KernelIdeal.main_arg2)) ∧
    Cert.Real.RealArr (m ((c.tc : Thread Cert.KernelIdeal.nD Cert.KernelIdeal.τ).loc Cert.KernelIdeal.main_arg3)) ∧
    Cert.Real.RealArr (m ((c.tc : Thread Cert.KernelIdeal.nD Cert.KernelIdeal.τ).loc Cert.KernelIdeal.main_arg4)) ∧
    Cert.Real.RealArr (m ((c.tc : Thread Cert.KernelIdeal.nD Cert.KernelIdeal.τ).loc Cert.KernelIdeal.main_arg5)) ∧
    Cert.Real.RealArr (m ((c.tc : Thread Cert.KernelIdeal.nD Cert.KernelIdeal.τ).loc Cert.KernelIdeal.main_arg6)) ∧
    Cert.Real.RealArr (m ((c.tc : Thread Cert.KernelIdeal.nD Cert.KernelIdeal.τ).loc Cert.KernelIdeal.main_arg7)) ∧
    Cert.Real.RealArr (m ((c.tc : Thread Cert.KernelIdeal.nD Cert.KernelIdeal.τ).loc Cert.KernelIdeal.main_arg8)) ∧
    Cert.Real.RealArr (m ((c.tc : Thread Cert.KernelIdeal.nD Cert.KernelIdeal.τ).loc Cert.KernelIdeal.main_arg9)) ∧
    Cert.Real.RealArr (m ((c.tc : Thread Cert.KernelIdeal.nD Cert.KernelIdeal.τ).loc Cert.KernelIdeal.main_arg10)) ∧
    Cert.Real.RealArr (m ((c.tc : Thread Cert.KernelIdeal.nD Cert.KernelIdeal.τ).loc Cert.KernelIdeal.main_arg11)) ∧
    Cert.Real.RealArr (m ((c.tc : Thread Cert.KernelIdeal.nD Cert.KernelIdeal.τ).loc Cert.KernelIdeal.main_arg12)) ∧
    Cert.Real.RealArr (m ((c.tc : Thread Cert.KernelIdeal.nD Cert.KernelIdeal.τ).loc Cert.KernelIdeal.main_arg13)) := by
  have e := congrFun (hpre c) ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨⟨⟨h0, h2⟩, h3⟩, h4⟩, h5⟩, h6⟩, h7⟩, h8⟩, h9⟩, h10⟩, h11⟩, h12⟩, h13⟩ := e
  exact ⟨realArr_of_all _ _ _ _ _ h0,
    realArr_of_all _ _ _ _ _ h2,
    realArr_of_all _ _ _ _ _ h3,
    realArr_of_all _ _ _ _ _ h4,
    realArr_of_all _ _ _ _ _ h5,
    realArr_of_all _ _ _ _ _ h6,
    realArr_of_all _ _ _ _ _ h7,
    realArr_of_all _ _ _ _ _ h8,
    realArr_of_all _ _ _ _ _ h9,
    realArr_of_all _ _ _ _ _ h10,
    realArr_of_all _ _ _ _ _ h11,
    realArr_of_all _ _ _ _ _ h12,
    realArr_of_all _ _ _ _ _ h13⟩

/-- Argument 0 holds real numbers only. -/
theorem real_arg0 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg0)) :=
  (real_all m hpre c).1

/-- Argument 2 holds real numbers only. -/
theorem real_arg2 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg2)) :=
  (real_all m hpre c).2.1

/-- Argument 3 holds real numbers only. -/
theorem real_arg3 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg3)) :=
  (real_all m hpre c).2.2.1

/-- Argument 4 holds real numbers only. -/
theorem real_arg4 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg4)) :=
  (real_all m hpre c).2.2.2.1

/-- Argument 5 holds real numbers only. -/
theorem real_arg5 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg5)) :=
  (real_all m hpre c).2.2.2.2.1

/-- Argument 6 holds real numbers only. -/
theorem real_arg6 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg6)) :=
  (real_all m hpre c).2.2.2.2.2.1

/-- Argument 7 holds real numbers only. -/
theorem real_arg7 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg7)) :=
  (real_all m hpre c).2.2.2.2.2.2.1

/-- Argument 8 holds real numbers only. -/
theorem real_arg8 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg8)) :=
  (real_all m hpre c).2.2.2.2.2.2.2.1

/-- Argument 9 holds real numbers only. -/
theorem real_arg9 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg9)) :=
  (real_all m hpre c).2.2.2.2.2.2.2.2.1

/-- Argument 10 holds real numbers only. -/
theorem real_arg10 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg10)) :=
  (real_all m hpre c).2.2.2.2.2.2.2.2.2.1

/-- Argument 11 holds real numbers only. -/
theorem real_arg11 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg11)) :=
  (real_all m hpre c).2.2.2.2.2.2.2.2.2.2.1

/-- Argument 12 holds real numbers only. -/
theorem real_arg12 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg12)) :=
  (real_all m hpre c).2.2.2.2.2.2.2.2.2.2.2.1

/-- Argument 13 holds real numbers only. -/
theorem real_arg13 [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Real.RealArr (m ((c.tc : Thread Cert.KernelIdeal.nD Cert.KernelIdeal.τ).loc Cert.KernelIdeal.main_arg13)) :=
  (real_all m hpre c).2.2.2.2.2.2.2.2.2.2.2.2

end Cert.Finite

end
-- ==== Proof.LibRealOps.lean ====
/-
  Arrays of extended reals whose entries are real numbers, under the host operations of a reference program.

  At the exact (extended-real) reading of the float operations, each operation below sends arrays of real numbers
  to an array of real numbers. The layout operations (gather, broadcast, reshape, slice, concatenation, selection)
  return, at every index, an entry of one of their operands. Pointwise sums, products and maxima of real numbers
  are real. A contraction and an accumulating scatter are finite sums of real numbers and of products of real
  numbers. The reciprocal square root of a real number that is at least a positive constant is the real number
  1/sqrt(x). Three single-precision words are evaluated: zero, one, and the word of 9223372 * 2^(-63), a positive
  real number close to 10^(-12).
-/
import Idealize.ShloMosaic.PureOps.Ideal
import Idealize.ShloMosaic.PureOps.Ideal.Laws
import Idealize.ShloMosaic.Lib.IdealHost
import proofs.«152822_j8529805049887_2_alg».proof.Proof.Real

noncomputable section

open scoped BigOperators
open Idealize.ShloMosaic
open Cert.Real

namespace Cert.RealOps

/-! ### Layout operations: every entry of the result is an entry of an operand -/

/-- A gather returns, at every index, an entry of its operand. -/
theorem RealArr.gather {s si t : Shape} {w : Nat} (d : GatherDims s si t) (x : s.Idx → EReal) (idx : IVec si w)
    (hx : RealArr x) : RealArr (Host.gather d x idx) :=
  fun j => hx (d.operandIdx j idx)

/-- A broadcast along named axes returns, at every index, an entry of its operand. -/
theorem RealArr.broadcastInDim {s : Shape} (t : Shape) (dims : Fin s.rank → Fin t.rank)
    (h : s.BroadcastsInDim t dims) (x : s.Idx → EReal) (hx : RealArr x) :
    RealArr (broadcastInDim t dims h x) :=
  fun _ => hx _

/-- A reshape returns, at every index, an entry of its operand. -/
theorem RealArr.shapeCast {s : Shape} (t : Shape) (x : s.Idx → EReal) (h : s.ShapeCasts t) (hx : RealArr x) :
    RealArr (shapeCast t x h) :=
  fun _ => hx _

/-- A slice returns, at every index, an entry of its operand. -/
theorem RealArr.extractStridedSlice {s : Shape} (t : Shape) (off : Fin s.rank → Nat) (x : s.Idx → EReal)
    (h : s.Slices off t) (hx : RealArr x) : RealArr (extractStridedSlice t off x h) :=
  fun _ => hx _

/-- A concatenation returns, at every index, an entry of one of its pieces. -/
theorem RealArr.concatenate (t : Shape) (a : Fin t.rank) (xs : List ((s : Shape) × (s.Idx → EReal)))
    (h : Shape.Concatenates (xs.map (·.1)) t a) (hx : ∀ p ∈ xs, RealArr p.2) :
    RealArr (Idealize.ShloMosaic.concatenate t a xs h) := by
  intro j
  simp only [Idealize.ShloMosaic.concatenate]
  exact hx _ (List.getElem_mem _) _

/-- A concatenation of two pieces of real numbers. -/
theorem RealArr.concatenate_pair (t : Shape) (a : Fin t.rank) {s₁ s₂ : Shape} (x₁ : s₁.Idx → EReal)
    (x₂ : s₂.Idx → EReal)
    (h : Shape.Concatenates (([⟨s₁, x₁⟩, ⟨s₂, x₂⟩] : List ((s : Shape) × (s.Idx → EReal))).map (·.1)) t a)
    (h₁ : RealArr x₁) (h₂ : RealArr x₂) :
    RealArr (Idealize.ShloMosaic.concatenate t a [⟨s₁, x₁⟩, ⟨s₂, x₂⟩] h) := by
  refine RealArr.concatenate t a _ h ?_
  intro p hp
  simp only [List.mem_cons, List.mem_nil_iff, or_false] at hp
  rcases hp with rfl | rfl
  · exact h₁
  · exact h₂

/-- A selection returns, at every index, the entry of one of its two branches. -/
theorem RealArr.select {s : Shape} (c : IVec s 1) (a b : s.Idx → EReal) (ha : RealArr a) (hb : RealArr b) :
    RealArr (select c a b) := by
  intro i
  show IsReal (Scalar.select (c i) (a i) (b i))
  unfold Scalar.select
  split
  · exact ha i
  · exact hb i

/-! ### Pointwise arithmetic -/

/-- The pointwise sum of two arrays of real numbers. -/
theorem RealArr.addf {s : Shape} {φ : FTy} (x y : FVec Ideal s φ) (hx : RealArr x) (hy : RealArr y) :
    RealArr (addf x y) :=
  fun i => (hx i).add (hy i)

/-- The pointwise product of two arrays of real numbers. -/
theorem RealArr.mulf {s : Shape} {φ : FTy} (x y : FVec Ideal s φ) (hx : RealArr x) (hy : RealArr y) :
    RealArr (mulf x y) :=
  fun i => (hx i).mul (hy i)

/-- The pointwise maximum of two arrays of real numbers. -/
theorem RealArr.maximumf {s : Shape} {φ : FTy} (x y : FVec Ideal s φ) (hx : RealArr x) (hy : RealArr y) :
    RealArr (maximumf x y) :=
  fun i => (hx i).max (hy i)

/-- The pointwise maximum with an array that is the real constant `c` everywhere is, at every index, a real number
    that is at least `c`. -/
theorem maximumf_ge {s : Shape} {φ : FTy} (x y : FVec Ideal s φ) (c : ℝ) (hx : RealArr x)
    (hy : ∀ i, y i = (c : EReal)) : ∀ i, ∃ r : ℝ, c ≤ r ∧ maximumf x y i = (r : EReal) := by
  intro i
  obtain ⟨a, ha⟩ := hx i
  refine ⟨max a c, le_max_right a c, ?_⟩
  show max (x i) (y i) = _
  rw [ha, hy i]
  exact (EReal.coe_strictMono.monotone.map_max).symm

/-! ### Constants -/

/-- The single-precision word of zero is the real number zero. -/
theorem isReal_ofBits_zero_f32 : IsReal (Ideal.ofBits .f32 0x00000000#32) := by
  rw [Ideal.ofBits_zero_f32]; exact IsReal.zero

/-- The single-precision word `0x3F800000` is the real number one. -/
theorem isReal_ofBits_one_f32 : IsReal (Ideal.ofBits .f32 0x3F800000#32) := by
  rw [Ideal.ofBits_one_f32]; exact ⟨1, EReal.coe_one.symm⟩

/-- The real number `9223372 * 2^(-63)`, the value of the single-precision word `0x2B8CBCCC` (printed as
    `9.99999996E-13`). -/
def tiny : ℝ := 9223372 * (2 : ℝ) ^ (-63 : ℤ)

theorem tiny_pos : 0 < tiny := by
  unfold tiny; positivity

/-- The single-precision word `0x2B8CBCCC`: sign `0`, exponent field `87`, fraction field `834764`, so its value is
    `(2^23 + 834764) * 2^(87 - 127 - 23)`. -/
theorem ofBits_tiny_f32 : Ideal.ofBits .f32 0x2B8CBCCC#32 = (tiny : EReal) := by
  unfold tiny
  simp [Ideal.ofBits, Ideal.ieee, -EReal.coe_mul]

theorem isReal_ofBits_tiny_f32 : IsReal (Ideal.ofBits .f32 0x2B8CBCCC#32) := ⟨tiny, ofBits_tiny_f32⟩

theorem ofBits_tiny_f32_pos : 0 < Ideal.ofBits .f32 0x2B8CBCCC#32 := by
  rw [ofBits_tiny_f32]; exact_mod_cast tiny_pos

/-- A constant array of a word whose value is a real number. -/
theorem RealArr.constant (s : Shape) (φ : FTy) (b : BitVec φ.bits) (hb : IsReal (Ideal.ofBits φ b)) :
    RealArr (constant (F := Ideal) s φ b) :=
  fun _ => hb

/-! ### Finite sums: contraction and accumulating scatter -/

/-- The host contraction of two arrays of real numbers: every entry is a finite sum of products of entries. -/
theorem RealArr.dotGeneral {sl sr so : Shape} {φ₁ φ₂ : FTy} (d : DotDims sl sr so) (prec : Option ContractPrecision)
    (lhs : FVec Ideal sl φ₁) (rhs : FVec Ideal sr φ₂) (hl : RealArr lhs) (hr : RealArr rhs) :
    RealArr (Host.dotGeneral d prec lhs rhs) := by
  intro j
  simp only [Host.dotGeneral]
  rw [Ideal.dotGeneral_apply]
  exact IsReal.sum _ _ fun k _ => (hl _).mul (hr _)

/-- The accumulating scatter is the instance's accumulating scatter at the single-device schedule, at any reading of
    the float operations. -/
theorem scatterAdd_eq {F : FTy → Type} [FloatOps F] {s si u : Shape} {w : Nat} {φ : FTy} (d : ScatterDims s si u)
    (x : FVec F s φ) (idx : IVec si w) (upd : FVec F u φ) :
    Host.scatterAdd d x idx upd = FloatOps.hostScatterAdd d .single x idx upd := rfl

/-- The accumulating scatter at an index: the operand's entry plus the sum of the updates that land on it. -/
theorem scatterAdd_apply {s si u : Shape} {w : Nat} {φ : FTy} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  rw [scatterAdd_eq, Ideal.hostScatterAdd_def]
  rfl

/-- The accumulating scatter of real updates into a real operand: every entry is an entry of the operand plus a
    finite sum of updates. -/
theorem RealArr.scatterAdd {s si u : Shape} {w : Nat} {φ : FTy} (d : ScatterDims s si u) (x : FVec Ideal s φ)
    (idx : IVec si w) (upd : FVec Ideal u φ) (hx : RealArr x) (hu : RealArr upd) :
    RealArr (Host.scatterAdd d x idx upd) := by
  intro i
  rw [scatterAdd_apply]
  exact (hx i).add (IsReal.sum _ _ fun j _ => hu j)

/-! ### Reciprocal square root -/

/-- The reciprocal square root of a positive real number is the real number `1 / sqrt r`. -/
theorem rsqrt_coe_of_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- The reciprocal square root of an array whose every entry is a real number at least the positive constant `c`. -/
theorem RealArr.rsqrt {s : Shape} {φ : FTy} (x : FVec Ideal s φ) (c : ℝ) (hc : 0 < c)
    (hx : ∀ i, ∃ r : ℝ, c ≤ r ∧ x i = (r : EReal)) : RealArr (Host.rsqrt x) := by
  intro i
  obtain ⟨r, hr, hxi⟩ := hx i
  show IsReal (FloatOps.hostUnary .rsqrt (x i))
  rw [Ideal.hostUnary_rsqrt_def, hxi, rsqrt_coe_of_pos (lt_of_lt_of_le hc hr)]
  exact IsReal.coe _

end Cert.RealOps

end
-- ==== Proof.RealVals.lean ====
/-
  Two intermediate arrays of the reference are arrays of real numbers.

  The reference computes, from the edge list (sources and destinations, with one self loop per node appended) and
  the edge weights w (with a weight one appended for every self loop): the degree deg = the sum of w over the edges
  into each node; dinv = 1/sqrt(max(deg, c)) where deg > 0 and 0 elsewhere, c a positive constant; and the
  normalised weight norm = dinv[src] * w * dinv[dst] of every edge. Its first layer is
  g = max(segment_sum(gather(x * W1) * norm) + b1, 0).

  When the weights are real numbers, deg is real (a finite sum), max(deg, c) is a real number at least c > 0, so its
  reciprocal square root is real, and so are dinv and norm. When moreover x, W1 and b1 are real, x * W1 is real
  (finite sums of products), and g is real. Each step below is the closure of real arrays under one operation.
-/
import proofs.«152822_j8529805049887_2_alg».proof.Proof.Gen.ReferenceIdeal.Read
import proofs.«152822_j8529805049887_2_alg».proof.Proof.Real
import proofs.«152822_j8529805049887_2_alg».proof.Proof.LibRealOps

noncomputable section

open scoped BigOperators
open Cert.ReferenceIdeal Cert.ReferenceIdeal.Gen Idealize.ShloMosaic Idealize.ShloMosaic.TcCoe Idealize.SL.Sem Idealize.ShloMosaic.StableHlo
open Cert.Real Cert.RealOps

namespace Cert.RealVals

/-! ### Constants -/

/-- The constant one. -/
theorem cst_real : RealArr (Read.val_main_cst (F := Ideal)) := by
  unfold Read.val_main_cst
  exact RealArr.constant _ _ _ isReal_ofBits_one_f32

/-- The constant zero the degree is accumulated into. -/
theorem cst_0_real : RealArr (Read.val_main_cst_0 (F := Ideal)) := by
  unfold Read.val_main_cst_0
  exact RealArr.constant _ _ _ isReal_ofBits_zero_f32

/-- The constant zero of the selection's other branch. -/
theorem cst_3_real : RealArr (Read.val_main_cst_3 (F := Ideal)) := by
  unfold Read.val_main_cst_3
  exact RealArr.constant _ _ _ isReal_ofBits_zero_f32

/-- The constant zero the first layer is accumulated into. -/
theorem cst_9_real : RealArr (Read.val_main_cst_9 (F := Ideal)) := by
  unfold Read.val_main_cst_9
  exact RealArr.constant _ _ _ isReal_ofBits_zero_f32

/-- The constant zero of the final maximum. -/
theorem call2_cst_real : RealArr (Read.val_main_call2_cst (F := Ideal)) := by
  unfold Read.val_main_call2_cst
  exact RealArr.constant _ _ _ isReal_ofBits_zero_f32

/-! ### The weights with the self loops' ones appended, and the degree -/

/-- The self loops' weights: one everywhere. -/
theorem v17_real : RealArr (Read.val_main_v17 (F := Ideal)) := by
  unfold Read.val_main_v17
  exact RealArr.broadcastInDim _ _ _ _ cst_real

/-- The weights w: the given weights, then the self loops' ones. -/
theorem v18_real (x2 : (⟨S800000, .f32⟩ : BufTy).Contents (Elt Ideal)) (h2 : RealArr x2) : RealArr (Read.val_main_v18 (F := Ideal) x2) := by
  unfold Read.val_main_v18
  exact RealArr.concatenate_pair _ _ _ _ _ h2 v17_real

/-- Zero everywhere: what the degree is accumulated into. -/
theorem v19_real : RealArr (Read.val_main_v19 (F := Ideal)) := by
  unfold Read.val_main_v19
  exact RealArr.broadcastInDim _ _ _ _ cst_0_real

/-- The degree: at every node, the finite sum of the weights of the edges into it. -/
theorem v21_real (x1 : (⟨S2x800000, .i32⟩ : BufTy).Contents (Elt Ideal)) (x2 : (⟨S800000, .f32⟩ : BufTy).Contents (Elt Ideal)) (h2 : RealArr x2) : RealArr (Read.val_main_v21 (F := Ideal) x1 x2) := by
  unfold Read.val_main_v21
  exact RealArr.scatterAdd _ _ _ _ v19_real (v18_real x2 h2)

/-! ### The reciprocal square root of the degree -/

/-- The lower bound c of the degree under the square root: the positive real number `tiny` everywhere. -/
theorem v24_eq (i : S50000.Idx) : Read.val_main_v24 (F := Ideal) i = (tiny : EReal) := by
  rw [Read.val_main_v24_apply, Read.val_main_cst_2_apply, Ideal.ofBits_def, ofBits_tiny_f32]

/-- max(deg, c) is, at every node, a real number at least c. -/
theorem v25_ge (x1 : (⟨S2x800000, .i32⟩ : BufTy).Contents (Elt Ideal)) (x2 : (⟨S800000, .f32⟩ : BufTy).Contents (Elt Ideal)) (h2 : RealArr x2) :
    ∀ i, ∃ r : ℝ, tiny ≤ r ∧ Read.val_main_v25 (F := Ideal) x1 x2 i = (r : EReal) := by
  unfold Read.val_main_v25
  exact maximumf_ge _ _ tiny (v21_real x1 x2 h2) v24_eq

/-- 1/sqrt(max(deg, c)) is real: its argument is at least c > 0. -/
theorem v26_real (x1 : (⟨S2x800000, .i32⟩ : BufTy).Contents (Elt Ideal)) (x2 : (⟨S800000, .f32⟩ : BufTy).Contents (Elt Ideal)) (h2 : RealArr x2) : RealArr (Read.val_main_v26 (F := Ideal) x1 x2) := by
  unfold Read.val_main_v26
  exact RealArr.rsqrt _ tiny tiny_pos (v25_ge x1 x2 h2)

/-- Zero everywhere: the value of dinv where the degree is not positive. -/
theorem call1_v1_real : RealArr (Read.val_main_call1_v1 (F := Ideal)) := by
  unfold Read.val_main_call1_v1 Read.val_main_call1_v0
  exact RealArr.broadcastInDim _ _ _ _ cst_3_real

/-- dinv: 1/sqrt(max(deg, c)) where deg > 0, and 0 elsewhere. -/
theorem v27_real (x1 : (⟨S2x800000, .i32⟩ : BufTy).Contents (Elt Ideal)) (x2 : (⟨S800000, .f32⟩ : BufTy).Contents (Elt Ideal)) (h2 : RealArr x2) : RealArr (Read.val_main_v27 (F := Ideal) x1 x2) := by
  unfold Read.val_main_v27
  exact RealArr.select _ _ _ (v26_real x1 x2 h2) call1_v1_real

/-! ### The normalised weights -/

/-- dinv at the source of every edge. -/
theorem v34_real (x1 : (⟨S2x800000, .i32⟩ : BufTy).Contents (Elt Ideal)) (x2 : (⟨S800000, .f32⟩ : BufTy).Contents (Elt Ideal)) (h2 : RealArr x2) : RealArr (Read.val_main_v34 (F := Ideal) x1 x2) := by
  unfold Read.val_main_v34
  exact RealArr.gather _ _ _ (v27_real x1 x2 h2)

/-- dinv[src] * w. -/
theorem v35_real (x1 : (⟨S2x800000, .i32⟩ : BufTy).Contents (Elt Ideal)) (x2 : (⟨S800000, .f32⟩ : BufTy).Contents (Elt Ideal)) (h2 : RealArr x2) : RealArr (Read.val_main_v35 (F := Ideal) x1 x2) := by
  unfold Read.val_main_v35
  exact RealArr.mulf _ _ (v34_real x1 x2 h2) (v18_real x2 h2)

/-- dinv at the destination of every edge. -/
theorem v42_real (x1 : (⟨S2x800000, .i32⟩ : BufTy).Contents (Elt Ideal)) (x2 : (⟨S800000, .f32⟩ : BufTy).Contents (Elt Ideal)) (h2 : RealArr x2) : RealArr (Read.val_main_v42 (F := Ideal) x1 x2) := by
  unfold Read.val_main_v42
  exact RealArr.gather _ _ _ (v27_real x1 x2 h2)

/-- The normalised weights norm = dinv[src] * w * dinv[dst] are real numbers when the weights are. -/
theorem norm_real (x1 : (⟨S2x800000, .i32⟩ : BufTy).Contents (Elt Ideal)) (x2 : (⟨S800000, .f32⟩ : BufTy).Contents (Elt Ideal)) (h2 : RealArr x2) : RealArr (Read.val_main_v43 (F := Ideal) x1 x2) := by
  unfold Read.val_main_v43
  exact RealArr.mulf _ _ (v35_real x1 x2 h2) (v42_real x1 x2 h2)

/-! ### The first layer -/

/-- x * W1: every entry is a finite sum of products of real numbers. -/
theorem v13_real (x0 : (⟨S50000x256, .f32⟩ : BufTy).Contents (Elt Ideal)) (x4 : (⟨S256x64, .f32⟩ : BufTy).Contents (Elt Ideal)) (h0 : RealArr x0) (h4 : RealArr x4) :
    RealArr (Read.val_main_v13 (F := Ideal) x0 x4) := by
  unfold Read.val_main_v13
  exact RealArr.dotGeneral _ _ _ _ h0 h4

/-- The rows of x * W1 at the source of every edge. -/
theorem v50_real (x0 : (⟨S50000x256, .f32⟩ : BufTy).Contents (Elt Ideal)) (x1 : (⟨S2x800000, .i32⟩ : BufTy).Contents (Elt Ideal)) (x4 : (⟨S256x64, .f32⟩ : BufTy).Contents (Elt Ideal)) (h0 : RealArr x0) (h4 : RealArr x4) :
    RealArr (Read.val_main_v50 (F := Ideal) x0 x1 x4) := by
  unfold Read.val_main_v50
  exact RealArr.gather _ _ _ (v13_real x0 x4 h0 h4)

/-- norm as a column. -/
theorem v51_real (x1 : (⟨S2x800000, .i32⟩ : BufTy).Contents (Elt Ideal)) (x2 : (⟨S800000, .f32⟩ : BufTy).Contents (Elt Ideal)) (h2 : RealArr x2) : RealArr (Read.val_main_v51 (F := Ideal) x1 x2) := by
  unfold Read.val_main_v51
  exact RealArr.broadcastInDim _ _ _ _ (norm_real x1 x2 h2)

/-- norm repeated along every row. -/
theorem v52_real (x1 : (⟨S2x800000, .i32⟩ : BufTy).Contents (Elt Ideal)) (x2 : (⟨S800000, .f32⟩ : BufTy).Contents (Elt Ideal)) (h2 : RealArr x2) : RealArr (Read.val_main_v52 (F := Ideal) x1 x2) := by
  unfold Read.val_main_v52
  exact RealArr.broadcastInDim _ _ _ _ (v51_real x1 x2 h2)

/-- The messages: the gathered rows times norm. -/
theorem v53_real (x0 : (⟨S50000x256, .f32⟩ : BufTy).Contents (Elt Ideal)) (x1 : (⟨S2x800000, .i32⟩ : BufTy).Contents (Elt Ideal)) (x2 : (⟨S800000, .f32⟩ : BufTy).Contents (Elt Ideal)) (x4 : (⟨S256x64, .f32⟩ : BufTy).Contents (Elt Ideal)) (h0 : RealArr x0) (h2 : RealArr x2) (h4 : RealArr x4) :
    RealArr (Read.val_main_v53 (F := Ideal) x0 x1 x2 x4) := by
  unfold Read.val_main_v53
  exact RealArr.mulf _ _ (v50_real x0 x1 x4 h0 h4) (v52_real x1 x2 h2)

/-- Zero everywhere: what the messages are accumulated into. -/
theorem v54_real : RealArr (Read.val_main_v54 (F := Ideal)) := by
  unfold Read.val_main_v54
  exact RealArr.broadcastInDim _ _ _ _ cst_9_real

/-- The sum of the messages into every node. -/
theorem v56_real (x0 : (⟨S50000x256, .f32⟩ : BufTy).Contents (Elt Ideal)) (x1 : (⟨S2x800000, .i32⟩ : BufTy).Contents (Elt Ideal)) (x2 : (⟨S800000, .f32⟩ : BufTy).Contents (Elt Ideal)) (x4 : (⟨S256x64, .f32⟩ : BufTy).Contents (Elt Ideal)) (h0 : RealArr x0) (h2 : RealArr x2) (h4 : RealArr x4) :
    RealArr (Read.val_main_v56 (F := Ideal) x0 x1 x2 x4) := by
  unfold Read.val_main_v56
  exact RealArr.scatterAdd _ _ _ _ v54_real (v53_real x0 x1 x2 x4 h0 h2 h4)

/-- The bias as a row. -/
theorem v57_real (x5 : (⟨S64, .f32⟩ : BufTy).Contents (Elt Ideal)) (h5 : RealArr x5) : RealArr (Read.val_main_v57 (F := Ideal) x5) := by
  unfold Read.val_main_v57
  exact RealArr.broadcastInDim _ _ _ _ h5

/-- The bias repeated for every node. -/
theorem v58_real (x5 : (⟨S64, .f32⟩ : BufTy).Contents (Elt Ideal)) (h5 : RealArr x5) : RealArr (Read.val_main_v58 (F := Ideal) x5) := by
  unfold Read.val_main_v58
  exact RealArr.broadcastInDim _ _ _ _ (v57_real x5 h5)

/-- The summed messages plus the bias. -/
theorem v59_real (x0 : (⟨S50000x256, .f32⟩ : BufTy).Contents (Elt Ideal)) (x1 : (⟨S2x800000, .i32⟩ : BufTy).Contents (Elt Ideal)) (x2 : (⟨S800000, .f32⟩ : BufTy).Contents (Elt Ideal)) (x4 : (⟨S256x64, .f32⟩ : BufTy).Contents (Elt Ideal)) (x5 : (⟨S64, .f32⟩ : BufTy).Contents (Elt Ideal)) (h0 : RealArr x0) (h2 : RealArr x2) (h4 : RealArr x4)
    (h5 : RealArr x5) : RealArr (Read.val_main_v59 (F := Ideal) x0 x1 x2 x4 x5) := by
  unfold Read.val_main_v59
  exact RealArr.addf _ _ (v56_real x0 x1 x2 x4 h0 h2 h4) (v58_real x5 h5)

/-- Zero everywhere: the other operand of the final maximum. -/
theorem call2_v0_real : RealArr (Read.val_main_call2_v0 (F := Ideal)) := by
  unfold Read.val_main_call2_v0
  exact RealArr.broadcastInDim _ _ _ _ call2_cst_real

/-- The first layer g = max(segment_sum(gather(x * W1) * norm) + b1, 0) is an array of real numbers when the
    features, the weights, the matrix W1 and the bias b1 are. -/
theorem g_real (x0 : (⟨S50000x256, .f32⟩ : BufTy).Contents (Elt Ideal)) (x1 : (⟨S2x800000, .i32⟩ : BufTy).Contents (Elt Ideal)) (x2 : (⟨S800000, .f32⟩ : BufTy).Contents (Elt Ideal)) (x4 : (⟨S256x64, .f32⟩ : BufTy).Contents (Elt Ideal)) (x5 : (⟨S64, .f32⟩ : BufTy).Contents (Elt Ideal)) (h0 : RealArr x0) (h2 : RealArr x2) (h4 : RealArr x4)
    (h5 : RealArr x5) : RealArr (Read.val_main_v60 (F := Ideal) x0 x1 x2 x4 x5) := by
  unfold Read.val_main_v60
  exact RealArr.maximumf _ _ (v59_real x0 x1 x2 x4 x5 h0 h2 h4 h5) call2_v0_real

end Cert.RealVals

end
-- ==== Proof.lean ====
/-
  A two-layer graph convolution beside a two-layer perceptron, joined by a linear head, on 50000 nodes and 800000
  weighted edges: the kernel against its reference, on the extended reals.

  Both programs add one self-loop of weight 1 per node, sum the weights into each node's degree, take
  d = 1 / sqrt(max(degree, tiny)) (0 where the degree is not positive) and normalise edge e by d(source) · w(e) · d(target).
  A convolution gathers the transformed features along the source rows, scales them by the normalisation and sums them
  into the target rows; an edge whose target lies outside the node range lands nowhere, and a source outside it reads
  the nearest node. The reference computes mlp = relu(u · A + a) · B + b, g = relu(conv(x · W₁) + β₁),
  out = conv(g · W₂) + β₂, and returns [mlp, out] · f + s for the head column f and bias s.

  The kernel computes x · W₁ and the first half of the head, mlp · f_top + s, in one pipelined region over blocks of
  2000 rows; the same first convolution on the host; in a second region relu(· + β₁) times the column W₂ · f_bot; and on
  the host the second convolution of that single column, plus β₂ · f_bot, plus the first half of the head. The first
  convolution, the clamp, the perceptron, the normalisation and the row numbers are the same functions of the same
  arguments on both sides and are never opened. What differs is linear algebra at one output row i:

    ∑ⱼ ((∑ₑ (∑ₖ g(src e, k) · W₂(k, j)) · n(e)) + β₂(j)) · f_bot(j)
      = (∑ₑ (∑ₖ g(src e, k) · (∑ⱼ W₂(k, j) · f_bot(j))) · n(e)) + ∑ⱼ β₂(j) · f_bot(j),

  the sums over e running over the edges whose target row is i, together with the split of a sum over 128 head entries
  into its two halves and a regrouping of three summands. Multiplication distributes over addition on the extended
  reals only away from the infinities, so the law is used on real numbers: every float input is finite by the
  precondition, the degree is a finite sum of reals, max(degree, tiny) is at least the positive real tiny, so its
  inverse square root is real, and with it the normalisation, the first convolution and its clamp. The perceptron's
  output and the head bias are carried as they are and need not be real.
-/
import proofs.«152822_j8529805049887_2_alg».proof.Defs
import proofs.«152822_j8529805049887_2_alg».proof.Proof.Gen.Kernel
import proofs.«152822_j8529805049887_2_alg».proof.Proof.Gen.Kernel.Frame
import proofs.«152822_j8529805049887_2_alg».proof.Proof.Gen.KernelIdeal
import proofs.«152822_j8529805049887_2_alg».proof.Proof.Gen.KernelIdeal.Frame
import proofs.«152822_j8529805049887_2_alg».proof.Proof.Gen.ReferenceIdeal
import proofs.«152822_j8529805049887_2_alg».proof.Proof.Gen.Pre_finite_inputs
import proofs.«152822_j8529805049887_2_alg».proof.Proof.Gen.ReferenceIdeal.Run
import proofs.«152822_j8529805049887_2_alg».proof.Proof.Gen.ReferenceIdeal.Read
import proofs.«152822_j8529805049887_2_alg».proof.Proof.KRun
import proofs.«152822_j8529805049887_2_alg».proof.Proof.KOut
import proofs.«152822_j8529805049887_2_alg».proof.Proof.RefRead
import proofs.«152822_j8529805049887_2_alg».proof.Proof.Bridge
import proofs.«152822_j8529805049887_2_alg».proof.Proof.Finite
import proofs.«152822_j8529805049887_2_alg».proof.Proof.RealVals
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

attribute [local irreducible] Cert.ReferenceIdeal.Read.val_main_v12 Cert.ReferenceIdeal.Read.val_main_v43 Cert.ReferenceIdeal.Read.val_main_v49 Cert.ReferenceIdeal.Read.val_main_v55 Cert.ReferenceIdeal.Read.val_main_v56 Cert.ReferenceIdeal.Read.val_main_v60

/-- Under the precondition the reference's result, as a function of the kernel's argument arrays, is the array the
    kernel's run leaves in its result buffer: row by row, the two formulas are equal by the law above. -/
theorem result_eq (m : (ℓ : Loc Cert.KernelIdeal.nD Cert.KernelIdeal.τ Cert.KernelIdeal.sig) → Buf (Elt Ideal) ℓ) (hpre : Cert.Pre_KernelIdeal m)
    (ρ : Dev Cert.KernelIdeal.nD → PrngReg) (c : Dev Cert.KernelIdeal.nD) :
    Cert.ReferenceIdeal.Read.val_main_v112 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      = Cert.KernelIdeal.Gen.W7 m ρ c (Proc.devRef .tc Cert.KernelIdeal.main_v72) := by
  funext idx
  obtain ⟨i, q, rfl⟩ : ∃ (i : Fin 50000) (q : Fin 1), idx = ix2 i q := ⟨idx 0, idx 1, eq_ix2 idx⟩
  obtain rfl : q = 0 := Subsingleton.elim _ _
  rw [Cert.RefRead.ref_at, Cert.KernelIdeal.KOut.kernel_at]
  exact (Cert.Bridge.kernel_eq_reference
    (Cert.ReferenceIdeal.Read.val_main_v12 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
    (Cert.ReferenceIdeal.Read.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
    (Cert.ReferenceIdeal.Read.val_main_v43 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
    (Cert.ReferenceIdeal.Read.val_main_v49 (F := Ideal) (m ((c.tc : Thread Cert.KernelIdeal.nD Cert.KernelIdeal.τ).loc Cert.KernelIdeal.main_arg1)))
    (Cert.ReferenceIdeal.Read.val_main_v55 (F := Ideal) (m ((c.tc : Thread Cert.KernelIdeal.nD Cert.KernelIdeal.τ).loc Cert.KernelIdeal.main_arg1)))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
    (Cert.RealVals.g_real _ _ _ _ _ (Cert.Finite.real_arg0 m hpre c) (Cert.Finite.real_arg2 m hpre c)
      (Cert.Finite.real_arg4 m hpre c) (Cert.Finite.real_arg5 m hpre c))
    (Cert.RealVals.norm_real _ _ (Cert.Finite.real_arg2 m hpre c))
    (Cert.Finite.real_arg6 m hpre c) (Cert.Finite.real_arg7 m hpre c) (Cert.Finite.real_arg12 m hpre c) i).symm

/-- The two idealized programs, run from memories that agree on the arguments, end with equal results. -/
theorem algebraic : Cert.algebraic_KernelIdeal_ReferenceIdeal := by
  intro m ρ m' ρ' hpre hagree
  refine ⟨fun c => Cert.KernelIdeal.Gen.W7 m ρ c (Proc.devRef .tc Cert.KernelIdeal.main_v72), Cert.KernelIdeal.KRun.run_result m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v112_eq, e0, e1, e2, e3, e4, e5, e6, e7, e8, e9, e10, e11, e12, e13]
  exact result_eq m hpre ρ c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
